-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x160 : Shape := ⟨2, ![65536, 160]⟩
abbrev S262144x27 : Shape := ⟨2, ![262144, 27]⟩
abbrev S65536x512 : Shape := ⟨2, ![65536, 512]⟩
abbrev S262144x512 : Shape := ⟨2, ![262144, 512]⟩
abbrev S160x512 : Shape := ⟨2, ![160, 512]⟩
abbrev S27x512 : Shape := ⟨2, ![27, 512]⟩
abbrev S_ : Shape := ⟨0, ![]⟩

class Facts : Prop where
  bcast_S_S65536x160 : S_.BroadcastsInDim S65536x160 (![] : Fin 0 → Fin S65536x160.rank)
  reducesTo_S65536x160_S_d0_1 : S65536x160.ReducesTo [0, 1] S_
  h_S_ : 0 < S_.numel
  bcast_S_S262144x27 : S_.BroadcastsInDim S262144x27 (![] : Fin 0 → Fin S262144x27.rank)
  reducesTo_S262144x27_S_d0_1 : S262144x27.ReducesTo [0, 1] S_
  bcast_S_S65536x512 : S_.BroadcastsInDim S65536x512 (![] : Fin 0 → Fin S65536x512.rank)
  reducesTo_S65536x512_S_d0_1 : S65536x512.ReducesTo [0, 1] S_
  bcast_S_S262144x512 : S_.BroadcastsInDim S262144x512 (![] : Fin 0 → Fin S262144x512.rank)
  reducesTo_S262144x512_S_d0_1 : S262144x512.ReducesTo [0, 1] S_
  bcast_S_S160x512 : S_.BroadcastsInDim S160x512 (![] : Fin 0 → Fin S160x512.rank)
  reducesTo_S160x512_S_d0_1 : S160x512.ReducesTo [0, 1] S_
  bcast_S_S27x512 : S_.BroadcastsInDim S27x512 (![] : Fin 0 → Fin S27x512.rank)
  reducesTo_S27x512_S_d0_1 : S27x512.ReducesTo [0, 1] S_

variable [Facts]

def fn_part2 {F : FTy → Type} [FloatOps F] (main_arg7 : FVec F S262144x27 .f32) (main_v33 : IVec S_ 1) : IVec S_ 1 :=
  let main_v34 : FVec F S262144x27 .f32 := Host.absf main_arg7
  let main_cst_12 : FVec F S_ .f32 := constant S_ .f32 0x7F800000#32
  let main_v35 : FVec F S262144x27 .f32 := broadcastInDim S262144x27 ![] bcast_S_S262144x27 main_cst_12
  let main_v36 : IVec S262144x27 1 := cmpf .olt main_v34 main_v35
  let main_c_13 : IVec S_ 1 := constantI S_ 1 1#1
  let main_v37 : IVec S_ 1 := (fun x v => Host.reduce IntOp.andi x v reducesTo_S262144x27_S_d0_1 h_S_) main_v36 main_c_13
  let main_v38 : IVec S_ 1 := andi main_v33 main_v37
  main_v38

def fn_part1 {F : FTy → Type} [FloatOps F] (main_arg4 : FVec F S160x512 .f32) (main_arg5 : FVec F S27x512 .f32) (main_arg6 : FVec F S65536x160 .f32) (main_arg7 : FVec F S262144x27 .f32) (main_v13 : IVec S_ 1) (main_v16 : IVec S262144x512 1) : IVec S_ 1 :=
  let main_c_5 : IVec S_ 1 := constantI S_ 1 1#1
  let main_v17 : IVec S_ 1 := (fun x v => Host.reduce IntOp.andi x v reducesTo_S262144x512_S_d0_1 h_S_) main_v16 main_c_5
  let main_v18 : IVec S_ 1 := andi main_v13 main_v17
  let main_v19 : FVec F S160x512 .f32 := Host.absf main_arg4
  let main_cst_6 : FVec F S_ .f32 := constant S_ .f32 0x7F800000#32
  let main_v20 : FVec F S160x512 .f32 := broadcastInDim S160x512 ![] bcast_S_S160x512 main_cst_6
  let main_v21 : IVec S160x512 1 := cmpf .olt main_v19 main_v20
  let main_c_7 : IVec S_ 1 := constantI S_ 1 1#1
  let main_v22 : IVec S_ 1 := (fun x v => Host.reduce IntOp.andi x v reducesTo_S160x512_S_d0_1 h_S_) main_v21 main_c_7
  let main_v23 : IVec S_ 1 := andi main_v18 main_v22
  let main_v24 : FVec F S27x512 .f32 := Host.absf main_arg5
  let main_cst_8 : FVec F S_ .f32 := constant S_ .f32 0x7F800000#32
  let main_v25 : FVec F S27x512 .f32 := broadcastInDim S27x512 ![] bcast_S_S27x512 main_cst_8
  let main_v26 : IVec S27x512 1 := cmpf .olt main_v24 main_v25
  let main_c_9 : IVec S_ 1 := constantI S_ 1 1#1
  let main_v27 : IVec S_ 1 := (fun x v => Host.reduce IntOp.andi x v reducesTo_S27x512_S_d0_1 h_S_) main_v26 main_c_9
  let main_v28 : IVec S_ 1 := andi main_v23 main_v27
  let main_v29 : FVec F S65536x160 .f32 := Host.absf main_arg6
  let main_cst_10 : FVec F S_ .f32 := constant S_ .f32 0x7F800000#32
  let main_v30 : FVec F S65536x160 .f32 := broadcastInDim S65536x160 ![] bcast_S_S65536x160 main_cst_10
  let main_v31 : IVec S65536x160 1 := cmpf .olt main_v29 main_v30
  let main_c_11 : IVec S_ 1 := constantI S_ 1 1#1
  let main_v32 : IVec S_ 1 := (fun x v => Host.reduce IntOp.andi x v reducesTo_S65536x160_S_d0_1 h_S_) main_v31 main_c_11
  let main_v33 : IVec S_ 1 := andi main_v28 main_v32
  fn_part2 (F := F) main_arg7 main_v33

def fn {F : FTy → Type} [FloatOps F] (main_arg0 : FVec F S65536x160 .f32) (main_arg1 : FVec F S262144x27 .f32) (main_arg2 : FVec F S65536x512 .f32) (main_arg3 : FVec F S262144x512 .f32) (main_arg4 : FVec F S160x512 .f32) (main_arg5 : FVec F S27x512 .f32) (main_arg6 : FVec F S65536x160 .f32) (main_arg7 : FVec F S262144x27 .f32) : IVec S_ 1 :=
  let main_v0 : FVec F S65536x160 .f32 := Host.absf main_arg0
  let main_cst : FVec F S_ .f32 := constant S_ .f32 0x7F800000#32
  let main_v1 : FVec F S65536x160 .f32 := broadcastInDim S65536x160 ![] bcast_S_S65536x160 main_cst
  let main_v2 : IVec S65536x160 1 := cmpf .olt main_v0 main_v1
  let main_c : IVec S_ 1 := constantI S_ 1 1#1
  let main_v3 : IVec S_ 1 := (fun x v => Host.reduce IntOp.andi x v reducesTo_S65536x160_S_d0_1 h_S_) main_v2 main_c
  let main_v4 : FVec F S262144x27 .f32 := Host.absf main_arg1
  let main_cst_0 : FVec F S_ .f32 := constant S_ .f32 0x7F800000#32
  let main_v5 : FVec F S262144x27 .f32 := broadcastInDim S262144x27 ![] bcast_S_S262144x27 main_cst_0
  let main_v6 : IVec S262144x27 1 := cmpf .olt main_v4 main_v5
  let main_c_1 : IVec S_ 1 := constantI S_ 1 1#1
  let main_v7 : IVec S_ 1 := (fun x v => Host.reduce IntOp.andi x v reducesTo_S262144x27_S_d0_1 h_S_) main_v6 main_c_1
  let main_v8 : IVec S_ 1 := andi main_v3 main_v7
  let main_v9 : FVec F S65536x512 .f32 := Host.absf main_arg2
  let main_cst_2 : FVec F S_ .f32 := constant S_ .f32 0x7F800000#32
  let main_v10 : FVec F S65536x512 .f32 := broadcastInDim S65536x512 ![] bcast_S_S65536x512 main_cst_2
  let main_v11 : IVec S65536x512 1 := cmpf .olt main_v9 main_v10
  let main_c_3 : IVec S_ 1 := constantI S_ 1 1#1
  let main_v12 : IVec S_ 1 := (fun x v => Host.reduce IntOp.andi x v reducesTo_S65536x512_S_d0_1 h_S_) main_v11 main_c_3
  let main_v13 : IVec S_ 1 := andi main_v8 main_v12
  let main_v14 : FVec F S262144x512 .f32 := Host.absf main_arg3
  let main_cst_4 : FVec F S_ .f32 := constant S_ .f32 0x7F800000#32
  let main_v15 : FVec F S262144x512 .f32 := broadcastInDim S262144x512 ![] bcast_S_S262144x512 main_cst_4
  let main_v16 : IVec S262144x512 1 := cmpf .olt main_v14 main_v15
  fn_part1 (F := F) main_arg4 main_arg5 main_arg6 main_arg7 main_v13 main_v16
-- ==== Kernel.lean ====
abbrev S65536x160 : Shape := ⟨2, ![65536, 160]⟩
abbrev S262144x27 : Shape := ⟨2, ![262144, 27]⟩
abbrev S65536x512 : Shape := ⟨2, ![65536, 512]⟩
abbrev S262144x512 : Shape := ⟨2, ![262144, 512]⟩
abbrev S160x512 : Shape := ⟨2, ![160, 512]⟩
abbrev S27x512 : Shape := ⟨2, ![27, 512]⟩
abbrev S2x8x128 : Shape := ⟨3, ![2, 8, 128]⟩
abbrev S2048x160 : Shape := ⟨2, ![2048, 160]⟩
abbrev S2048x512 : Shape := ⟨2, ![2048, 512]⟩
abbrev S1x8x128 : Shape := ⟨3, ![1, 8, 128]⟩
abbrev S8x128 : Shape := ⟨2, ![8, 128]⟩
abbrev S2048 : Shape := ⟨1, ![2048]⟩
abbrev S2048x1 : Shape := ⟨2, ![2048, 1]⟩
abbrev S1 : Shape := ⟨1, ![1]⟩
abbrev S1x1 : Shape := ⟨2, ![1, 1]⟩
abbrev S1x1x1 : Shape := ⟨3, ![1, 1, 1]⟩
abbrev S2x1x1 : Shape := ⟨3, ![2, 1, 1]⟩
abbrev S2 : Shape := ⟨1, ![2]⟩
abbrev S_ : Shape := ⟨0, ![]⟩
abbrev S2048x27 : Shape := ⟨2, ![2048, 27]⟩

abbrev nBuf : Space → Nat
  | .hbm => 43
  | .vmem => 22
  | .smem => 0
  | _ => 0

abbrev bufTy : (tb : Table) → Fin (tcTables nBuf tb) → BufTy
  | .hbm, ⟨0, _⟩ => ⟨S65536x160, .f32⟩
  | .hbm, ⟨1, _⟩ => ⟨S262144x27, .f32⟩
  | .hbm, ⟨2, _⟩ => ⟨S65536x512, .f32⟩
  | .hbm, ⟨3, _⟩ => ⟨S262144x512, .f32⟩
  | .hbm, ⟨4, _⟩ => ⟨S160x512, .f32⟩
  | .hbm, ⟨5, _⟩ => ⟨S27x512, .f32⟩
  | .hbm, ⟨6, _⟩ => ⟨S65536x160, .f32⟩
  | .hbm, ⟨7, _⟩ => ⟨S262144x27, .f32⟩
  | .hbm, ⟨8, _⟩ => ⟨S2x8x128, .f32⟩
  | .hbm, ⟨9, _⟩ => ⟨S2x8x128, .f32⟩
  | .hbm, ⟨10, _⟩ => ⟨S2x1x1, .f32⟩
  | .hbm, ⟨11, _⟩ => ⟨S2, .f32⟩
  | .hbm, ⟨12, _⟩ => ⟨S_, .f32⟩
  | .hbm, ⟨13, _⟩ => ⟨S_, .f32⟩
  | .hbm, ⟨14, _⟩ => ⟨S2x1x1, .f32⟩
  | .hbm, ⟨15, _⟩ => ⟨S2, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S2x8x128, .f32⟩
  | .hbm, ⟨23, _⟩ => ⟨S2x8x128, .f32⟩
  | .hbm, ⟨24, _⟩ => ⟨S2x1x1, .f32⟩
  | .hbm, ⟨25, _⟩ => ⟨S2, .f32⟩
  | .hbm, ⟨26, _⟩ => ⟨S_, .f32⟩
  | .hbm, ⟨27, _⟩ => ⟨S_, .f32⟩
  | .hbm, ⟨28, _⟩ => ⟨S2x1x1, .f32⟩
  | .hbm, ⟨29, _⟩ => ⟨S2, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .local _ .vmem, ⟨0, _⟩ => ⟨S2048x160, .f32⟩
  | .local _ .vmem, ⟨1, _⟩ => ⟨S2048x160, .f32⟩
  | .local _ .vmem, ⟨2, _⟩ => ⟨S2048x160, .f32⟩
  | .local _ .vmem, ⟨3, _⟩ => ⟨S2048x160, .f32⟩
  | .local _ .vmem, ⟨4, _⟩ => ⟨S2048x512, .f32⟩
  | .local _ .vmem, ⟨5, _⟩ => ⟨S2048x512, .f32⟩
  | .local _ .vmem, ⟨6, _⟩ => ⟨S160x512, .f32⟩
  | .local _ .vmem, ⟨7, _⟩ => ⟨S1x8x128, .f32⟩
  | .local _ .vmem, ⟨8, _⟩ => ⟨S1x8x128, .f32⟩
  | .local _ .vmem, ⟨9, _⟩ => ⟨S1x8x128, .f32⟩
  | .local _ .vmem, ⟨10, _⟩ => ⟨S1x8x128, .f32⟩
  | .local _ .vmem, ⟨11, _⟩ => ⟨S2048x27, .f32⟩
  | .local _ .vmem, ⟨12, _⟩ => ⟨S2048x27, .f32⟩
  | .local _ .vmem, ⟨13, _⟩ => ⟨S2048x27, .f32⟩
  | .local _ .vmem, ⟨14, _⟩ => ⟨S2048x27, .f32⟩
  | .local _ .vmem, ⟨15, _⟩ => ⟨S2048x512, .f32⟩
  | .local _ .vmem, ⟨16, _⟩ => ⟨S2048x512, .f32⟩
  | .local _ .vmem, ⟨17, _⟩ => ⟨S27x512, .f32⟩
  | .local _ .vmem, ⟨18, _⟩ => ⟨S1x8x128, .f32⟩
  | .local _ .vmem, ⟨19, _⟩ => ⟨S1x8x128, .f32⟩
  | .local _ .vmem, ⟨20, _⟩ => ⟨S1x8x128, .f32⟩
  | .local _ .vmem, ⟨21, _⟩ => ⟨S1x8x128, .f32⟩
  | _, _ => ⟨S65536x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9_0 : Ref sig .tc := ⟨.hbm, 22, rfl⟩
abbrev main_v9_1 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_cst_5 : Ref sig .tc := ⟨.hbm, 32, rfl⟩
abbrev main_v16 : Ref sig .tc := ⟨.hbm, 33, rfl⟩
abbrev main_cst_6 : Ref sig .tc := ⟨.hbm, 34, rfl⟩
abbrev main_v17 : Ref sig .tc := ⟨.hbm, 35, rfl⟩
abbrev main_v18 : Ref sig .tc := ⟨.hbm, 36, rfl⟩
abbrev main_cst_7 : Ref sig .tc := ⟨.hbm, 37, rfl⟩
abbrev main_v19 : Ref sig .tc := ⟨.hbm, 38, rfl⟩
abbrev main_v20 : Ref sig .tc := ⟨.hbm, 39, rfl⟩
abbrev main_cst_8 : Ref sig .tc := ⟨.hbm, 40, rfl⟩
abbrev main_v21 : Ref sig .tc := ⟨.hbm, 41, rfl⟩
abbrev main_v22 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem4_1 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x160 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x160 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S160x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![2, 64], ![false, false]⟩

def cc1_transform_0 (i : grid1.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2048x27 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x27 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2048x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S27x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x8x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x8x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  inb_S2048x160_S2048x160_0_0 : ∀ a, (![0, 0] : Fin 2 → Nat) a + S2048x160.size a ≤ S2048x160.size a
  h_S2048x160 : 0 < S2048x160.numel
  reduces_S2048x160_S2048 : S2048x160.Reduces [1] S2048
  shapeCasts_S2048_S2048x1 : S2048.ShapeCasts S2048x1
  reduces_S2048x1_S1 : S2048x1.Reduces [0] S1
  shapeCasts_S1_S1x1 : S1.ShapeCasts S1x1
  bitsLt_bf16_f32 : FTy.bits .bf16 < FTy.bits .f32
  inb_S160x512_S160x512_0_0 : ∀ a, (![0, 0] : Fin 2 → Nat) a + S160x512.size a ≤ S160x512.size a
  h_S160x512 : 0 < S160x512.numel
  inb_S2048x512_S2048x512_0_0 : ∀ a, (![0, 0] : Fin 2 → Nat) a + S2048x512.size a ≤ S2048x512.size a
  h_S2048x512 : 0 < S2048x512.numel
  reduces_S2048x512_S2048 : S2048x512.Reduces [1] S2048
  inb_S1x8x128_S1x1x1_0_0_0 : ∀ a, (![0, 0, 0] : Fin 3 → Nat) a + S1x1x1.size a ≤ S1x8x128.size a
  h_S1x1x1 : 0 < S1x1x1.numel
  shapeCasts_S1x1x1_S1x1 : S1x1x1.ShapeCasts S1x1
  shapeCasts_S1x1_S1x1x1 : S1x1.ShapeCasts S1x1x1
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  inb_S2048x27_S2048x27_0_0 : ∀ a, (![0, 0] : Fin 2 → Nat) a + S2048x27.size a ≤ S2048x27.size a
  h_S2048x27 : 0 < S2048x27.numel
  reduces_S2048x27_S2048 : S2048x27.Reduces [1] S2048
  inb_S27x512_S27x512_0_0 : ∀ a, (![0, 0] : Fin 2 → Nat) a + S27x512.size a ≤ S27x512.size a
  h_S27x512 : 0 < S27x512.numel
  dot_S2048x160_S160x512_S2048x512_1_0_0_1_n_n_wf : DotDims.WF S2048x160 S160x512 S2048x512 [1] [0] [0] [1] [] []
  dot_S2048x27_S27x512_S2048x512_1_0_0_1_n_n_wf : DotDims.WF S2048x27 S27x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x160.size a ≤ S65536x160.size a
  hwx0_0 : ∀ i : grid0.Coords, EltTy.bits .f32 = 32 ∨ (Rect.block (s := S65536x160) S2048x160.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x160.size a ≤ S65536x160.size a
  hwx0_1 : ∀ i : grid0.Coords, EltTy.bits .f32 = 32 ∨ (Rect.block (s := S65536x160) S2048x160.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S65536x512.size a
  hwx0_2 : ∀ i : grid0.Coords, EltTy.bits .f32 = 32 ∨ (Rect.block (s := S65536x512) S2048x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S160x512.size a ≤ S160x512.size a
  hwx0_3 : ∀ i : grid0.Coords, EltTy.bits .f32 = 32 ∨ (Rect.block (s := S160x512) S160x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S2x8x128.size a
  hwx0_4 : ∀ i : grid0.Coords, EltTy.bits .f32 = 32 ∨ (Rect.block (s := S2x8x128) S1x8x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x128.size a ≤ S2x8x128.size a
  hwx0_5 : ∀ i : grid0.Coords, EltTy.bits .f32 = 32 ∨ (Rect.block (s := S2x8x128) S1x8x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x27.size a ≤ S262144x27.size a
  hwx1_0 : ∀ i : grid1.Coords, EltTy.bits .f32 = 32 ∨ (Rect.block (s := S262144x27) S2048x27.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x27.size a ≤ S262144x27.size a
  hwx1_1 : ∀ i : grid1.Coords, EltTy.bits .f32 = 32 ∨ (Rect.block (s := S262144x27) S2048x27.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x512.size a ≤ S262144x512.size a
  hwx1_2 : ∀ i : grid1.Coords, EltTy.bits .f32 = 32 ∨ (Rect.block (s := S262144x512) S2048x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S27x512.size a ≤ S27x512.size a
  hwx1_3 : ∀ i : grid1.Coords, EltTy.bits .f32 = 32 ∨ (Rect.block (s := S27x512) S27x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x8x128.size a ≤ S2x8x128.size a
  hwx1_4 : ∀ i : grid1.Coords, EltTy.bits .f32 = 32 ∨ (Rect.block (s := S2x8x128) S1x8x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x8x128.size a ≤ S2x8x128.size a
  hwx1_5 : ∀ i : grid1.Coords, EltTy.bits .f32 = 32 ∨ (Rect.block (s := S2x8x128) S1x8x128.size (cc1_transform_5 i) (hinb1_5 i)).WholeWords (EltTy.packing .f32)

variable [Facts₀]

def dot_S2048x160_S160x512_S2048x512_1_0_0_1_n_n : DotDims S2048x160 S160x512 S2048x512 where
  lhsContracting := [1]
  rhsContracting := [0]
  lhsNonContracting := [0]
  rhsNonContracting := [1]
  lhsBatch := []
  rhsBatch := []
  wf := dot_S2048x160_S160x512_S2048x512_1_0_0_1_n_n_wf
def dot_S2048x27_S27x512_S2048x512_1_0_0_1_n_n : DotDims S2048x27 S27x512 S2048x512 where
  lhsContracting := [1]
  rhsContracting := [0]
  lhsNonContracting := [0]
  rhsNonContracting := [1]
  lhsBatch := []
  rhsBatch := []
  wf := dot_S2048x27_S27x512_S2048x512_1_0_0_1_n_n_wf

abbrev win0_0 : Pipeline.Window sig grid0 :=
  Pipeline.Window.ofSpec (Memref.whole main_arg0) S2048x160.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S2048x160.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S160x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x8x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S2048x27.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S2048x27.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S2048x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S27x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9_0) S1x8x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v9_1) S1x8x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S65536x160 : Shape := ⟨2, ![65536, 160]⟩
abbrev S262144x27 : Shape := ⟨2, ![262144, 27]⟩
abbrev S65536x512 : Shape := ⟨2, ![65536, 512]⟩
abbrev S262144x512 : Shape := ⟨2, ![262144, 512]⟩
abbrev S160x512 : Shape := ⟨2, ![160, 512]⟩
abbrev S27x512 : Shape := ⟨2, ![27, 512]⟩
abbrev S_ : Shape := ⟨0, ![]⟩
abbrev S65536 : Shape := ⟨1, ![65536]⟩
abbrev S262144 : Shape := ⟨1, ![262144]⟩

abbrev nBuf : Space → Nat
  | .hbm => 73
  | .vmem => 0
  | .smem => 0
  | _ => 0

abbrev bufTy : (tb : Table) → Fin (tcTables nBuf tb) → BufTy
  | .hbm, ⟨0, _⟩ => ⟨S65536x160, .f32⟩
  | .hbm, ⟨1, _⟩ => ⟨S262144x27, .f32⟩
  | .hbm, ⟨2, _⟩ => ⟨S65536x512, .f32⟩
  | .hbm, ⟨3, _⟩ => ⟨S262144x512, .f32⟩
  | .hbm, ⟨4, _⟩ => ⟨S160x512, .f32⟩
  | .hbm, ⟨5, _⟩ => ⟨S27x512, .f32⟩
  | .hbm, ⟨6, _⟩ => ⟨S65536x160, .f32⟩
  | .hbm, ⟨7, _⟩ => ⟨S262144x27, .f32⟩
  | .hbm, ⟨8, _⟩ => ⟨S65536x160, .f32⟩
  | .hbm, ⟨9, _⟩ => ⟨S_, .f32⟩
  | .hbm, ⟨10, _⟩ => ⟨S65536, .f32⟩
  | .hbm, ⟨11, _⟩ => ⟨S_, .f32⟩
  | .hbm, ⟨12, _⟩ => ⟨S65536, .f32⟩
  | .hbm, ⟨13, _⟩ => ⟨S65536, .f32⟩
  | .hbm, ⟨14, _⟩ => ⟨S_, .f32⟩
  | .hbm, ⟨15, _⟩ => ⟨S65536, .f32⟩
  | .hbm, ⟨16, _⟩ => ⟨S65536, .f32⟩
  | .hbm, ⟨17, _⟩ => ⟨S65536, .f32⟩
  | .hbm, ⟨18, _⟩ => ⟨S65536, .f32⟩
  | .hbm, ⟨19, _⟩ => ⟨S65536, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S262144x27, .f32⟩
  | .hbm, ⟨25, _⟩ => ⟨S_, .f32⟩
  | .hbm, ⟨26, _⟩ => ⟨S262144, .f32⟩
  | .hbm, ⟨27, _⟩ => ⟨S_, .f32⟩
  | .hbm, ⟨28, _⟩ => ⟨S262144, .f32⟩
  | .hbm, ⟨29, _⟩ => ⟨S262144, .f32⟩
  | .hbm, ⟨30, _⟩ => ⟨S_, .f32⟩
  | .hbm, ⟨31, _⟩ => ⟨S262144, .f32⟩
  | .hbm, ⟨32, _⟩ => ⟨S262144, .f32⟩
  | .hbm, ⟨33, _⟩ => ⟨S262144, .f32⟩
  | .hbm, ⟨34, _⟩ => ⟨S262144, .f32⟩
  | .hbm, ⟨35, _⟩ => ⟨S262144, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S65536x512, .f32⟩
  | .hbm, ⟨41, _⟩ => ⟨S65536x512, .f32⟩
  | .hbm, ⟨42, _⟩ => ⟨S_, .f32⟩
  | .hbm, ⟨43, _⟩ => ⟨S65536x512, .f32⟩
  | .hbm, ⟨44, _⟩ => ⟨S65536x512, .f32⟩
  | .hbm, ⟨45, _⟩ => ⟨S65536x512, .f32⟩
  | .hbm, ⟨46, _⟩ => ⟨S_, .f32⟩
  | .hbm, ⟨47, _⟩ => ⟨S65536, .f32⟩
  | .hbm, ⟨48, _⟩ => ⟨S65536, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S262144x512, .f32⟩
  | .hbm, ⟨54, _⟩ => ⟨S262144x512, .f32⟩
  | .hbm, ⟨55, _⟩ => ⟨S_, .f32⟩
  | .hbm, ⟨56, _⟩ => ⟨S262144x512, .f32⟩
  | .hbm, ⟨57, _⟩ => ⟨S262144x512, .f32⟩
  | .hbm, ⟨58, _⟩ => ⟨S262144x512, .f32⟩
  | .hbm, ⟨59, _⟩ => ⟨S_, .f32⟩
  | .hbm, ⟨60, _⟩ => ⟨S262144, .f32⟩
  | .hbm, ⟨61, _⟩ => ⟨S262144, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | _, _ => ⟨S65536x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_cst_4 : Ref sig .tc := ⟨.hbm, 25, rfl⟩
abbrev main_v12 : Ref sig .tc := ⟨.hbm, 26, rfl⟩
abbrev main_cst_5 : Ref sig .tc := ⟨.hbm, 27, rfl⟩
abbrev main_v13 : Ref sig .tc := ⟨.hbm, 28, rfl⟩
abbrev main_v14 : Ref sig .tc := ⟨.hbm, 29, rfl⟩
abbrev main_cst_6 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_7 : Ref sig .tc := ⟨.hbm, 36, rfl⟩
abbrev main_v20 : Ref sig .tc := ⟨.hbm, 37, rfl⟩
abbrev main_cst_8 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_9 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_10 : Ref sig .tc := ⟨.hbm, 46, rfl⟩
abbrev main_v27 : Ref sig .tc := ⟨.hbm, 47, rfl⟩
abbrev main_v28 : Ref sig .tc := ⟨.hbm, 48, rfl⟩
abbrev main_cst_11 : Ref sig .tc := ⟨.hbm, 49, rfl⟩
abbrev main_v29 : Ref sig .tc := ⟨.hbm, 50, rfl⟩
abbrev main_cst_12 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_13 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_14 : Ref sig .tc := ⟨.hbm, 59, rfl⟩
abbrev main_v36 : Ref sig .tc := ⟨.hbm, 60, rfl⟩
abbrev main_v37 : Ref sig .tc := ⟨.hbm, 61, rfl⟩
abbrev main_cst_15 : Ref sig .tc := ⟨.hbm, 62, rfl⟩
abbrev main_v38 : Ref sig .tc := ⟨.hbm, 63, rfl⟩
abbrev main_cst_16 : Ref sig .tc := ⟨.hbm, 64, rfl⟩
abbrev main_v39 : Ref sig .tc := ⟨.hbm, 65, rfl⟩
abbrev main_v40 : Ref sig .tc := ⟨.hbm, 66, rfl⟩
abbrev main_cst_17 : Ref sig .tc := ⟨.hbm, 67, rfl⟩
abbrev main_v41 : Ref sig .tc := ⟨.hbm, 68, rfl⟩
abbrev main_v42 : Ref sig .tc := ⟨.hbm, 69, rfl⟩
abbrev main_cst_18 : Ref sig .tc := ⟨.hbm, 70, rfl⟩
abbrev main_v43 : Ref sig .tc := ⟨.hbm, 71, rfl⟩
abbrev main_v44 : Ref sig .tc := ⟨.hbm, 72, rfl⟩

abbrev nD : Nat := 1
abbrev τ : Topo := Topo.v7x

variable {F : FTy → Type} [FloatOps F]

class Facts₀ : Prop where
  reducesTo_S65536x160_S65536_d1 : S65536x160.ReducesTo [1] S65536
  h_S_ : 0 < S_.numel
  bcast_S_S65536 : S_.BroadcastsInDim S65536 (![] : Fin 0 → Fin S65536.rank)
  reducesTo_S65536_S_d0 : S65536.ReducesTo [0] S_
  reducesTo_S262144x27_S262144_d1 : S262144x27.ReducesTo [1] S262144
  bcast_S_S262144 : S_.BroadcastsInDim S262144 (![] : Fin 0 → Fin S262144.rank)
  reducesTo_S262144_S_d0 : S262144.ReducesTo [0] S_
  bcast_S_S65536x512 : S_.BroadcastsInDim S65536x512 (![] : Fin 0 → Fin S65536x512.rank)
  reducesTo_S65536x512_S65536_d1 : S65536x512.ReducesTo [1] S65536
  bcast_S_S262144x512 : S_.BroadcastsInDim S262144x512 (![] : Fin 0 → Fin S262144x512.rank)
  reducesTo_S262144x512_S262144_d1 : S262144x512.ReducesTo [1] S262144
  dot_S65536x160_S160x512_S65536x512_1_0_0_1_n_n_wf : DotDims.WF S65536x160 S160x512 S65536x512 [1] [0] [0] [1] [] []
  dot_S262144x27_S27x512_S262144x512_1_0_0_1_n_n_wf : DotDims.WF S262144x27 S27x512 S262144x512 [1] [0] [0] [1] [] []

variable [Facts₀]

def dot_S65536x160_S160x512_S65536x512_1_0_0_1_n_n : DotDims S65536x160 S160x512 S65536x512 where
  lhsContracting := [1]
  rhsContracting := [0]
  lhsNonContracting := [0]
  rhsNonContracting := [1]
  lhsBatch := []
  rhsBatch := []
  wf := dot_S65536x160_S160x512_S65536x512_1_0_0_1_n_n_wf
def dot_S262144x27_S27x512_S262144x512_1_0_0_1_n_n : DotDims S262144x27 S27x512 S262144x512 where
  lhsContracting := [1]
  rhsContracting := [0]
  lhsNonContracting := [0]
  rhsNonContracting := [1]
  lhsBatch := []
  rhsBatch := []
  wf := dot_S262144x27_S27x512_S262144x512_1_0_0_1_n_n_wf

class Facts : Prop extends Facts₀ where

variable [Facts]
-- ==== Proof.RefRun.lean ====
/-
  The reference's run: the generated read-back of its host program, re-exported for the hand modules.
-/
import proofs.«151147_j84610855731482_2_alg».proof.Proof.Gen.ReferenceIdeal.Run
import proofs.«151147_j84610855731482_2_alg».proof.Proof.Gen.ReferenceIdeal.Read
-- ==== Proof.Spec.lean ====
/-
  The loss as one function of the eight argument arrays, on the extended reals.

  For one stream (nodes or edges) with `N` rows, `C` classes and `D` code coordinates: row `r` has the
  true-class probability `s r = ∑ c, p r c · g r c` (the probabilities against the one-hot labels), the focal term
  `-(1 - s r)² · log (s r)`, the selected prototype `∑ c, g r c · P c d`, and the distance
  `sqrt (∑ d, (x r d - prototype r d + ε)²)`. The loss is `1 · (F₀ / N₀ + F₁ / N₁) + 1 · (D₀ / N₀ + D₁ / N₁)` of the four
  sums over all rows. The float words stay as words; only `+0.0`, `1.0` and `2.0` are ever evaluated.

  The square is written in two ways: as the product `(1 - s) · (1 - s)` and as the power `(1 - s) ^ 2`. On the
  extended reals the two differ only at `1 - s = -∞` (the power of `-∞` is `-∞`, its square `+∞`); for a real `s` the
  power is the real power with exponent `2`, which is the square for every real base, negative ones included.
-/
import Idealize.ShloMosaic.PureOps.Ideal
import Idealize.ShloMosaic.PureOps.Ideal.Laws

noncomputable section

open scoped BigOperators

namespace Cert.LossSpec

open Idealize.ShloMosaic

/-- The words of the constants both programs spell: `+0.0`, `1.0`, `2.0`, `ε` (the f32 nearest to `1e-6`), `65536.0`, `262144.0`. -/
abbrev w0 : EReal := Ideal.ofBits .f32 0x00000000#32
abbrev w1 : EReal := Ideal.ofBits .f32 0x3F800000#32
abbrev w2 : EReal := Ideal.ofBits .f32 0x40000000#32
abbrev wEps : EReal := Ideal.ofBits .f32 0x358637BD#32
abbrev wN0 : EReal := Ideal.ofBits .f32 0x47800000#32
abbrev wN1 : EReal := Ideal.ofBits .f32 0x48800000#32

theorem w0_eq : w0 = 0 := Ideal.ofBits_zero_f32
theorem w1_eq : w1 = ((1 : ℝ) : EReal) := by
  simp [w1, Ideal.ofBits, Ideal.ieee, -EReal.coe_mul]; norm_num
theorem w2_eq : w2 = ((2 : ℝ) : EReal) := by
  simp [w2, Ideal.ofBits, Ideal.ieee, -EReal.coe_mul]; norm_num

/-- The focal term of a row whose true-class probability is `s`, the square taken as a product and the sign as a
    difference from `+0.0`. -/
def focal (s : EReal) : EReal := (w0 - (w1 - s) * (w1 - s)) * Ideal.log s

/-- The same term with the square taken as the power with exponent `2.0` and the sign as a negation. -/
def focalPow (s : EReal) : EReal := (-(Ideal.pow (w1 - s) w2)) * Ideal.log s

/-- On a real base the power with exponent `2` is the product of the base with itself. -/
theorem pow_two_coe (x : ℝ) : Ideal.pow (x : EReal) ((2 : ℝ) : EReal) = (x : EReal) * (x : EReal) := by
  rw [Ideal.pow_coe_coe, ← EReal.coe_mul]
  exact congrArg _ ((Real.rpow_two x).trans (sq x))

/-- For a real true-class probability the two spellings of the focal term agree. -/
theorem focalPow_coe (s : ℝ) : focalPow (s : EReal) = focal (s : EReal) := by
  unfold focalPow focal
  rw [w1_eq, w2_eq, w0_eq, ← EReal.coe_sub, pow_two_coe, zero_sub]

/-- The true-class probability of a row: the probabilities against the labels. -/
def classProb {C : ℕ} (p g : Fin C → EReal) : EReal := ∑ c, p c * g c

/-- The distance of a row's code `x` from the prototype its labels `g` select among the rows of `P`, with `ε` added to every coordinate of the difference. -/
def dist {C D : ℕ} (x : Fin D → EReal) (g : Fin C → EReal) (P : Fin C → Fin D → EReal) : EReal :=
  Ideal.sqrt (∑ d, (x d - (∑ c, g c * P c d) + wEps) * (x d - (∑ c, g c * P c d) + wEps))

/-- The sum of the focal terms over all rows of a stream. -/
def focalSum {N C : ℕ} (p g : Fin N → Fin C → EReal) : EReal := ∑ r, focal (classProb (p r) (g r))

/-- The sum of the distances over all rows of a stream. -/
def distSum {N C D : ℕ} (x : Fin N → Fin D → EReal) (g : Fin N → Fin C → EReal) (P : Fin C → Fin D → EReal) : EReal :=
  ∑ r, dist (x r) (g r) P

/-- The loss from the four sums: the two means of the focal terms added, the two means of the distances added, each
    with its weight `1.0`, and the two added. -/
def total (f0 d0 f1 d1 : EReal) : EReal :=
  w1 * (Ideal.div f0 wN0 + Ideal.div f1 wN1) + w1 * (Ideal.div d0 wN0 + Ideal.div d1 wN1)

end Cert.LossSpec

end
-- ==== Proof.LibSumIdx1.lean ====
/-
  A sum over the index type of a one-axis shape, as a sum over its one coordinate.

  An index of a shape `[n]` is determined by its single coordinate, so summing a function over all indices is summing
  it over `Fin n` with the index rebuilt from the coordinate.  General, independent of any program.
-/
import Idealize.ShloMosaic.Lib.ValueIdx

open scoped BigOperators

namespace Idealize.ShloMosaic.ValueIdx

/-- The indices of a one-axis shape are its coordinates. -/
def idxEquiv1 {n : Nat} : (⟨1, ![n]⟩ : Shape).Idx ≃ Fin n where
  toFun j := j 0
  invFun a := ix1 a
  left_inv j := (eq_ix1 j).symm
  right_inv _ := rfl

/-- A sum over the indices of a one-axis shape is the sum over its coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

end Idealize.ShloMosaic.ValueIdx
-- ==== Proof.RefValue.lean ====
/-
  The reference program's result is the specification's loss.

  The reference computes, for each stream, the true-class probability of every row as a sum over the classes, the focal
  term as the negated power (1 - s)^2 times log s, the selected prototype as a matrix product of the labels with the
  prototype table, and the distance as the square root of the sum of squared coordinates of (code - prototype + ε);
  it then takes the four means and adds them with weights 1.  Read index by index this is the specification, except for
  the spelling of the square: on the extended reals the power with exponent 2 agrees with the product only off -∞, so
  the focal terms agree once the true-class probability of each row is a real, which holds when the probabilities and
  the labels are real.  Every host sum starts from the word +0.0, which is the zero of the extended reals.
-/
import proofs.«151147_j84610855731482_2_alg».proof.Proof.RefRun
import proofs.«151147_j84610855731482_2_alg».proof.Proof.Spec
import proofs.«151147_j84610855731482_2_alg».proof.Proof.LibSumIdx1
import Idealize.ShloMosaic.Lib.ValueIdx
import Idealize.ShloMosaic.PureOps.Ideal
import Idealize.ShloMosaic.PureOps.Ideal.Laws

noncomputable section

open scoped BigOperators

namespace Cert.ReferenceIdeal.RefValue

open Cert.ReferenceIdeal Cert.ReferenceIdeal.Read Cert.LossSpec Idealize.ShloMosaic Idealize.ShloMosaic.ValueIdx

/-- A finite sum of reals, read in the extended reals, is the sum of the summands read there. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The true-class probability of a row of real probabilities and real labels is a real. -/
theorem classProb_real {C : ℕ} (p g : Fin C → EReal) (hp : ∀ c, ∃ r : ℝ, p c = (r : EReal)) (hg : ∀ c, ∃ r : ℝ, g c = (r : EReal)) :
    ∃ s : ℝ, classProb p g = (s : EReal) := by
  choose p' hp' using hp
  choose g' hg' using hg
  refine ⟨∑ c, p' c * g' c, ?_⟩
  unfold classProb
  rw [coe_sum]
  exact Finset.sum_congr rfl fun c _ => by rw [hp', hg', EReal.coe_mul]

/-- The node stream's focal term at row r: the host's negated power times the logarithm is the specification's
    focal term of the row's true-class probability, which is a real. -/
theorem node_focal_row (x0 x6 : (⟨S65536x160, .f32⟩ : BufTy).Contents (Elt Ideal))
    (hp : ∀ i, ∃ r : ℝ, x0 i = (r : EReal)) (hg : ∀ i, ∃ r : ℝ, x6 i = (r : EReal)) (r : Fin 65536) :
    val_main_v8 (F := Ideal) x0 x6 (ix1 r)
      = focal (classProb (fun c : Fin 160 => x0 (ix2 r c)) (fun c : Fin 160 => x6 (ix2 r c))) := by
  have hi : ∀ k : Fin 160, idx_main_v1 (ix1 r) k = ix2 r k := fun k =>
    funext fun a => Fin.ext (by match a with | ⟨0, _⟩ => rfl | ⟨1, _⟩ => rfl)
  have hs : val_main_v1 (F := Ideal) x0 x6 (ix1 r)
      = classProb (fun c : Fin 160 => x0 (ix2 r c)) (fun c : Fin 160 => x6 (ix2 r c)) := by
    rw [val_main_v1_apply, val_main_cst_apply]
    simp only [val_main_v0_apply, hi, Ideal.mulf_def, Ideal.ofBits_def]
    rw [show Ideal.ofBits .f32 0x00000000#32 = w0 from rfl, w0_eq, zero_add]
    rfl
  obtain ⟨s, hs'⟩ := classProb_real (fun c : Fin 160 => x0 (ix2 r c)) (fun c : Fin 160 => x6 (ix2 r c))
    (fun c => hp _) (fun c => hg _)
  rw [val_main_v8_apply, val_main_v6_apply, val_main_v7_apply, val_main_v5_apply, val_main_v3_apply,
    val_main_v4_apply, val_main_v2_apply, val_main_cst_0_apply, val_main_cst_1_apply, hs, hs', ← focalPow_coe]
  rfl

/-- The node stream's sum of focal terms. -/
theorem node_focal_sum (x0 x6 : (⟨S65536x160, .f32⟩ : BufTy).Contents (Elt Ideal))
    (hp : ∀ i, ∃ r : ℝ, x0 i = (r : EReal)) (hg : ∀ i, ∃ r : ℝ, x6 i = (r : EReal)) (i : S_.Idx) :
    val_main_v9 (F := Ideal) x0 x6 i
      = focalSum (fun (r : Fin 65536) (c : Fin 160) => x0 (ix2 r c)) (fun r c => x6 (ix2 r c)) := by
  rw [val_main_v9_apply, val_main_cst_2_apply, Ideal.ofBits_def,
    show Ideal.ofBits .f32 0x00000000#32 = w0 from rfl, w0_eq, zero_add, sum_idx1]
  exact Finset.sum_congr rfl fun r _ => node_focal_row x0 x6 hp hg r

/-- The edge stream's focal term at row r: the host's negated power times the logarithm is the specification's
    focal term of the row's true-class probability, which is a real. -/
theorem edge_focal_row (x1 x7 : (⟨S262144x27, .f32⟩ : BufTy).Contents (Elt Ideal))
    (hp : ∀ i, ∃ r : ℝ, x1 i = (r : EReal)) (hg : ∀ i, ∃ r : ℝ, x7 i = (r : EReal)) (r : Fin 262144) :
    val_main_v19 (F := Ideal) x1 x7 (ix1 r)
      = focal (classProb (fun c : Fin 27 => x1 (ix2 r c)) (fun c : Fin 27 => x7 (ix2 r c))) := by
  have hi : ∀ k : Fin 27, idx_main_v12 (ix1 r) k = ix2 r k := fun k =>
    funext fun a => Fin.ext (by match a with | ⟨0, _⟩ => rfl | ⟨1, _⟩ => rfl)
  have hs : val_main_v12 (F := Ideal) x1 x7 (ix1 r)
      = classProb (fun c : Fin 27 => x1 (ix2 r c)) (fun c : Fin 27 => x7 (ix2 r c)) := by
    rw [val_main_v12_apply, val_main_cst_4_apply]
    simp only [val_main_v11_apply, hi, Ideal.mulf_def, Ideal.ofBits_def]
    rw [show Ideal.ofBits .f32 0x00000000#32 = w0 from rfl, w0_eq, zero_add]
    rfl
  obtain ⟨s, hs'⟩ := classProb_real (fun c : Fin 27 => x1 (ix2 r c)) (fun c : Fin 27 => x7 (ix2 r c))
    (fun c => hp _) (fun c => hg _)
  rw [val_main_v19_apply, val_main_v17_apply, val_main_v18_apply, val_main_v16_apply, val_main_v14_apply,
    val_main_v15_apply, val_main_v13_apply, val_main_cst_5_apply, val_main_cst_6_apply, hs, hs', ← focalPow_coe]
  rfl

/-- The edge stream's sum of focal terms. -/
theorem edge_focal_sum (x1 x7 : (⟨S262144x27, .f32⟩ : BufTy).Contents (Elt Ideal))
    (hp : ∀ i, ∃ r : ℝ, x1 i = (r : EReal)) (hg : ∀ i, ∃ r : ℝ, x7 i = (r : EReal)) (i : S_.Idx) :
    val_main_v20 (F := Ideal) x1 x7 i
      = focalSum (fun (r : Fin 262144) (c : Fin 27) => x1 (ix2 r c)) (fun r c => x7 (ix2 r c)) := by
  rw [val_main_v20_apply, val_main_cst_7_apply, Ideal.ofBits_def,
    show Ideal.ofBits .f32 0x00000000#32 = w0 from rfl, w0_eq, zero_add, sum_idx1]
  exact Finset.sum_congr rfl fun r _ => edge_focal_row x1 x7 hp hg r

/-- The node stream's distance at row r: the matrix product of the labels with the prototype table at (r, d) is the
    selected prototype's coordinate d, and the host's square root of the sum of squares is the specification's distance. -/
theorem node_dist_row (x2 : (⟨S65536x512, .f32⟩ : BufTy).Contents (Elt Ideal)) (x4 : (⟨S160x512, .f32⟩ : BufTy).Contents (Elt Ideal))
    (x6 : (⟨S65536x160, .f32⟩ : BufTy).Contents (Elt Ideal)) (r : Fin 65536) :
    val_main_v28 (F := Ideal) x2 x4 x6 (ix1 r)
      = dist (fun d : Fin 512 => x2 (ix2 r d)) (fun c : Fin 160 => x6 (ix2 r c)) (fun (c : Fin 160) (d : Fin 512) => x4 (ix2 c d)) := by
  have hi : ∀ k : Fin 512, idx_main_v27 (ix1 r) k = ix2 r k := fun k =>
    funext fun a => Fin.ext (by match a with | ⟨0, _⟩ => rfl | ⟨1, _⟩ => rfl)
  have hl : ∀ (k : Fin 512) (c : Fin 160), lidx_main_v22 (ix2 r k) c = ix2 r c := fun k c =>
    funext fun a => Fin.ext (by match a with | ⟨0, _⟩ => rfl | ⟨1, _⟩ => rfl)
  have hr : ∀ (k : Fin 512) (c : Fin 160), ridx_main_v22 (ix2 r k) c = ix2 c k := fun k c =>
    funext fun a => Fin.ext (by match a with | ⟨0, _⟩ => rfl | ⟨1, _⟩ => rfl)
  rw [val_main_v28_apply, val_main_v27_apply, val_main_cst_10_apply]
  simp only [hi, val_main_v26_apply, val_main_v25_apply, val_main_v23_apply, val_main_v24_apply, val_main_cst_9_apply,
    val_main_v22_apply, hl, hr, Ideal.mulf_def, Ideal.addf_def, Ideal.subf_def, Ideal.ofBits_def, Ideal.hostUnary_sqrt_def]
  rw [show Ideal.ofBits .f32 0x00000000#32 = w0 from rfl, w0_eq, zero_add]
  rfl

/-- The node stream's sum of distances. -/
theorem node_dist_sum (x2 : (⟨S65536x512, .f32⟩ : BufTy).Contents (Elt Ideal)) (x4 : (⟨S160x512, .f32⟩ : BufTy).Contents (Elt Ideal))
    (x6 : (⟨S65536x160, .f32⟩ : BufTy).Contents (Elt Ideal)) (i : S_.Idx) :
    val_main_v29 (F := Ideal) x2 x4 x6 i
      = distSum (fun (r : Fin 65536) (d : Fin 512) => x2 (ix2 r d)) (fun (r : Fin 65536) (c : Fin 160) => x6 (ix2 r c))
          (fun (c : Fin 160) (d : Fin 512) => x4 (ix2 c d)) := by
  rw [val_main_v29_apply, val_main_cst_11_apply, Ideal.ofBits_def,
    show Ideal.ofBits .f32 0x00000000#32 = w0 from rfl, w0_eq, zero_add, sum_idx1]
  exact Finset.sum_congr rfl fun r _ => node_dist_row x2 x4 x6 r

/-- The edge stream's distance at row r: the matrix product of the labels with the prototype table at (r, d) is the
    selected prototype's coordinate d, and the host's square root of the sum of squares is the specification's distance. -/
theorem edge_dist_row (x3 : (⟨S262144x512, .f32⟩ : BufTy).Contents (Elt Ideal)) (x5 : (⟨S27x512, .f32⟩ : BufTy).Contents (Elt Ideal))
    (x7 : (⟨S262144x27, .f32⟩ : BufTy).Contents (Elt Ideal)) (r : Fin 262144) :
    val_main_v37 (F := Ideal) x3 x5 x7 (ix1 r)
      = dist (fun d : Fin 512 => x3 (ix2 r d)) (fun c : Fin 27 => x7 (ix2 r c)) (fun (c : Fin 27) (d : Fin 512) => x5 (ix2 c d)) := by
  have hi : ∀ k : Fin 512, idx_main_v36 (ix1 r) k = ix2 r k := fun k =>
    funext fun a => Fin.ext (by match a with | ⟨0, _⟩ => rfl | ⟨1, _⟩ => rfl)
  have hl : ∀ (k : Fin 512) (c : Fin 27), lidx_main_v31 (ix2 r k) c = ix2 r c := fun k c =>
    funext fun a => Fin.ext (by match a with | ⟨0, _⟩ => rfl | ⟨1, _⟩ => rfl)
  have hr : ∀ (k : Fin 512) (c : Fin 27), ridx_main_v31 (ix2 r k) c = ix2 c k := fun k c =>
    funext fun a => Fin.ext (by match a with | ⟨0, _⟩ => rfl | ⟨1, _⟩ => rfl)
  rw [val_main_v37_apply, val_main_v36_apply, val_main_cst_14_apply]
  simp only [hi, val_main_v35_apply, val_main_v34_apply, val_main_v32_apply, val_main_v33_apply, val_main_cst_13_apply,
    val_main_v31_apply, hl, hr, Ideal.mulf_def, Ideal.addf_def, Ideal.subf_def, Ideal.ofBits_def, Ideal.hostUnary_sqrt_def]
  rw [show Ideal.ofBits .f32 0x00000000#32 = w0 from rfl, w0_eq, zero_add]
  rfl

/-- The edge stream's sum of distances. -/
theorem edge_dist_sum (x3 : (⟨S262144x512, .f32⟩ : BufTy).Contents (Elt Ideal)) (x5 : (⟨S27x512, .f32⟩ : BufTy).Contents (Elt Ideal))
    (x7 : (⟨S262144x27, .f32⟩ : BufTy).Contents (Elt Ideal)) (i : S_.Idx) :
    val_main_v38 (F := Ideal) x3 x5 x7 i
      = distSum (fun (r : Fin 262144) (d : Fin 512) => x3 (ix2 r d)) (fun (r : Fin 262144) (c : Fin 27) => x7 (ix2 r c))
          (fun (c : Fin 27) (d : Fin 512) => x5 (ix2 c d)) := by
  rw [val_main_v38_apply, val_main_cst_15_apply, Ideal.ofBits_def,
    show Ideal.ofBits .f32 0x00000000#32 = w0 from rfl, w0_eq, zero_add, sum_idx1]
  exact Finset.sum_congr rfl fun r _ => edge_dist_row x3 x5 x7 r

/-- The reference's result: the specification's loss of the four sums. -/
theorem ref_loss (x0 x6 : (⟨S65536x160, .f32⟩ : BufTy).Contents (Elt Ideal)) (x1 x7 : (⟨S262144x27, .f32⟩ : BufTy).Contents (Elt Ideal))
    (x2 : (⟨S65536x512, .f32⟩ : BufTy).Contents (Elt Ideal)) (x3 : (⟨S262144x512, .f32⟩ : BufTy).Contents (Elt Ideal))
    (x4 : (⟨S160x512, .f32⟩ : BufTy).Contents (Elt Ideal)) (x5 : (⟨S27x512, .f32⟩ : BufTy).Contents (Elt Ideal))
    (h0 : ∀ i, ∃ r : ℝ, x0 i = (r : EReal)) (h6 : ∀ i, ∃ r : ℝ, x6 i = (r : EReal))
    (h1 : ∀ i, ∃ r : ℝ, x1 i = (r : EReal)) (h7 : ∀ i, ∃ r : ℝ, x7 i = (r : EReal)) :
    Cert.ReferenceIdeal.Read.val_main_v44 (F := Ideal) x0 x1 x2 x3 x4 x5 x6 x7
      = fun _ => Cert.LossSpec.total
          (Cert.LossSpec.focalSum (fun (r : Fin 65536) (c : Fin 160) => x0 (ValueIdx.ix2 r c)) (fun r c => x6 (ValueIdx.ix2 r c)))
          (Cert.LossSpec.distSum (fun (r : Fin 65536) (d : Fin 512) => x2 (ValueIdx.ix2 r d))
            (fun (r : Fin 65536) (c : Fin 160) => x6 (ValueIdx.ix2 r c)) (fun (c : Fin 160) (d : Fin 512) => x4 (ValueIdx.ix2 c d)))
          (Cert.LossSpec.focalSum (fun (r : Fin 262144) (c : Fin 27) => x1 (ValueIdx.ix2 r c)) (fun r c => x7 (ValueIdx.ix2 r c)))
          (Cert.LossSpec.distSum (fun (r : Fin 262144) (d : Fin 512) => x3 (ValueIdx.ix2 r d))
            (fun (r : Fin 262144) (c : Fin 27) => x7 (ValueIdx.ix2 r c)) (fun (c : Fin 27) (d : Fin 512) => x5 (ValueIdx.ix2 c d))) := by
  funext i
  rw [val_main_v44_apply, val_main_v41_apply, val_main_v43_apply, val_main_cst_17_apply, val_main_cst_18_apply,
    val_main_v40_apply, val_main_v42_apply, val_main_v10_apply, val_main_v21_apply, val_main_v30_apply, val_main_v39_apply,
    val_main_cst_3_apply, val_main_cst_8_apply, val_main_cst_12_apply, val_main_cst_16_apply,
    node_focal_sum x0 x6 h0 h6, edge_focal_sum x1 x7 h1 h7, node_dist_sum x2 x4 x6, edge_dist_sum x3 x5 x7]
  rfl

end Cert.ReferenceIdeal.RefValue

end
-- ==== Proof.Finite.lean ====
/-
  From the precondition to real entries.

  The precondition is the conjunction, over the eight argument arrays, of "every entry has absolute value strictly
  below +∞".  On the extended reals the absolute value of x is max x (-x); it is +∞ exactly at the two infinities, so
  an entry that passes the test is a real number.  Only the four arrays the focal terms read (the two probability
  arrays and the two label arrays) are decoded here.
-/
import proofs.«151147_j84610855731482_2_alg».proof.Defs
import proofs.«151147_j84610855731482_2_alg».proof.Proof.Gen.Pre_finite_inputs
import Idealize.ShloMosaic.Lib.ReduceAll
import Idealize.ShloMosaic.Lib.ValueIdx

noncomputable section

namespace Cert.FiniteInputs

open Idealize.ShloMosaic Cert.Pre_finite_inputs

/-- The scalar shape has one index. -/
instance : Subsingleton S_.Idx := ⟨fun a b => funext fun d => d.elim0⟩

/-- The word of +∞ denotes the top element. -/
theorem inf_word : Ideal.ofBits .f32 0x7F800000#32 = ⊤ := by simp [Ideal.ofBits, Ideal.ieee]

/-- An extended real whose absolute value compares strictly below +∞ is a real. -/
theorem real_of_abs_lt (x : EReal)
    (h : Ideal.cmp .olt (max x (-x)) (Ideal.ofBits .f32 0x7F800000#32) = 1#1) : ∃ r : ℝ, x = (r : EReal) := by
  rw [inf_word] at h
  unfold Ideal.cmp at h
  induction x using EReal.rec with
  | bot => simp at h
  | coe r => exact ⟨r, rfl⟩
  | top => simp at h

/-- One array's test, read back: if the reduction by "and" of the entrywise tests is 1, every entry is a real. -/
theorem real_of_all {s : Shape} {axes : List (Fin s.rank)} (hb : S_.BroadcastsInDim s (![] : Fin 0 → Fin s.rank))
    (hr : s.ReducesTo axes S_) (hu : 0 < S_.numel) (a : FVec Ideal s .f32) (j : S_.Idx)
    (h : Host.reduce IntOp.andi (cmpf .olt (Host.absf a) (broadcastInDim s ![] hb (constant (F := Ideal) S_ .f32 0x7F800000#32)))
          (constantI S_ 1 1#1) hr hu j = 1#1) (i : s.Idx) : ∃ r : ℝ, a i = (r : EReal) :=
  real_of_abs_lt (a i) (Host.reduce_andi_all _ _ hr hu j h i)

/-- The precondition decoded: every entry of the two probability arrays and of the two label arrays is a real. -/
theorem real_of_pre [Cert.Pre_finite_inputs.Facts]
    (a0 : FVec Ideal S65536x160 .f32) (a1 : FVec Ideal S262144x27 .f32) (a2 : FVec Ideal S65536x512 .f32)
    (a3 : FVec Ideal S262144x512 .f32) (a4 : FVec Ideal S160x512 .f32) (a5 : FVec Ideal S27x512 .f32)
    (a6 : FVec Ideal S65536x160 .f32) (a7 : FVec Ideal S262144x27 .f32)
    (h : Cert.Pre_finite_inputs.fn (F := Ideal) a0 a1 a2 a3 a4 a5 a6 a7 = fun _ => 1#1) :
    (∀ i, ∃ r : ℝ, a0 i = (r : EReal)) ∧ (∀ i, ∃ r : ℝ, a1 i = (r : EReal))
      ∧ (∀ i, ∃ r : ℝ, a6 i = (r : EReal)) ∧ (∀ i, ∃ r : ℝ, a7 i = (r : EReal)) := by
  have e := congrFun h ValueIdx.ix0
  dsimp only [Cert.Pre_finite_inputs.fn, Cert.Pre_finite_inputs.fn_part1, Cert.Pre_finite_inputs.fn_part2] at e
  simp only [andi, IntOp.andi_eq_one] at e
  obtain ⟨⟨⟨⟨⟨⟨⟨e0, e1⟩, -⟩, -⟩, -⟩, -⟩, e6⟩, e7⟩ := e
  exact ⟨real_of_all _ _ _ a0 _ e0, real_of_all _ _ _ a1 _ e1, real_of_all _ _ _ a6 _ e6, real_of_all _ _ _ a7 _ e7⟩

end Cert.FiniteInputs

end
-- ==== Proof.KRun.lean ====
/-
  The idealized kernel's run, read at its last boundary.

  The program is two kernel regions among stretches of host operations. Every weakly fair execution terminates, and in
  the final memory every buffer that is not scoped to a region holds what the fold through the program leaves there:
  the launch memory, region 0's arrays at what its write-backs leave, the host operations between the regions applied,
  region 1's arrays at what its write-backs leave, the host operations after it applied. From this one statement come
  both the result buffer (the last host operation's value) and the unchanged arguments.
-/
import proofs.«151147_j84610855731482_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and every buffer not scoped to a region
    ends at the contents the fold through the program's segments gives it. -/
theorem run_buffers : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The run read at a TensorCore buffer that is not scoped to a region. -/
theorem run_at (b : Ref sig .tc) (hb : ¬ (Proc.devRef .tc b : DevRef τ sig).isScoped)
    (r : PUnit × MemSt nD τ sig (Elt F))
    (h : ∀ c : Dev nD, ∀ b ∈ Pipeline.ucRefs τ sig, r.2.mem (((c : Thread nD τ)).1, b) = W4 m ρ c b) (c : Dev nD) :
    r.2.mem ((c.tc : Thread nD τ).loc b) = W4 m ρ c (Proc.devRef .tc b) :=
  h c _ (mem_uc b hb)

end Cert.KernelIdeal.KRun

end
-- ==== Proof.LibKeepdims.lean ====
/-
  Column forms of the two layout operations a row statistic kept as a column goes through: a vector of one entry
  per row written as a one-column matrix, and a one-column matrix repeated along every column of a wider one.
  Both are read at an index: the entry of the result at (row, column) is the operand's entry of that row.
-/
import Idealize.ShloMosaic.Lib.Pipeline.Value
import Idealize.ShloMosaic.Lib.ValueIdx

namespace Idealize.ShloMosaic.ValueIdx

variable {α : Type}

/-- An `[a]` vector cast to the column `[a, 1]` reads, at `(p, u)`, the operand at `p`: in row-major order the
    column's entry `(p, u)` is entry `p · 1 + u = p` of the vector, the unit coordinate `u` being `0`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibDense.lean ====
/-
  A plain matrix product read as rows times columns.

  A dot whose dimension numbers contract the left operand's columns with the right operand's rows, with no batch
  axis, sends an `[n, K]` array and a `[K, h]` array to the `[n, h]` array whose entry `(e, q)` is the sum over `k` of
  `left (e, k) · right (k, q)`. The dimension numbers enter only through four facts about where the dot reads its
  operands (`hl0`, `hl1`, `hr0`, `hr1`), which a given record of dimension numbers decides; at the exact
  extended-real values the kernel's product into a zero accumulator and the host's product are both that sum,
  whatever format the operands were rounded to on the way in.
-/
import Idealize.ShloMosaic.PureOps.Ideal.Laws
import Idealize.ShloMosaic.Lib.ValueIdx

namespace Idealize.ShloMosaic.ValueIdx

/-- The contraction position's one coordinate, re-indexed by `Fin K`: the operands' indices at output `(e, q)` and
    position `k` are `(e, k)` and `(k, q)`. -/
theorem plainDot_indices {n K h : Nat} (D : DotDims ⟨2, ![n, K]⟩ ⟨2, ![K, h]⟩ ⟨2, ![n, h]⟩)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (e : Fin n) (q : Fin h) (k : Fin K) :
    D.lhsIdx (ix2 e q) ((contrEquiv1 D K hr hs).symm k) = ix2 e k
    ∧ D.rhsIdx (ix2 e q) ((contrEquiv1 D K hr hs).symm k) = ix2 k q := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- The kernel's product into the zero accumulator, at `(e, q)`: the sum over `k` of `a (e, k) · w (k, q)`. -/
theorem matmul_zero_plain_apply {n K h : Nat} {φ₁ φ₂ : FTy} (D : DotDims ⟨2, ![n, K]⟩ ⟨2, ![K, h]⟩ ⟨2, ![n, h]⟩)
    (prec : Option ContractPrecision)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (a : FVec Ideal ⟨2, ![n, K]⟩ φ₁) (w : FVec Ideal ⟨2, ![K, h]⟩ φ₂) (e : Fin n) (q : Fin h) :
    FloatOps.matmul D prec a w (constant ⟨2, ![n, h]⟩ .f32 0x00000000#32) (ix2 e q) = ∑ k : Fin K, a (ix2 e k) * w (ix2 k q) := by
  rw [Ideal.matmul_constant_zero_apply, ← Equiv.sum_comp (contrEquiv1 D K hr hs).symm]
  refine Finset.sum_congr rfl fun k _ => ?_
  obtain ⟨el, er⟩ := plainDot_indices D hr hs hl0 hl1 hr0 hr1 e q k
  rw [el, er]

/-- The host's product, at `(e, q)`: the same sum. -/
theorem dotGeneral_plain_apply {n K h : Nat} {φ₁ φ₂ : FTy} (D : DotDims ⟨2, ![n, K]⟩ ⟨2, ![K, h]⟩ ⟨2, ![n, h]⟩)
    (prec : Option ContractPrecision) (sched : HostSchedule)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (a : FVec Ideal ⟨2, ![n, K]⟩ φ₁) (w : FVec Ideal ⟨2, ![K, h]⟩ φ₂) (e : Fin n) (q : Fin h) :
    FloatOps.dotGeneral D prec sched a w (ix2 e q) = ∑ k : Fin K, a (ix2 e k) * w (ix2 k q) := by
  rw [Ideal.dotGeneral_apply, ← Equiv.sum_comp (contrEquiv1 D K hr hs).symm]
  refine Finset.sum_congr rfl fun k _ => ?_
  obtain ⟨el, er⟩ := plainDot_indices D hr hs hl0 hl1 hr0 hr1 e q k
  rw [el, er]

end Idealize.ShloMosaic.ValueIdx
-- ==== Proof.LibLastAxis.lean ====
/-
  Reductions along the last axis read at an index, on the extended reals (floats as extended reals, operations exact):
  general facts, independent of any program.

  For a matrix `[a, b]` the vector unit's sum and maximum over axis 1 leave one entry per row: at row `p` the sum is the
  sum over the columns `k` of the entry `(p, k)`, and the maximum taken from −∞ is the fold of `max` over those entries.
  For a rank-3 array `[n0, n1, n2]` the host's reduce with a maximum body over axis 2 leaves, at `(b, c)`, the fold of
  `max`, from the initial value's element, over the entries `(b, c, k)`.
-/
import Idealize.ShloMosaic.PureOps.Ideal
import Idealize.ShloMosaic.PureOps.Ideal.Laws
import Idealize.ShloMosaic.Lib.ValueIdx

noncomputable section

open scoped BigOperators

namespace Cert.LibLastAxis

open Idealize.ShloMosaic Idealize.ShloMosaic.ValueIdx

/-- Along axis 1 of a matrix, row `p` with column `k` put back is the entry `(p, k)`. -/
theorem lift_row {a b : ℕ} (hred : (⟨2, ![a, b]⟩ : Shape).Reduces [1] ⟨1, ![a]⟩) (p : Fin a) (k : Fin b) :
    hred.lift (ix1 p) k = ix2 p k := by
  funext ax
  match ax with
  | ⟨0, _⟩ => exact Fin.ext rfl
  | ⟨1, _⟩ => exact Fin.ext rfl

/-- The vector unit's sum over axis 1 of an `[a, b]` vector, from `+0.0`, read at row `p`: the sum over the columns. -/
theorem rowSum_apply {a b : ℕ} (v : FVec Ideal ⟨2, ![a, b]⟩ .f32)
    (hred : (⟨2, ![a, b]⟩ : Shape).Reduces [1] ⟨1, ![a]⟩) (hφ : FKind.Formats .f32)
    (hacc : (0x00000000#32 : BitVec 32) = 0x00000000#32) (p : Fin a) :
    multiReduction (F := Ideal) .add [1] ⟨1, ![a]⟩ v 0x00000000#32 hred hφ hacc (ix1 p) = ∑ k : Fin b, v (ix2 p k) :=
  (Ideal.multiReduction_add_single (φ := .f32) v 0x00000000#32 hred hφ hacc (ix1 p)).trans
    (Finset.sum_congr rfl fun k _ => congrArg v (lift_row hred p k))

/-- The vector unit's maximum over axis 1 of an `[a, b]` vector, from −∞, read at row `p`: the fold of `max` over the
    columns, started at the value of the word for −∞. -/
theorem rowMax_apply {a b : ℕ} (v : FVec Ideal ⟨2, ![a, b]⟩ .f32)
    (hred : (⟨2, ![a, b]⟩ : Shape).Reduces [1] ⟨1, ![a]⟩) (hφ : FKind.Formats .f32)
    (hacc : (0xFF800000#32 : BitVec 32) = 0xFF800000#32) (p : Fin a) :
    multiReduction (F := Ideal) .maximumf [1] ⟨1, ![a]⟩ v 0xFF800000#32 hred hφ hacc (ix1 p)
      = (Finset.univ : Finset (Fin b)).fold max (Ideal.ofBits .f32 0xFF800000#32) (fun k => v (ix2 p k)) :=
  (Ideal.multiReduction_maximumf_single (φ := .f32) v 0xFF800000#32 hred hφ hacc (ix1 p)).trans
    (congrArg (fun f => Finset.fold max (Ideal.ofBits .f32 0xFF800000#32) f (Finset.univ : Finset (Fin b)))
      (funext fun k => congrArg v (lift_row hred p k)))

/-- Along axis 2 of a rank-3 array, `(b, c)` with coordinate `k` put back is the entry `(b, c, k)`. -/
theorem lift_last3 {n0 n1 n2 : ℕ} (hred : (⟨3, ![n0, n1, n2]⟩ : Shape).Reduces [2] ⟨2, ![n0, n1]⟩)
    (b : Fin n0) (c : Fin n1) (k : Fin n2) : hred.lift (ix2 b c) k = ix3 b c k := by
  funext ax
  match ax with
  | ⟨0, _⟩ => exact Fin.ext rfl
  | ⟨1, _⟩ => exact Fin.ext rfl
  | ⟨2, _⟩ => exact Fin.ext rfl

/-- The host's reduce with a maximum body over axis 2 of an `[n0, n1, n2]` array, read at `(b, c)`: the fold of `max`,
    from the initial value's one element, over the entries `(b, c, k)`. -/
theorem hostMax_last3_apply {n0 n1 n2 : ℕ} (x : FVec Ideal ⟨3, ![n0, n1, n2]⟩ .f32) (init : FVec Ideal ⟨0, ![]⟩ .f32)
    (h' : (⟨3, ![n0, n1, n2]⟩ : Shape).ReducesTo [2] ⟨2, ![n0, n1]⟩)
    (hred : (⟨3, ![n0, n1, n2]⟩ : Shape).Reduces [2] ⟨2, ![n0, n1]⟩)
    (hu : 0 < (⟨0, ![]⟩ : Shape).numel) (b : Fin n0) (c : Fin n1) :
    Host.reduce (FloatOps.maximumf (F := Ideal) (φ := .f32)) x init h' hu (ix2 b c)
      = (Finset.univ : Finset (Fin n2)).fold max (init (Shape.Idx.first hu)) (fun k => x (ix3 b c k)) := by
  rw [Host.reduce_eq_fold_single FloatOps.maximumf x init h' hred hu]
  exact congrArg (fun f => Finset.fold max (init (Shape.Idx.first hu)) f (Finset.univ : Finset (Fin n2)))
    (funext fun k => congrArg x (lift_last3 hred b c k))

end Cert.LibLastAxis

end
-- ==== Proof.LibColSum.lean ====
/-
  A one-column matrix summed down its column, and the unit-shape casts around a single number.

  The vector unit's sum over axis 0 of an `[a, 1]` matrix, taken from `+0.0`, leaves one entry: the sum over the rows
  `k` of the entry `(k, 0)`. A `[1, 1, 1]` array and a `[1, 1]` matrix hold one number each, and the cast between them
  keeps it. General, independent of any program; floats as extended reals, operations exact.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibColSum

open Idealize.ShloMosaic Idealize.ShloMosaic.ValueIdx

/-- Along axis 0 of an `[a, 1]` matrix, the one remaining entry with row `k` put back is the entry `(k, 0)`. -/
theorem lift_col {a : ℕ} (hred : (⟨2, ![a, 1]⟩ : Shape).Reduces [0] ⟨1, ![1]⟩) (k : Fin a) :
    hred.lift (ix1 (0 : Fin 1)) k = ix2 k (0 : Fin 1) := by
  funext ax
  match ax with
  | ⟨0, _⟩ => exact Fin.ext rfl
  | ⟨1, _⟩ => exact Fin.ext rfl

/-- The vector unit's sum over axis 0 of an `[a, 1]` vector, from `+0.0`, read at its one entry: the sum over the rows. -/
theorem colSum_apply {a : ℕ} (v : FVec Ideal ⟨2, ![a, 1]⟩ .f32)
    (hred : (⟨2, ![a, 1]⟩ : Shape).Reduces [0] ⟨1, ![1]⟩) (hφ : FKind.Formats .f32)
    (hacc : (0x00000000#32 : BitVec 32) = 0x00000000#32) :
    multiReduction (F := Ideal) .add [0] ⟨1, ![1]⟩ v 0x00000000#32 hred hφ hacc (ix1 (0 : Fin 1))
      = ∑ k : Fin a, v (ix2 k (0 : Fin 1)) :=
  (Ideal.multiReduction_add_single (φ := .f32) v 0x00000000#32 hred hφ hacc (ix1 (0 : Fin 1))).trans
    (Finset.sum_congr rfl fun k _ => congrArg v (lift_col hred k))

variable {α : Type}

/-- A `[1, 1, 1]` array cast to the `[1, 1]` matrix keeps its one entry. -/
theorem shapeCast_111_11_apply (x : (⟨3, ![1, 1, 1]⟩ : Shape).Idx → α)
    (h : (⟨3, ![1, 1, 1]⟩ : Shape).ShapeCasts ⟨2, ![1, 1]⟩) :
    shapeCast ⟨2, ![1, 1]⟩ x h (ix2 (0 : Fin 1) (0 : Fin 1)) = x (ix3 (0 : Fin 1) (0 : Fin 1) (0 : Fin 1)) :=
  shapeCast_apply x h _ _ (by decide)

/-- A `[1, 1]` matrix cast to the `[1, 1, 1]` array keeps its one entry. -/
theorem shapeCast_11_111_apply (x : (⟨2, ![1, 1]⟩ : Shape).Idx → α)
    (h : (⟨2, ![1, 1]⟩ : Shape).ShapeCasts ⟨3, ![1, 1, 1]⟩) :
    shapeCast ⟨3, ![1, 1, 1]⟩ x h (ix3 (0 : Fin 1) (0 : Fin 1) (0 : Fin 1)) = x (ix2 (0 : Fin 1) (0 : Fin 1)) :=
  shapeCast_apply x h _ _ (by decide)

end Cert.LibColSum

end
-- ==== Proof.Body0.lean ====
/-
  The body of kernel region 0 as arithmetic on one row tile, at the exact values.

  One grid point reads a tile of 2048 rows: the probabilities and the one-hot labels (`[2048, 160]` each), the codes
  (`[2048, 512]`) and the whole prototype table (`[160, 512]`). It adds to entry `(0, 0)` of the first accumulator the
  tile's sum of focal terms, and to entry `(0, 0)` of the second the tile's sum of distances. Read at that one entry the
  two stored values are the accumulator's previous entry plus the tile sum: the row statistics kept as `[2048, 1]`
  columns are read row by row, the label-selected prototype is the product of the label row with the table (the
  narrowing of both operands to bf16 is the identity at the exact values), and each reduction is a finite sum.
-/
import proofs.«151147_j84610855731482_2_alg».proof.Proof.Gen.KernelIdeal.Frame
import proofs.«151147_j84610855731482_2_alg».proof.Proof.Spec
import proofs.«151147_j84610855731482_2_alg».proof.Proof.LibKeepdims
import proofs.«151147_j84610855731482_2_alg».proof.Proof.LibDense
import proofs.«151147_j84610855731482_2_alg».proof.Proof.LibLastAxis
import proofs.«151147_j84610855731482_2_alg».proof.Proof.LibColSum
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.Body0

open Cert.KernelIdeal Cert.KernelIdeal.Gen Cert.LossSpec Cert.LibColSum
open Idealize.ShloMosaic Idealize.ShloMosaic.TcCoe Idealize.ShloMosaic.Tactic Idealize.SL.Sem Idealize.ShloMosaic.ValueIdx

/-- The sum of the focal terms of a tile's 2048 rows. -/
def tileFocal (x0 x1 : FVec Ideal S2048x160 .f32) : EReal :=
  ∑ r : Fin 2048, focal (classProb (fun c : Fin 160 => x0 (ix2 r c)) (fun c : Fin 160 => x1 (ix2 r c)))

/-- The sum of the distances of a tile's 2048 rows from their label-selected prototypes. -/
def tileDist (x1 : FVec Ideal S2048x160 .f32) (x2 : FVec Ideal S2048x512 .f32) (x3 : FVec Ideal S160x512 .f32) : EReal :=
  ∑ r : Fin 2048, dist (fun d : Fin 512 => x2 (ix2 r d)) (fun c : Fin 160 => x1 (ix2 r c))
    (fun (c : Fin 160) (d : Fin 512) => x3 (ix2 c d))

/-- The focal term computed on the column `P` of true-class probabilities, read at row `r`. -/
theorem focal_col (P : FVec Ideal S2048x1 .f32) (r : Fin 2048) :
    mulf (subf (broadcast S2048x1 (FloatOps.ofBits (F := Ideal) .f32 0x00000000#32))
        (mulf (subf (broadcast S2048x1 (FloatOps.ofBits (F := Ideal) .f32 0x3F800000#32)) P)
          (subf (broadcast S2048x1 (FloatOps.ofBits (F := Ideal) .f32 0x3F800000#32)) P)))
      (log P) (ix2 r (0 : Fin 1)) = focal (P (ix2 r (0 : Fin 1))) := rfl

/-- The squared, `ε`-shifted difference of the codes `X` from the prototypes `Q`, read at `(r, d)`. -/
theorem sqdiff_entry (X Q : FVec Ideal S2048x512 .f32) (r : Fin 2048) (d : Fin 512) :
    mulf (addf (subf X Q) (broadcast S2048x512 (FloatOps.ofBits (F := Ideal) .f32 0x358637BD#32)))
      (addf (subf X Q) (broadcast S2048x512 (FloatOps.ofBits (F := Ideal) .f32 0x358637BD#32))) (ix2 r d)
      = (X (ix2 r d) - Q (ix2 r d) + wEps) * (X (ix2 r d) - Q (ix2 r d) + wEps) := rfl

/-! ### Where the kernel's product reads its operands -/

theorem dot_lhs0 (i : S2048x512.Idx) (q : dot_S2048x160_S160x512_S2048x512_1_0_0_1_n_n.contr.Idx) :
    (dot_S2048x160_S160x512_S2048x512_1_0_0_1_n_n.lhsIdx i q 0).val = (i 0).val := by
  unfold DotDims.lhsIdx
  rw [dif_neg (show ¬(0 : Fin S2048x160.rank) ∈ dot_S2048x160_S160x512_S2048x512_1_0_0_1_n_n.lhsBatch by decide), dif_pos (show (0 : Fin S2048x160.rank) ∈ dot_S2048x160_S160x512_S2048x512_1_0_0_1_n_n.lhsNonContracting by decide)]
  rfl
theorem dot_lhs1 (i : S2048x512.Idx) (q : dot_S2048x160_S160x512_S2048x512_1_0_0_1_n_n.contr.Idx) :
    (dot_S2048x160_S160x512_S2048x512_1_0_0_1_n_n.lhsIdx i q 1).val = (q ⟨0, by decide⟩).val :=
  dot_S2048x160_S160x512_S2048x512_1_0_0_1_n_n.lhsIdx_val_of_single rfl i q
theorem dot_rhs0 (i : S2048x512.Idx) (q : dot_S2048x160_S160x512_S2048x512_1_0_0_1_n_n.contr.Idx) :
    (dot_S2048x160_S160x512_S2048x512_1_0_0_1_n_n.rhsIdx i q 0).val = (q ⟨0, by decide⟩).val :=
  dot_S2048x160_S160x512_S2048x512_1_0_0_1_n_n.rhsIdx_val_of_single rfl i q
theorem dot_rhs1 (i : S2048x512.Idx) (q : dot_S2048x160_S160x512_S2048x512_1_0_0_1_n_n.contr.Idx) :
    (dot_S2048x160_S160x512_S2048x512_1_0_0_1_n_n.rhsIdx i q 1).val = (i 1).val := by
  unfold DotDims.rhsIdx
  rw [dif_neg (show ¬(1 : Fin S160x512.rank) ∈ dot_S2048x160_S160x512_S2048x512_1_0_0_1_n_n.rhsBatch by decide), dif_pos (show (1 : Fin S160x512.rank) ∈ dot_S2048x160_S160x512_S2048x512_1_0_0_1_n_n.rhsNonContracting by decide)]
  rfl

/-- The label-selected prototypes: the product of the (narrowed) labels with the (narrowed) table into a zero
    accumulator, at `(r, d)`, is the sum over the classes of label times table entry. -/
theorem proto_apply (x1 : FVec Ideal S2048x160 .f32) (x3 : FVec Ideal S160x512 .f32) (r : Fin 2048) (d : Fin 512) :
    matmul dot_S2048x160_S160x512_S2048x512_1_0_0_1_n_n none (truncf .bf16 x1 bitsLt_bf16_f32) (truncf .bf16 x3 bitsLt_bf16_f32)
        (constant (F := Ideal) S2048x512 .f32 0x00000000#32) (ix2 r d)
      = ∑ c : Fin 160, x1 (ix2 r c) * x3 (ix2 c d) :=
  matmul_zero_plain_apply dot_S2048x160_S160x512_S2048x512_1_0_0_1_n_n none rfl rfl dot_lhs0 dot_lhs1 dot_rhs0 dot_rhs1
    (truncf .bf16 x1 bitsLt_bf16_f32) (truncf .bf16 x3 bitsLt_bf16_f32) r d

/-- The first accumulator's new entry: its previous entry plus the tile's sum of focal terms. -/
theorem pay6_apply (x0 x1 : Vec Ideal S2048x160 .f32) (v31 : Vec Ideal S1x1x1 .f32) :
    k0_pay6 (F := Ideal) x0 x1 v31 (ix2 (0 : Fin 1) (0 : Fin 1))
      = v31 (ix3 (0 : Fin 1) (0 : Fin 1) (0 : Fin 1)) + tileFocal x0 x1 := by
  unfold k0_pay6
  dsimp only
  refine (addf_apply _ _ _).trans ?_
  refine congrArg₂ (· + ·) (shapeCast_111_11_apply v31 _) ?_
  refine (shapeCast_a_a1_apply _ _ (0 : Fin 1) (0 : Fin 1)).trans ?_
  refine (colSum_apply _ _ _ _).trans ?_
  refine Finset.sum_congr rfl fun r _ => ?_
  refine (focal_col _ r).trans (congrArg focal ?_)
  refine (shapeCast_a_a1_apply _ _ r (0 : Fin 1)).trans ?_
  exact Cert.LibLastAxis.rowSum_apply _ _ _ _ r

/-- The tile's sum of distances, as the body computes it. -/
theorem pay5_apply (x1 : Vec Ideal S2048x160 .f32) (x3 : Vec Ideal S160x512 .f32) (x2 : Vec Ideal S2048x512 .f32) :
    k0_pay5 (F := Ideal) x1 x3 x2 (ix2 (0 : Fin 1) (0 : Fin 1)) = tileDist x1 x2 x3 := by
  unfold k0_pay5
  dsimp only
  refine (shapeCast_a_a1_apply _ _ (0 : Fin 1) (0 : Fin 1)).trans ?_
  refine (colSum_apply _ _ _ _).trans ?_
  refine Finset.sum_congr rfl fun r _ => ?_
  show Ideal.sqrt _ = Ideal.sqrt _
  refine congrArg Ideal.sqrt ?_
  refine (shapeCast_a_a1_apply _ _ r (0 : Fin 1)).trans ?_
  refine (Cert.LibLastAxis.rowSum_apply _ _ _ _ r).trans ?_
  refine Finset.sum_congr rfl fun d _ => ?_
  refine (sqdiff_entry _ _ r d).trans ?_
  exact congrArg (fun q : EReal => (x2 (ix2 r d) - q + wEps) * (x2 (ix2 r d) - q + wEps)) (proto_apply x1 x3 r d)

/-- The value stored to the first accumulator's entry is the new entry. -/
theorem pay1_apply (v33 : FVec Ideal S1x1 .f32) :
    k0_pay1 (F := Ideal) v33 (ix3 (0 : Fin 1) (0 : Fin 1) (0 : Fin 1)) = v33 (ix2 (0 : Fin 1) (0 : Fin 1)) := by
  unfold k0_pay1
  exact shapeCast_11_111_apply v33 _

/-- The value stored to the second accumulator's entry: its previous entry plus the tile's sum of distances. -/
theorem pay2_apply (v30 : FVec Ideal S1x1 .f32) (v37 : Vec Ideal S1x1x1 .f32) :
    k0_pay2 (F := Ideal) v30 v37 (ix3 (0 : Fin 1) (0 : Fin 1) (0 : Fin 1))
      = v37 (ix3 (0 : Fin 1) (0 : Fin 1) (0 : Fin 1)) + v30 (ix2 (0 : Fin 1) (0 : Fin 1)) := by
  unfold k0_pay2
  refine (shapeCast_11_111_apply _ _).trans ?_
  refine (addf_apply _ _ _).trans ?_
  exact congrArg (· + v30 (ix2 (0 : Fin 1) (0 : Fin 1))) (shapeCast_111_11_apply v37 _)

/-- The zero blocks the first point of a run stores read `+0.0` everywhere. -/
theorem pay3_apply (y : S1x8x128.Idx) : k0_pay3 (F := Ideal) y = w0 := rfl
theorem pay4_apply (y : S1x8x128.Idx) : k0_pay4 (F := Ideal) y = w0 := rfl

end Cert.KernelIdeal.Body0

end
-- ==== Proof.Pieces0.lean ====
/-
  What one grid point of kernel region 0 leaves at entry `(0, 0, 0)` of each accumulator block, at the exact values.

  At the first point of a core's run the body stores a block of zeros and then, at entry `(0, 0, 0)`, the zero it has
  just stored plus the tile sum; at every other point it stores there the entry the point before left plus the tile
  sum. The last store to the entry decides what is read back; the loads of the whole staging buffers read the tile.
-/
import proofs.«151147_j84610855731482_2_alg».proof.Proof.Body0
import Idealize.ShloMosaic.Lib.Writes
import Idealize.ShloMosaic.Lib.Pipeline.FrameBody

set_option maxRecDepth 16384

noncomputable section

open scoped BigOperators

namespace Cert.KernelIdeal.Pieces0

open Cert.KernelIdeal Cert.KernelIdeal.Gen Cert.LossSpec Cert.KernelIdeal.Body0
open Idealize.ShloMosaic Idealize.ShloMosaic.TcCoe Idealize.ShloMosaic.Tactic Idealize.SL.Sem Idealize.ShloMosaic.ValueIdx

theorem hz2 : (![0, 0] : Fin 2 → Nat) = fun _ => 0 := funext fun a => by fin_cases a <;> rfl
theorem hz3 : (![0, 0, 0] : Fin 3 → Nat) = fun _ => 0 := funext fun a => by fin_cases a <;> rfl

/-- The one entry of the `[1, 1, 1]` rectangle at the origin of a `[1, 8, 128]` block is the block's entry `(0, 0, 0)`. -/
theorem emb111 (x : (⟨3, ![1, 1, 1]⟩ : Shape).Idx) :
    (Rect.unit (s := S1x8x128) ![0, 0, 0] ![1, 1, 1] inb_S1x8x128_S1x1x1_0_0_0).emb x
      = ix3 (0 : Fin 1) (0 : Fin 8) (0 : Fin 128) := by
  funext a
  apply Fin.ext
  rw [Rect.emb_apply]
  match a with
  | ⟨0, _⟩ => show 0 + 1 * (x 0 : Nat) = 0; have h : (x 0 : Nat) < 1 := (x 0).isLt; omega
  | ⟨1, _⟩ => show 0 + 1 * (x 1 : Nat) = 0; have h : (x 1 : Nat) < 1 := (x 1).isLt; omega
  | ⟨2, _⟩ => show 0 + 1 * (x 2 : Nat) = 0; have h : (x 2 : Nat) < 1 := (x 2).isLt; omega

variable (c : Dev nD) (i : grid0.Coords)
  (a2 : Memref sig .tc .vmem S2048x160 .f32) (h2 : a2.IsWhole) (a3 : Memref sig .tc .vmem S2048x160 .f32) (h3 : a3.IsWhole)
  (a4 : Memref sig .tc .vmem S2048x512 .f32) (h4 : a4.IsWhole) (a5 : Memref sig .tc .vmem S160x512 .f32) (h5 : a5.IsWhole)
  (a6 : Memref sig .tc .vmem S1x8x128 .f32) (h6 : a6.IsWhole) (a7 : Memref sig .tc .vmem S1x8x128 .f32) (h7 : a7.IsWhole)
  (x0 x1 : Vec Ideal S2048x160 .f32) (x2 : Vec Ideal S2048x512 .f32) (x3 : Vec Ideal S160x512 .f32)

/-- A point that is not the first of its run: the first accumulator's entry becomes the entry before plus the tile's focal sum. -/
theorem out_B_4 (hc : ¬cond0_0 i) (xo4 xo5 : Vec Ideal S1x8x128 .f32) :
    out0_B_4 (F := Ideal) c i a2 h2 a3 h3 a4 h4 a5 h5 a6 h6 a7 h7 hc x0 x1 x2 x3 xo4 xo5 (ix3 (0 : Fin 1) (0 : Fin 8) (0 : Fin 128))
      = xo4 (ix3 (0 : Fin 1) (0 : Fin 8) (0 : Fin 128)) + tileFocal x0 x1 := by
  unfold out0_B_4
  unfold kernelRun0_B
  dsimp only
  sl_unfold_words
  refine (congrArg (View.read (Elt Ideal) a6.view _) (emb111 (ix3 (0 : Fin 1) (0 : Fin 1) (0 : Fin 1))).symm).trans ?_
  refine (View.read_writes_cons_emb _ _ (Rect.unit (s := S1x8x128) ![0, 0, 0] ![1, 1, 1] inb_S1x8x128_S1x1x1_0_0_0) _ _
    (ix3 (0 : Fin 1) (0 : Fin 1) (0 : Fin 1))).trans ?_
  refine (pay1_apply _).trans ((pay6_apply _ _ _).trans ?_)
  refine congrArg₂ (· + ·) ?_ ?_
  · rw [View.readAt_eq_ld, h6.read_unread]
    exact congrArg xo4 (emb111 _)
  · simp only [View.readAt_eq_ld, h2.read_unread, h3.read_unread, View.ld_unit_zero (S := S2048x160) hz2]

/-- A point that is not the first of its run: the second accumulator's entry becomes the entry before plus the tile's sum of distances. -/
theorem out_B_5 (hc : ¬cond0_0 i) (xo4 xo5 : Vec Ideal S1x8x128 .f32) :
    out0_B_5 (F := Ideal) c i a2 h2 a3 h3 a4 h4 a5 h5 a6 h6 a7 h7 hc x0 x1 x2 x3 xo4 xo5 (ix3 (0 : Fin 1) (0 : Fin 8) (0 : Fin 128))
      = xo5 (ix3 (0 : Fin 1) (0 : Fin 8) (0 : Fin 128)) + tileDist x1 x2 x3 := by
  unfold out0_B_5
  unfold kernelRun0_B
  dsimp only
  sl_unfold_words
  refine (congrArg (View.read (Elt Ideal) a7.view _) (emb111 (ix3 (0 : Fin 1) (0 : Fin 1) (0 : Fin 1))).symm).trans ?_
  refine (View.read_writes_cons_emb _ _ (Rect.unit (s := S1x8x128) ![0, 0, 0] ![1, 1, 1] inb_S1x8x128_S1x1x1_0_0_0) _ _
    (ix3 (0 : Fin 1) (0 : Fin 1) (0 : Fin 1))).trans ?_
  refine (pay2_apply _ _).trans ?_
  refine congrArg₂ (· + ·) ?_ ((pay5_apply _ _ _).trans ?_)
  · rw [View.readAt_eq_ld, h7.read_unread]
    exact congrArg xo5 (emb111 _)
  · simp only [View.readAt_eq_ld, h3.read_unread, h4.read_unread, h5.read_unread, View.ld_unit_zero (S := S2048x160) hz2,
      View.ld_unit_zero (S := S2048x512) hz2, View.ld_unit_zero (S := S160x512) hz2]

/-- The first point of a run: the first accumulator's entry becomes `+0.0` plus the tile's focal sum. -/
theorem out_A_4 (hc : cond0_0 i) :
    out0_A_4 (F := Ideal) c i a2 h2 a3 h3 a4 h4 a5 h5 a6 h6 a7 h7 hc x0 x1 x2 x3 (ix3 (0 : Fin 1) (0 : Fin 8) (0 : Fin 128))
      = w0 + tileFocal x0 x1 := by
  unfold out0_A_4
  unfold kernelRun0_A
  dsimp only
  sl_unfold_words
  refine (congrArg (View.read (Elt Ideal) VO0_4 _) (emb111 (ix3 (0 : Fin 1) (0 : Fin 1) (0 : Fin 1))).symm).trans ?_
  refine (View.read_writes_cons_emb _ _ (Rect.unit (s := S1x8x128) ![0, 0, 0] ![1, 1, 1] inb_S1x8x128_S1x1x1_0_0_0) _ _
    (ix3 (0 : Fin 1) (0 : Fin 1) (0 : Fin 1))).trans ?_
  refine (pay1_apply _).trans ((pay6_apply _ _ _).trans ?_)
  refine congrArg₂ (· + ·) ?_ ?_
  · refine (congrFun (View.readCov_eq_canon_ld a6.view
        [(⟨Rect.unit ![0, 0, 0] S1x8x128.size inb_S1x8x128_S1x8x128_0_0_0, k0_pay3 (F := Ideal)⟩ : View.Piece (Elt Ideal) S1x8x128 .f32)]
        (Rect.unit ![0, 0, 0] S1x1x1.size inb_S1x8x128_S1x1x1_0_0_0)
        (fun y => ⟨_, List.mem_singleton_self _, View.mem_set_unit_zero hz3 inb_S1x8x128_S1x8x128_0_0_0 y⟩)) _).trans ?_
    rw [View.canon_unit_zero hz3]
    rfl
  · simp only [View.readAt_eq_ld, h2.read_unread, h3.read_unread, View.ld_unit_zero (S := S2048x160) hz2]

/-- The first point of a run: the second accumulator's entry becomes `+0.0` plus the tile's sum of distances. -/
theorem out_A_5 (hc : cond0_0 i) :
    out0_A_5 (F := Ideal) c i a2 h2 a3 h3 a4 h4 a5 h5 a6 h6 a7 h7 hc x0 x1 x2 x3 (ix3 (0 : Fin 1) (0 : Fin 8) (0 : Fin 128))
      = w0 + tileDist x1 x2 x3 := by
  unfold out0_A_5
  unfold kernelRun0_A
  dsimp only
  sl_unfold_words
  refine (congrArg (View.read (Elt Ideal) VO0_5 _) (emb111 (ix3 (0 : Fin 1) (0 : Fin 1) (0 : Fin 1))).symm).trans ?_
  refine (View.read_writes_cons_emb _ _ (Rect.unit (s := S1x8x128) ![0, 0, 0] ![1, 1, 1] inb_S1x8x128_S1x1x1_0_0_0) _ _
    (ix3 (0 : Fin 1) (0 : Fin 1) (0 : Fin 1))).trans ?_
  refine (pay2_apply _ _).trans ?_
  refine congrArg₂ (· + ·) ?_ ((pay5_apply _ _ _).trans ?_)
  · refine (congrFun (View.readCov_eq_canon_ld a7.view
        [(⟨Rect.unit ![0, 0, 0] S1x8x128.size inb_S1x8x128_S1x8x128_0_0_0, k0_pay4 (F := Ideal)⟩ : View.Piece (Elt Ideal) S1x8x128 .f32)]
        (Rect.unit ![0, 0, 0] S1x1x1.size inb_S1x8x128_S1x1x1_0_0_0)
        (fun y => ⟨_, List.mem_singleton_self _, View.mem_set_unit_zero hz3 inb_S1x8x128_S1x8x128_0_0_0 y⟩)) _).trans ?_
    rw [View.canon_unit_zero hz3]
    rfl
  · simp only [View.readAt_eq_ld, h3.read_unread, h4.read_unread, h5.read_unread, View.ld_unit_zero (S := S2048x160) hz2,
      View.ld_unit_zero (S := S2048x512) hz2, View.ld_unit_zero (S := S160x512) hz2]

end Cert.KernelIdeal.Pieces0

end
-- ==== Proof.LibTiles.lean ====
/-
  Sums taken tile by tile: general facts about finite sums in a commutative monoid, independent of any program.

  A quantity indexed by the points `0, 1, 2, …` of a grid that is RESET to `Z + M n` at every point `n` divisible by
  `J` and STEPS by `+ M n` at every other point is, at the point `J·q + j` with `j < J`, the reset value plus the terms of
  the run `J·q, …, J·q + j`. And a sum over `A` runs of `J` tiles of `B` rows each, every tile summed over its rows, is the
  sum over all `A·J·B` rows: row `r` of tile `t` is row `B·t + r`, tile `s` of run `q` is tile `J·q + s`.
-/
import Mathlib.Algebra.BigOperators.Fin
import Mathlib.Algebra.BigOperators.Intervals
import Mathlib.Logic.Equiv.Fin.Basic

open scoped BigOperators

namespace Cert.LibTiles

variable {β : Type*} [AddCommMonoid β]

/-- THE RUNNING SUM IN CLOSED FORM: reset at the multiples of `J` (`h0`), stepped elsewhere (`hs`). -/
theorem acc_closed {N : ℕ} (f : (n : ℕ) → n < N → β) (J : ℕ) (Z : β) (M : ℕ → β)
    (h0 : ∀ (n : ℕ) (h : n < N), n % J = 0 → f n h = Z + M n)
    (hs : ∀ (n : ℕ) (h : n + 1 < N), ¬(n + 1) % J = 0 → f (n + 1) h = f n (Nat.lt_of_succ_lt h) + M (n + 1))
    (q : ℕ) : ∀ (j : ℕ) (_ : j < J) (h : J * q + j < N),
      f (J * q + j) h = Z + ∑ s ∈ Finset.range (j + 1), M (J * q + s)
  | 0, _, h => by
    rw [Finset.sum_range_one]
    exact h0 _ h (by rw [Nat.add_zero, Nat.mul_mod_right])
  | j + 1, hj, h => by
    have hne : ¬(J * q + j + 1) % J = 0 := by
      rw [Nat.add_assoc, Nat.mul_add_mod, Nat.mod_eq_of_lt hj]; exact Nat.succ_ne_zero j
    rw [Finset.sum_range_succ _ (j + 1), ← add_assoc Z,
      ← acc_closed f J Z M h0 hs q j (Nat.lt_of_succ_lt hj) (Nat.lt_of_succ_lt h)]
    exact hs (J * q + j) h hne

/-- A sum over `A` tiles of `B` rows, tile by tile, is the sum over the `A·B` rows: row `r` of tile `k` is row `B·k + r`. -/
theorem sum_tiles (A B : ℕ) (φ : ℕ → β) :
    ∑ k : Fin A, ∑ r : Fin B, φ (B * k.val + r.val) = ∑ h : Fin (A * B), φ h.val := by
  rw [← Fintype.sum_prod_type' (fun (k : Fin A) (r : Fin B) => φ (B * k.val + r.val))]
  refine Fintype.sum_equiv finProdFinEquiv _ _ fun p => congrArg φ ?_
  show B * p.1.val + p.2.val = p.2.val + B * p.1.val
  exact Nat.add_comm _ _

/-- THE REGROUPED SUM: `A` runs of `J` tiles of `B` rows, summed rows first, then tiles of a run, then runs, is the sum
    over all the `N = A·J·B` rows. -/
theorem sum_runs_tiles_rows {A J B N : ℕ} (hN : A * J * B = N) (φ : ℕ → β) :
    ∑ q : Fin A, ∑ s ∈ Finset.range J, ∑ r : Fin B, φ (B * (J * q.val + s) + r.val) = ∑ h : Fin N, φ h.val := by
  subst hN
  rw [← sum_tiles (A * J) B φ, ← sum_tiles A J (fun t => ∑ r : Fin B, φ (B * t + r.val))]
  refine Finset.sum_congr rfl fun q _ => ?_
  rw [Finset.sum_range]

end Cert.LibTiles
-- ==== Proof.Region0.lean ====
/-
  Kernel region 0 as a whole: what its two accumulator arrays hold at entry `(q, 0, 0)` when the region is left.

  The grid is two runs of 16 points, one run per core; point `16·q + j` reads row tile `16·q + j`. At entry `(0, 0, 0)` of
  an accumulator block the first point of a run leaves `+0.0` plus its tile sum and every later point adds its own, so
  after the run's last point the entry is `+0.0` plus the 16 tile sums of the run. The block is written back to slab `q`
  of the `[2, 8, 128]` array after the last point of run `q` only, so the array's entry `(q, 0, 0)` ends at that total.
-/
import proofs.«151147_j84610855731482_2_alg».proof.Proof.Pieces0
import proofs.«151147_j84610855731482_2_alg».proof.Proof.LibTiles
import Idealize.ShloMosaic.Lib.Pipeline.Value

set_option maxRecDepth 16384

noncomputable section

open scoped BigOperators

namespace Cert.KernelIdeal.Region0

open Cert.KernelIdeal Cert.KernelIdeal.Gen Cert.LossSpec Cert.KernelIdeal.Body0 Cert.KernelIdeal.Pieces0
open Idealize.ShloMosaic Idealize.ShloMosaic.TcCoe Idealize.ShloMosaic.Tactic Idealize.SL.Sem Idealize.ShloMosaic.ValueIdx
open Idealize.ShloMosaic.Pipeline (Dat)

variable (V : (c : Dev nD) → (b : Ref sig .tc) → Buf (Elt Ideal) ((c : Thread nD τ).loc b))

/-- The one live entry of an accumulator block. -/
abbrev e000 : S1x8x128.Idx := ix3 (0 : Fin 1) (0 : Fin 8) (0 : Fin 128)

/-- Row tile `n`'s sum of focal terms, read off the region's entry contents (`0` past the grid: never used). -/
def tF (c : Dev nD) (n : ℕ) : EReal :=
  if h : n < cfg0.N then tileFocal (iblk0 V c 0 ⟨n, h⟩) (iblk0 V c 1 ⟨n, h⟩) else 0

/-- Row tile `n`'s sum of distances, read off the region's entry contents (`0` past the grid: never used). -/
def tD (c : Dev nD) (n : ℕ) : EReal :=
  if h : n < cfg0.N then tileDist (iblk0 V c 1 ⟨n, h⟩) (iblk0 V c 2 ⟨n, h⟩) (iblk0 V c 3 ⟨n, h⟩) else 0

theorem tF_lt (c : Dev nD) (n : ℕ) (h : n < cfg0.N) :
    tF V c n = tileFocal (iblk0 V c 0 ⟨n, h⟩) (iblk0 V c 1 ⟨n, h⟩) := by
  unfold tF; exact dif_pos h

theorem tD_lt (c : Dev nD) (n : ℕ) (h : n < cfg0.N) :
    tD V c n = tileDist (iblk0 V c 1 ⟨n, h⟩) (iblk0 V c 2 ⟨n, h⟩) (iblk0 V c 3 ⟨n, h⟩) := by
  unfold tD; exact dif_pos h

/-! ## The first accumulator: focal terms -/

/-- At the first point of a run the entry is `+0.0` plus the point's tile sum. -/
theorem reset4 (c : Dev nD) (n : ℕ) (h : n < cfg0.N) (hn : n % 16 = 0) :
    (outsAt0 V c n h).1 e000 = w0 + tF V c n := by
  refine (congrArg (fun p : Vec Ideal S1x8x128 .f32 × Vec Ideal S1x8x128 .f32 => p.1 e000) (outsAt0_A V c ⟨n, h⟩ hn)).trans ?_
  refine (out_A_4 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (iblk0 V c 0 ⟨n, h⟩) (iblk0 V c 1 ⟨n, h⟩) (iblk0 V c 2 ⟨n, h⟩) (iblk0 V c 3 ⟨n, h⟩) ((hcond0_0 ⟨n, h⟩).mpr hn)).trans ?_
  exact congrArg (w0 + ·) (tF_lt V c _ h).symm

/-- At every other point the entry is what the point before left plus the point's tile sum. -/
theorem step4 (c : Dev nD) (n : ℕ) (h : n + 1 < cfg0.N) (hn : ¬(n + 1) % 16 = 0) :
    (outsAt0 V c (n + 1) h).1 e000 = (outsAt0 V c n (Nat.lt_of_succ_lt h)).1 e000 + tF V c (n + 1) := by
  refine (congrArg (fun p : Vec Ideal S1x8x128 .f32 × Vec Ideal S1x8x128 .f32 => p.1 e000) (outsAt0_B V c ⟨n + 1, h⟩ hn)).trans ?_
  refine (out_B_4 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (iblk0 V c 0 ⟨n + 1, h⟩) (iblk0 V c 1 ⟨n + 1, h⟩) (iblk0 V c 2 ⟨n + 1, h⟩) (iblk0 V c 3 ⟨n + 1, h⟩) (fun hh => hn ((hcond0_0 ⟨n + 1, h⟩).mp hh))
    (outsAt0 V c n (Nat.lt_of_succ_lt h)).1 (outsAt0 V c n (Nat.lt_of_succ_lt h)).2).trans ?_
  exact congrArg ((outsAt0 V c n (Nat.lt_of_succ_lt h)).1 e000 + ·) (tF_lt V c _ h).symm

/-- So at point `16·q + j` of run `q` the entry is `+0.0` plus the tile sums of the run's points up to it. -/
theorem closed4 (c : Dev nD) (q j : ℕ) (hj : j < 16) (h : 16 * q + j < cfg0.N) :
    (outsAt0 V c (16 * q + j) h).1 e000 = w0 + ∑ s ∈ Finset.range (j + 1), tF V c (16 * q + s) :=
  Cert.LibTiles.acc_closed (fun n h => (outsAt0 V c n h).1 e000) 16 w0 (tF V c) (reset4 V c) (step4 V c) q j hj h

/-- Output window 4's block at a point: block `t / 16` along the core axis, the whole `[8, 128]` slab. -/
theorem idx4 : ∀ t : Fin cfg0.N, win0_4.index t 0 = t.val / 16 ∧ win0_4.index t 1 = 0 ∧ win0_4.index t 2 = 0 :=
  (by decide +kernel : ∀ t : Fin grid0.N, win0_4.index t 0 = t.val / 16 ∧ win0_4.index t 1 = 0 ∧ win0_4.index t 2 = 0)

/-- THE ARRAY AFTER THE REGION, at entry `(q, 0, 0)`: core `q`'s whole run, `+0.0` plus its 16 tile sums. -/
theorem final4 (c : Dev nD) (q : Fin 2) :
    (dat0 V c).arrAt 4 cfg0.N (ix3 q (0 : Fin 8) (0 : Fin 128)) = w0 + ∑ s ∈ Finset.range 16, tF V c (16 * q.val + s) := by
  have hN : cfg0.N = 32 := N_0
  have hlt : 16 * q.val + 15 < cfg0.N := by have := q.isLt; omega
  refine (dat0 V c).arrAt_forall_of_flushed 4
    (fun i v => ∀ q' : Fin 2, i = ix3 q' (0 : Fin 8) (0 : Fin 128) → v = w0 + ∑ s ∈ Finset.range 16, tF V c (16 * q'.val + s))
    ?hP cfg0.N ⟨16 * q.val + 15, hlt⟩ (ix3 q (0 : Fin 8) (0 : Fin 128)) hlt ?hf ?hi q rfl
  case hf => exact (flush0_4 _).mpr (by show (16 * q.val + 15) % 16 = 15; omega)
  case hi =>
    show ix3 q (0 : Fin 8) (0 : Fin 128) ∈ ((View.whole main_v0_0).slice (win0_4.rect ⟨16 * q.val + 15, hlt⟩)).set
    rw [View.set_slice_whole, Rect.mem_set_unit]
    obtain ⟨i0, i1, i2⟩ := idx4 ⟨16 * q.val + 15, hlt⟩
    have hq : (16 * q.val + 15) / 16 = q.val := by omega
    intro a
    match a with
    | ⟨0, _⟩ => show win0_4.index ⟨16 * q.val + 15, hlt⟩ 0 * 1 ≤ q.val ∧ q.val < win0_4.index ⟨16 * q.val + 15, hlt⟩ 0 * 1 + 1
                rw [i0, hq]; omega
    | ⟨1, _⟩ => show win0_4.index ⟨16 * q.val + 15, hlt⟩ 1 * 8 ≤ 0 ∧ 0 < win0_4.index ⟨16 * q.val + 15, hlt⟩ 1 * 8 + 8
                rw [i1]; omega
    | ⟨2, _⟩ => show win0_4.index ⟨16 * q.val + 15, hlt⟩ 2 * 128 ≤ 0 ∧ 0 < win0_4.index ⟨16 * q.val + 15, hlt⟩ 2 * 128 + 128
                rw [i2]; omega
  case hP =>
    intro t hf y q' hq'
    have ht : t.val % 16 = 15 := (flush0_4 t).mp hf
    obtain ⟨i0, i1, i2⟩ := idx4 t
    have e0 : win0_4.index t 0 * 1 + 1 * (y 0).val = q'.val := congrArg (fun i : S2x8x128.Idx => (i 0).val) hq'
    have e1 : win0_4.index t 1 * 8 + 1 * (y 1).val = 0 := congrArg (fun i : S2x8x128.Idx => (i 1).val) hq'
    have e2 : win0_4.index t 2 * 128 + 1 * (y 2).val = 0 := congrArg (fun i : S2x8x128.Idx => (i 2).val) hq'
    have y0 : (y 0).val < 1 := (y 0).isLt
    have hy : y = e000 := by
      funext a
      apply Fin.ext
      match a with
      | ⟨0, _⟩ => show (y 0).val = 0; omega
      | ⟨1, _⟩ => show (y 1).val = 0; omega
      | ⟨2, _⟩ => show (y 2).val = 0; omega
    have htv : t.val = 16 * q'.val + 15 := by rw [i0] at e0; omega
    subst hy
    show (dat0 V c).after 4 t e000 = _
    rw [after0_4]
    have same : ∀ (u : ℕ) (hu : u < cfg0.N), u = t.val → (outsAt0 V c u hu).1 e000 = (outsAt0 V c t.val t.isLt).1 e000 :=
      fun u hu e => by subst e; rfl
    rw [← same (16 * q'.val + 15) (by rw [← htv]; exact t.isLt) htv.symm]
    exact closed4 V c q'.val 15 (by omega) _

/-! ## The second accumulator: distances -/

/-- At the first point of a run the entry is `+0.0` plus the point's tile sum. -/
theorem reset5 (c : Dev nD) (n : ℕ) (h : n < cfg0.N) (hn : n % 16 = 0) :
    (outsAt0 V c n h).2 e000 = w0 + tD V c n := by
  refine (congrArg (fun p : Vec Ideal S1x8x128 .f32 × Vec Ideal S1x8x128 .f32 => p.2 e000) (outsAt0_A V c ⟨n, h⟩ hn)).trans ?_
  refine (out_A_5 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (iblk0 V c 0 ⟨n, h⟩) (iblk0 V c 1 ⟨n, h⟩) (iblk0 V c 2 ⟨n, h⟩) (iblk0 V c 3 ⟨n, h⟩) ((hcond0_0 ⟨n, h⟩).mpr hn)).trans ?_
  exact congrArg (w0 + ·) (tD_lt V c _ h).symm

/-- At every other point the entry is what the point before left plus the point's tile sum. -/
theorem step5 (c : Dev nD) (n : ℕ) (h : n + 1 < cfg0.N) (hn : ¬(n + 1) % 16 = 0) :
    (outsAt0 V c (n + 1) h).2 e000 = (outsAt0 V c n (Nat.lt_of_succ_lt h)).2 e000 + tD V c (n + 1) := by
  refine (congrArg (fun p : Vec Ideal S1x8x128 .f32 × Vec Ideal S1x8x128 .f32 => p.2 e000) (outsAt0_B V c ⟨n + 1, h⟩ hn)).trans ?_
  refine (out_B_5 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (iblk0 V c 0 ⟨n + 1, h⟩) (iblk0 V c 1 ⟨n + 1, h⟩) (iblk0 V c 2 ⟨n + 1, h⟩) (iblk0 V c 3 ⟨n + 1, h⟩) (fun hh => hn ((hcond0_0 ⟨n + 1, h⟩).mp hh))
    (outsAt0 V c n (Nat.lt_of_succ_lt h)).1 (outsAt0 V c n (Nat.lt_of_succ_lt h)).2).trans ?_
  exact congrArg ((outsAt0 V c n (Nat.lt_of_succ_lt h)).2 e000 + ·) (tD_lt V c _ h).symm

/-- So at point `16·q + j` of run `q` the entry is `+0.0` plus the tile sums of the run's points up to it. -/
theorem closed5 (c : Dev nD) (q j : ℕ) (hj : j < 16) (h : 16 * q + j < cfg0.N) :
    (outsAt0 V c (16 * q + j) h).2 e000 = w0 + ∑ s ∈ Finset.range (j + 1), tD V c (16 * q + s) :=
  Cert.LibTiles.acc_closed (fun n h => (outsAt0 V c n h).2 e000) 16 w0 (tD V c) (reset5 V c) (step5 V c) q j hj h

/-- Output window 5's block at a point: block `t / 16` along the core axis, the whole `[8, 128]` slab. -/
theorem idx5 : ∀ t : Fin cfg0.N, win0_5.index t 0 = t.val / 16 ∧ win0_5.index t 1 = 0 ∧ win0_5.index t 2 = 0 :=
  (by decide +kernel : ∀ t : Fin grid0.N, win0_5.index t 0 = t.val / 16 ∧ win0_5.index t 1 = 0 ∧ win0_5.index t 2 = 0)

/-- THE ARRAY AFTER THE REGION, at entry `(q, 0, 0)`: core `q`'s whole run, `+0.0` plus its 16 tile sums. -/
theorem final5 (c : Dev nD) (q : Fin 2) :
    (dat0 V c).arrAt 5 cfg0.N (ix3 q (0 : Fin 8) (0 : Fin 128)) = w0 + ∑ s ∈ Finset.range 16, tD V c (16 * q.val + s) := by
  have hN : cfg0.N = 32 := N_0
  have hlt : 16 * q.val + 15 < cfg0.N := by have := q.isLt; omega
  refine (dat0 V c).arrAt_forall_of_flushed 5
    (fun i v => ∀ q' : Fin 2, i = ix3 q' (0 : Fin 8) (0 : Fin 128) → v = w0 + ∑ s ∈ Finset.range 16, tD V c (16 * q'.val + s))
    ?hP cfg0.N ⟨16 * q.val + 15, hlt⟩ (ix3 q (0 : Fin 8) (0 : Fin 128)) hlt ?hf ?hi q rfl
  case hf => exact (flush0_5 _).mpr (by show (16 * q.val + 15) % 16 = 15; omega)
  case hi =>
    show ix3 q (0 : Fin 8) (0 : Fin 128) ∈ ((View.whole main_v0_1).slice (win0_5.rect ⟨16 * q.val + 15, hlt⟩)).set
    rw [View.set_slice_whole, Rect.mem_set_unit]
    obtain ⟨i0, i1, i2⟩ := idx5 ⟨16 * q.val + 15, hlt⟩
    have hq : (16 * q.val + 15) / 16 = q.val := by omega
    intro a
    match a with
    | ⟨0, _⟩ => show win0_5.index ⟨16 * q.val + 15, hlt⟩ 0 * 1 ≤ q.val ∧ q.val < win0_5.index ⟨16 * q.val + 15, hlt⟩ 0 * 1 + 1
                rw [i0, hq]; omega
    | ⟨1, _⟩ => show win0_5.index ⟨16 * q.val + 15, hlt⟩ 1 * 8 ≤ 0 ∧ 0 < win0_5.index ⟨16 * q.val + 15, hlt⟩ 1 * 8 + 8
                rw [i1]; omega
    | ⟨2, _⟩ => show win0_5.index ⟨16 * q.val + 15, hlt⟩ 2 * 128 ≤ 0 ∧ 0 < win0_5.index ⟨16 * q.val + 15, hlt⟩ 2 * 128 + 128
                rw [i2]; omega
  case hP =>
    intro t hf y q' hq'
    have ht : t.val % 16 = 15 := (flush0_5 t).mp hf
    obtain ⟨i0, i1, i2⟩ := idx5 t
    have e0 : win0_5.index t 0 * 1 + 1 * (y 0).val = q'.val := congrArg (fun i : S2x8x128.Idx => (i 0).val) hq'
    have e1 : win0_5.index t 1 * 8 + 1 * (y 1).val = 0 := congrArg (fun i : S2x8x128.Idx => (i 1).val) hq'
    have e2 : win0_5.index t 2 * 128 + 1 * (y 2).val = 0 := congrArg (fun i : S2x8x128.Idx => (i 2).val) hq'
    have y0 : (y 0).val < 1 := (y 0).isLt
    have hy : y = e000 := by
      funext a
      apply Fin.ext
      match a with
      | ⟨0, _⟩ => show (y 0).val = 0; omega
      | ⟨1, _⟩ => show (y 1).val = 0; omega
      | ⟨2, _⟩ => show (y 2).val = 0; omega
    have htv : t.val = 16 * q'.val + 15 := by rw [i0] at e0; omega
    subst hy
    show (dat0 V c).after 5 t e000 = _
    rw [after0_5]
    have same : ∀ (u : ℕ) (hu : u < cfg0.N), u = t.val → (outsAt0 V c u hu).2 e000 = (outsAt0 V c t.val t.isLt).2 e000 :=
      fun u hu e => by subst e; rfl
    rw [← same (16 * q'.val + 15) (by rw [← htv]; exact t.isLt) htv.symm]
    exact closed5 V c q'.val 15 (by omega) _

end Cert.KernelIdeal.Region0

end
-- ==== Proof.Tail.lean ====
/-
  The result buffer after the host operations that follow the two kernel regions.

  Each region leaves two accumulator arrays of shape [2, 8, 128]; only the entries (q, 0, 0), one per core q, carry a
  partial sum. The host slices those two entries out of each array, adds them from +0.0, divides the node sums by
  65536.0 and the edge sums by 262144.0, adds the two focal means and the two distance means, multiplies each by 1.0
  and adds: the specification's loss of the four accumulated sums.
-/
import proofs.«151147_j84610855731482_2_alg».proof.Proof.Gen.KernelIdeal.Frame
import proofs.«151147_j84610855731482_2_alg».proof.Proof.Spec
import proofs.«151147_j84610855731482_2_alg».proof.Proof.LibSumIdx1
import Idealize.ShloMosaic.Lib.StableHlo.Run
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Tail

open Cert.KernelIdeal Cert.KernelIdeal.Gen Cert.LossSpec
open Idealize.ShloMosaic Idealize.ShloMosaic.TcCoe Idealize.ShloMosaic.StableHlo Idealize.ShloMosaic.ValueIdx Idealize.SL.Sem

/-- The sum an accumulator array carries: its entries (q, 0, 0) over the two cores q. -/
def accSum (A : (⟨3, ![2, 8, 128]⟩ : Shape).Idx → EReal) : EReal := ∑ q : Fin 2, A (ix3 q (0 : Fin 8) (0 : Fin 128))

/-- The host's reading of an accumulator array: the slice [0:2, 0:1, 0:1], reshaped to a vector of two, summed from +0.0. -/
def accRead (A : (⟨S2x8x128, .f32⟩ : BufTy).Contents (Elt Ideal)) : (⟨S_, .f32⟩ : BufTy).Contents (Elt Ideal) :=
  Host.reduceAdd (F := Ideal)
    (fun i => shapeCast S2 (extractStridedSlice S2x1x1 ![0, 0, 0] A slices_S2x8x128_S2x1x1_0_0_0) shapeCasts_S2x1x1_S2 i)
    (constant (F := Ideal) S_ .f32 0x00000000#32) reducesTo_S2_S_d0 h_S_

/-- The host's reading is the carried sum: the reshaped slice at q is the array at (q, 0, 0), and +0.0 is zero. -/
theorem accRead_apply (A : (⟨S2x8x128, .f32⟩ : BufTy).Contents (Elt Ideal)) (i : S_.Idx) : accRead A i = accSum A := by
  unfold accRead
  simp only [Host.reduceAdd, Ideal.hostReduceAdd_def]
  rw [Ideal.hostReduceAdd_total reducesTo_S2_S_d0 (fun b => b.elim0)]
  show w0 + _ = _
  rw [w0_eq, zero_add, sum_idx1]
  unfold accSum
  refine Finset.sum_congr rfl fun q _ => ?_
  refine (shapeCast_apply _ shapeCasts_S2x1x1_S2 (ix1 q) (ix3 q (0 : Fin 1) (0 : Fin 1)) ?_).trans ?_
  · rw [Shape.rowMajor_val_three, Shape.rowMajor_val_one]
    show (q.val * 1 + 0) * 1 + 0 = q.val
    omega
  · exact extractStridedSlice_apply _ A slices_S2x8x128_S2x1x1_0_0_0 (ix3 q (0 : Fin 1) (0 : Fin 1)) (ix3 q (0 : Fin 8) (0 : Fin 128))
      (fun a => by match a with | ⟨0, _⟩ => exact (Nat.zero_add _).symm | ⟨1, _⟩ => rfl | ⟨2, _⟩ => rfl)

/-- The host operations after region 1, read at the result: from any contents X, the loss's outer arithmetic over the
    two means already in main_v7 / main_v8 and the readings of region 1's two accumulator arrays. -/
theorem tail2 (X : Valuation τ sig (Elt Ideal)) :
    StableHlo.after (hostOps2 (F := Ideal)) X (Proc.devRef .tc main_v22)
      = addf (mulf (constant (F := Ideal) S_ .f32 0x3F800000#32)
            (addf (X (Proc.devRef .tc main_v7)) (Host.divf (accRead (X (Proc.devRef .tc main_v9_0))) (constant (F := Ideal) S_ .f32 0x48800000#32))))
          (mulf (constant (F := Ideal) S_ .f32 0x3F800000#32)
            (addf (X (Proc.devRef .tc main_v8)) (Host.divf (accRead (X (Proc.devRef .tc main_v9_1))) (constant (F := Ideal) S_ .f32 0x48800000#32)))) := by
  after_results_simp
  rfl

/-- The host operations between the regions, read at the two node means. -/
theorem tail1_v7 (Y : Valuation τ sig (Elt Ideal)) :
    StableHlo.after (hostOps1 (F := Ideal)) Y (Proc.devRef .tc main_v7)
      = Host.divf (accRead (Y (Proc.devRef .tc main_v0_0))) (constant (F := Ideal) S_ .f32 0x47800000#32) := by
  after_results_simp
  rfl
theorem tail1_v8 (Y : Valuation τ sig (Elt Ideal)) :
    StableHlo.after (hostOps1 (F := Ideal)) Y (Proc.devRef .tc main_v8)
      = Host.divf (accRead (Y (Proc.devRef .tc main_v0_1))) (constant (F := Ideal) S_ .f32 0x47800000#32) := by
  after_results_simp
  rfl

variable (m : (ℓ : Loc nD τ sig) → Buf (Elt Ideal) ℓ) (ρ : Dev nD → PrngReg)

/-- The result buffer at the program's last boundary: the specification's loss of the sums the four accumulator
    arrays carry (node focal, node distance, edge focal, edge distance). -/
theorem result_eq (c : Dev nD) :
    W4 (F := Ideal) m ρ c (Proc.devRef .tc main_v22) = fun _ => Cert.LossSpec.total
      (accSum ((dat0 (V0 m ρ) c).arrAt 4 cfg0.N)) (accSum ((dat0 (V0 m ρ) c).arrAt 5 cfg0.N))
      (accSum ((dat1 (V2 m ρ) c).arrAt 4 cfg1.N)) (accSum ((dat1 (V2 m ρ) c).arrAt 5 cfg1.N)) := by
  have e90 : W3 m ρ c (Proc.devRef .tc main_v9_0) = (dat1 (V2 m ρ) c).arrAt 4 cfg1.N := W3_arr m ρ c 4
  have e91 : W3 m ρ c (Proc.devRef .tc main_v9_1) = (dat1 (V2 m ρ) c).arrAt 5 cfg1.N := W3_arr m ρ c 5
  have e00 : W1 m ρ c (Proc.devRef .tc main_v0_0) = (dat0 (V0 m ρ) c).arrAt 4 cfg0.N := W1_arr m ρ c 4
  have e01 : W1 m ρ c (Proc.devRef .tc main_v0_1) = (dat0 (V0 m ρ) c).arrAt 5 cfg0.N := W1_arr m ρ c 5
  have e7 : W3 m ρ c (Proc.devRef .tc main_v7)
      = Host.divf (accRead ((dat0 (V0 m ρ) c).arrAt 4 cfg0.N)) (constant (F := Ideal) S_ .f32 0x47800000#32) :=
    (W3_of_ne m ρ c main_v7 (by decide)).trans ((tail1_v7 (W1 m ρ c)).trans (by rw [e00]))
  have e8 : W3 m ρ c (Proc.devRef .tc main_v8)
      = Host.divf (accRead ((dat0 (V0 m ρ) c).arrAt 5 cfg0.N)) (constant (F := Ideal) S_ .f32 0x47800000#32) :=
    (W3_of_ne m ρ c main_v8 (by decide)).trans ((tail1_v8 (W1 m ρ c)).trans (by rw [e01]))
  show StableHlo.after (hostOps2 (F := Ideal)) (W3 m ρ c) (Proc.devRef .tc main_v22) = _
  rw [tail2, e7, e8, e90, e91]
  funext i
  simp only [addf, mulf, Host.divf, constant, accRead_apply, Ideal.addf_def, Ideal.mulf_def, Ideal.hostDivf_def, Ideal.ofBits_def]
  rfl

end Cert.KernelIdeal.Tail

end
-- ==== Proof.Bridge0.lean ====
/-
  Kernel region 0's two accumulators against the stream's sums over all 65536 rows.

  Row tile `t` holds rows `2048·t, …, 2048·t + 2047` of the stream, and run `q` of the grid takes the tiles
  `16·q, …, 16·q + 15`. Entry `(q, 0, 0)` of an accumulator array ends at the run's 16 tile sums, each a sum over the
  tile's 2048 rows, so the two entries together are the sum over all 65536 = 2·16·2048 rows, in another grouping:
  addition of extended reals is commutative and associative, infinite terms included. The `+0.0` each run starts from
  is the additive zero.
-/
import proofs.«151147_j84610855731482_2_alg».proof.Proof.Region0
import proofs.«151147_j84610855731482_2_alg».proof.Proof.LibTiles
import proofs.«151147_j84610855731482_2_alg».proof.Proof.Tail

set_option maxRecDepth 16384

noncomputable section

open scoped BigOperators

namespace Cert.KernelIdeal.Bridge0

open Cert.KernelIdeal Cert.KernelIdeal.Gen Cert.LossSpec Cert.KernelIdeal.Body0 Cert.KernelIdeal.Region0
open Idealize.ShloMosaic Idealize.ShloMosaic.TcCoe Idealize.SL.Sem Idealize.ShloMosaic.ValueIdx
open Idealize.ShloMosaic.Pipeline (Dat)

/-- Row `h` of a `[65536, w]` array, as a function of every natural `h` (`0` past the last row: never used). -/
def rowN {w : ℕ} (X : (⟨2, ![65536, w]⟩ : Shape).Idx → EReal) (h : ℕ) (k : Fin w) : EReal :=
  if hh : h < 65536 then X (ix2 ⟨h, hh⟩ k) else 0

theorem rowN_lt {w : ℕ} (X : (⟨2, ![65536, w]⟩ : Shape).Idx → EReal) (h : Fin 65536) (k : Fin w) :
    rowN X h.val k = X (ix2 h k) := by
  unfold rowN; rw [dif_pos h.isLt]

variable (V : (c : Dev nD) → (b : Ref sig .tc) → Buf (Elt Ideal) ((c : Thread nD τ).loc b)) (c : Dev nD)
  (X0 X1 : (⟨2, ![65536, 160]⟩ : Shape).Idx → EReal) (X2 : (⟨2, ![65536, 512]⟩ : Shape).Idx → EReal)
  (X3 : (⟨2, ![160, 512]⟩ : Shape).Idx → EReal)

/-- THE FOCAL SUM: the first accumulator's two entries add up to the sum of the focal terms over all rows, when the
    windows' blocks are the row tiles of the probabilities `X0` and the labels `X1`. -/
theorem focal_total
    (hb0 : ∀ (t : Fin cfg0.N) (r : Fin 2048) (k : Fin 160), iblk0 V c 0 t (ix2 r k) = rowN X0 (2048 * t.val + r.val) k)
    (hb1 : ∀ (t : Fin cfg0.N) (r : Fin 2048) (k : Fin 160), iblk0 V c 1 t (ix2 r k) = rowN X1 (2048 * t.val + r.val) k) :
    Cert.KernelIdeal.Tail.accSum ((dat0 V c).arrAt 4 cfg0.N)
      = focalSum (fun (r : Fin 65536) (k : Fin 160) => X0 (ix2 r k)) (fun (r : Fin 65536) (k : Fin 160) => X1 (ix2 r k)) := by
  have hN : cfg0.N = 32 := N_0
  have hT : ∀ (n : ℕ) (hn : n < cfg0.N),
      tF V c n = ∑ r : Fin 2048, focal (classProb (rowN X0 (2048 * n + r.val)) (rowN X1 (2048 * n + r.val))) := fun n hn => by
    rw [tF_lt V c n hn]
    unfold tileFocal
    refine Finset.sum_congr rfl fun r _ => congrArg focal ?_
    unfold classProb
    exact Finset.sum_congr rfl fun k _ => congrArg₂ (· * ·) (hb0 ⟨n, hn⟩ r k) (hb1 ⟨n, hn⟩ r k)
  calc Cert.KernelIdeal.Tail.accSum ((dat0 V c).arrAt 4 cfg0.N)
      = ∑ q : Fin 2, ∑ s ∈ Finset.range 16, ∑ r : Fin 2048,
          focal (classProb (rowN X0 (2048 * (16 * q.val + s) + r.val)) (rowN X1 (2048 * (16 * q.val + s) + r.val))) := by
        unfold Cert.KernelIdeal.Tail.accSum
        refine Finset.sum_congr rfl fun q _ => ?_
        rw [final4 V c q, w0_eq, zero_add]
        exact Finset.sum_congr rfl fun s hs =>
          hT _ (by have h1 := Finset.mem_range.mp hs; have h2 := q.isLt; omega)
    _ = ∑ h : Fin 65536, focal (classProb (rowN X0 h.val) (rowN X1 h.val)) :=
        Cert.LibTiles.sum_runs_tiles_rows (A := 2) (J := 16) (B := 2048) (N := 65536) (by norm_num)
          (fun h => focal (classProb (rowN X0 h) (rowN X1 h)))
    _ = _ := by
        unfold focalSum
        refine Finset.sum_congr rfl fun h _ => congrArg focal ?_
        unfold classProb
        exact Finset.sum_congr rfl fun k _ => congrArg₂ (· * ·) (rowN_lt X0 h k) (rowN_lt X1 h k)

/-- THE DISTANCE SUM: the second accumulator's two entries add up to the sum of the distances over all rows, when the
    windows' blocks are the row tiles of the labels `X1` and the codes `X2`, and the whole prototype table `X3`. -/
theorem dist_total
    (hb1 : ∀ (t : Fin cfg0.N) (r : Fin 2048) (k : Fin 160), iblk0 V c 1 t (ix2 r k) = rowN X1 (2048 * t.val + r.val) k)
    (hb2 : ∀ (t : Fin cfg0.N) (r : Fin 2048) (d : Fin 512), iblk0 V c 2 t (ix2 r d) = rowN X2 (2048 * t.val + r.val) d)
    (hb3 : ∀ (t : Fin cfg0.N) (k : Fin 160) (d : Fin 512), iblk0 V c 3 t (ix2 k d) = X3 (ix2 k d)) :
    Cert.KernelIdeal.Tail.accSum ((dat0 V c).arrAt 5 cfg0.N)
      = distSum (fun (r : Fin 65536) (d : Fin 512) => X2 (ix2 r d)) (fun (r : Fin 65536) (k : Fin 160) => X1 (ix2 r k))
          (fun (k : Fin 160) (d : Fin 512) => X3 (ix2 k d)) := by
  have hN : cfg0.N = 32 := N_0
  have hT : ∀ (n : ℕ) (hn : n < cfg0.N),
      tD V c n = ∑ r : Fin 2048, Cert.LossSpec.dist (rowN X2 (2048 * n + r.val)) (rowN X1 (2048 * n + r.val))
        (fun (k : Fin 160) (d : Fin 512) => X3 (ix2 k d)) := fun n hn => by
    rw [tD_lt V c n hn]
    unfold tileDist
    refine Finset.sum_congr rfl fun r _ => ?_
    exact congr (congr (congrArg Cert.LossSpec.dist (funext fun d => hb2 ⟨n, hn⟩ r d)) (funext fun k => hb1 ⟨n, hn⟩ r k))
      (funext fun k => funext fun d => hb3 ⟨n, hn⟩ k d)
  calc Cert.KernelIdeal.Tail.accSum ((dat0 V c).arrAt 5 cfg0.N)
      = ∑ q : Fin 2, ∑ s ∈ Finset.range 16, ∑ r : Fin 2048,
          Cert.LossSpec.dist (rowN X2 (2048 * (16 * q.val + s) + r.val)) (rowN X1 (2048 * (16 * q.val + s) + r.val))
            (fun (k : Fin 160) (d : Fin 512) => X3 (ix2 k d)) := by
        unfold Cert.KernelIdeal.Tail.accSum
        refine Finset.sum_congr rfl fun q _ => ?_
        rw [final5 V c q, w0_eq, zero_add]
        exact Finset.sum_congr rfl fun s hs =>
          hT _ (by have h1 := Finset.mem_range.mp hs; have h2 := q.isLt; omega)
    _ = ∑ h : Fin 65536, Cert.LossSpec.dist (rowN X2 h.val) (rowN X1 h.val) (fun (k : Fin 160) (d : Fin 512) => X3 (ix2 k d)) :=
        Cert.LibTiles.sum_runs_tiles_rows (A := 2) (J := 16) (B := 2048) (N := 65536) (by norm_num)
          (fun h => Cert.LossSpec.dist (rowN X2 h) (rowN X1 h) (fun (k : Fin 160) (d : Fin 512) => X3 (ix2 k d)))
    _ = _ := by
        unfold distSum
        refine Finset.sum_congr rfl fun h _ => ?_
        exact congr (congr (congrArg Cert.LossSpec.dist (funext fun d => rowN_lt X2 h d)) (funext fun k => rowN_lt X1 h k)) rfl

end Cert.KernelIdeal.Bridge0

end
-- ==== Proof.Body1.lean ====
/-
  The body of kernel region 1 as arithmetic on one row tile, at the exact values.

  One grid point reads a tile of 2048 rows: the probabilities and the one-hot labels (`[2048, 27]` each), the codes
  (`[2048, 512]`) and the whole prototype table (`[27, 512]`). It adds to entry `(0, 0)` of the first accumulator the
  tile's sum of focal terms, and to entry `(0, 0)` of the second the tile's sum of distances. Read at that one entry the
  two stored values are the accumulator's previous entry plus the tile sum: the row statistics kept as `[2048, 1]`
  columns are read row by row, the label-selected prototype is the product of the label row with the table (the
  narrowing of both operands to bf16 is the identity at the exact values), and each reduction is a finite sum.
-/
import proofs.«151147_j84610855731482_2_alg».proof.Proof.Gen.KernelIdeal.Frame
import proofs.«151147_j84610855731482_2_alg».proof.Proof.Spec
import proofs.«151147_j84610855731482_2_alg».proof.Proof.LibKeepdims
import proofs.«151147_j84610855731482_2_alg».proof.Proof.LibDense
import proofs.«151147_j84610855731482_2_alg».proof.Proof.LibLastAxis
import proofs.«151147_j84610855731482_2_alg».proof.Proof.LibColSum
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.Body1

open Cert.KernelIdeal Cert.KernelIdeal.Gen Cert.LossSpec Cert.LibColSum
open Idealize.ShloMosaic Idealize.ShloMosaic.TcCoe Idealize.ShloMosaic.Tactic Idealize.SL.Sem Idealize.ShloMosaic.ValueIdx

/-- The sum of the focal terms of a tile's 2048 rows. -/
def tileFocal (x0 x1 : FVec Ideal S2048x27 .f32) : EReal :=
  ∑ r : Fin 2048, focal (classProb (fun c : Fin 27 => x0 (ix2 r c)) (fun c : Fin 27 => x1 (ix2 r c)))

/-- The sum of the distances of a tile's 2048 rows from their label-selected prototypes. -/
def tileDist (x1 : FVec Ideal S2048x27 .f32) (x2 : FVec Ideal S2048x512 .f32) (x3 : FVec Ideal S27x512 .f32) : EReal :=
  ∑ r : Fin 2048, dist (fun d : Fin 512 => x2 (ix2 r d)) (fun c : Fin 27 => x1 (ix2 r c))
    (fun (c : Fin 27) (d : Fin 512) => x3 (ix2 c d))

/-- The focal term computed on the column `P` of true-class probabilities, read at row `r`. -/
theorem focal_col (P : FVec Ideal S2048x1 .f32) (r : Fin 2048) :
    mulf (subf (broadcast S2048x1 (FloatOps.ofBits (F := Ideal) .f32 0x00000000#32))
        (mulf (subf (broadcast S2048x1 (FloatOps.ofBits (F := Ideal) .f32 0x3F800000#32)) P)
          (subf (broadcast S2048x1 (FloatOps.ofBits (F := Ideal) .f32 0x3F800000#32)) P)))
      (log P) (ix2 r (0 : Fin 1)) = focal (P (ix2 r (0 : Fin 1))) := rfl

/-- The squared, `ε`-shifted difference of the codes `X` from the prototypes `Q`, read at `(r, d)`. -/
theorem sqdiff_entry (X Q : FVec Ideal S2048x512 .f32) (r : Fin 2048) (d : Fin 512) :
    mulf (addf (subf X Q) (broadcast S2048x512 (FloatOps.ofBits (F := Ideal) .f32 0x358637BD#32)))
      (addf (subf X Q) (broadcast S2048x512 (FloatOps.ofBits (F := Ideal) .f32 0x358637BD#32))) (ix2 r d)
      = (X (ix2 r d) - Q (ix2 r d) + wEps) * (X (ix2 r d) - Q (ix2 r d) + wEps) := rfl

/-! ### Where the kernel's product reads its operands -/

theorem dot_lhs0 (i : S2048x512.Idx) (q : dot_S2048x27_S27x512_S2048x512_1_0_0_1_n_n.contr.Idx) :
    (dot_S2048x27_S27x512_S2048x512_1_0_0_1_n_n.lhsIdx i q 0).val = (i 0).val := by
  unfold DotDims.lhsIdx
  rw [dif_neg (show ¬(0 : Fin S2048x27.rank) ∈ dot_S2048x27_S27x512_S2048x512_1_0_0_1_n_n.lhsBatch by decide), dif_pos (show (0 : Fin S2048x27.rank) ∈ dot_S2048x27_S27x512_S2048x512_1_0_0_1_n_n.lhsNonContracting by decide)]
  rfl
theorem dot_lhs1 (i : S2048x512.Idx) (q : dot_S2048x27_S27x512_S2048x512_1_0_0_1_n_n.contr.Idx) :
    (dot_S2048x27_S27x512_S2048x512_1_0_0_1_n_n.lhsIdx i q 1).val = (q ⟨0, by decide⟩).val :=
  dot_S2048x27_S27x512_S2048x512_1_0_0_1_n_n.lhsIdx_val_of_single rfl i q
theorem dot_rhs0 (i : S2048x512.Idx) (q : dot_S2048x27_S27x512_S2048x512_1_0_0_1_n_n.contr.Idx) :
    (dot_S2048x27_S27x512_S2048x512_1_0_0_1_n_n.rhsIdx i q 0).val = (q ⟨0, by decide⟩).val :=
  dot_S2048x27_S27x512_S2048x512_1_0_0_1_n_n.rhsIdx_val_of_single rfl i q
theorem dot_rhs1 (i : S2048x512.Idx) (q : dot_S2048x27_S27x512_S2048x512_1_0_0_1_n_n.contr.Idx) :
    (dot_S2048x27_S27x512_S2048x512_1_0_0_1_n_n.rhsIdx i q 1).val = (i 1).val := by
  unfold DotDims.rhsIdx
  rw [dif_neg (show ¬(1 : Fin S27x512.rank) ∈ dot_S2048x27_S27x512_S2048x512_1_0_0_1_n_n.rhsBatch by decide), dif_pos (show (1 : Fin S27x512.rank) ∈ dot_S2048x27_S27x512_S2048x512_1_0_0_1_n_n.rhsNonContracting by decide)]
  rfl

/-- The label-selected prototypes: the product of the (narrowed) labels with the (narrowed) table into a zero
    accumulator, at `(r, d)`, is the sum over the classes of label times table entry. -/
theorem proto_apply (x1 : FVec Ideal S2048x27 .f32) (x3 : FVec Ideal S27x512 .f32) (r : Fin 2048) (d : Fin 512) :
    matmul dot_S2048x27_S27x512_S2048x512_1_0_0_1_n_n none (truncf .bf16 x1 bitsLt_bf16_f32) (truncf .bf16 x3 bitsLt_bf16_f32)
        (constant (F := Ideal) S2048x512 .f32 0x00000000#32) (ix2 r d)
      = ∑ c : Fin 27, x1 (ix2 r c) * x3 (ix2 c d) :=
  matmul_zero_plain_apply dot_S2048x27_S27x512_S2048x512_1_0_0_1_n_n none rfl rfl dot_lhs0 dot_lhs1 dot_rhs0 dot_rhs1
    (truncf .bf16 x1 bitsLt_bf16_f32) (truncf .bf16 x3 bitsLt_bf16_f32) r d

/-- The first accumulator's new entry: its previous entry plus the tile's sum of focal terms. -/
theorem pay6_apply (x0 x1 : Vec Ideal S2048x27 .f32) (v31 : Vec Ideal S1x1x1 .f32) :
    k1_pay6 (F := Ideal) x0 x1 v31 (ix2 (0 : Fin 1) (0 : Fin 1))
      = v31 (ix3 (0 : Fin 1) (0 : Fin 1) (0 : Fin 1)) + tileFocal x0 x1 := by
  unfold k1_pay6
  dsimp only
  refine (addf_apply _ _ _).trans ?_
  refine congrArg₂ (· + ·) (shapeCast_111_11_apply v31 _) ?_
  refine (shapeCast_a_a1_apply _ _ (0 : Fin 1) (0 : Fin 1)).trans ?_
  refine (colSum_apply _ _ _ _).trans ?_
  refine Finset.sum_congr rfl fun r _ => ?_
  refine (focal_col _ r).trans (congrArg focal ?_)
  refine (shapeCast_a_a1_apply _ _ r (0 : Fin 1)).trans ?_
  exact Cert.LibLastAxis.rowSum_apply _ _ _ _ r

/-- The tile's sum of distances, as the body computes it. -/
theorem pay5_apply (x1 : Vec Ideal S2048x27 .f32) (x3 : Vec Ideal S27x512 .f32) (x2 : Vec Ideal S2048x512 .f32) :
    k1_pay5 (F := Ideal) x1 x3 x2 (ix2 (0 : Fin 1) (0 : Fin 1)) = tileDist x1 x2 x3 := by
  unfold k1_pay5
  dsimp only
  refine (shapeCast_a_a1_apply _ _ (0 : Fin 1) (0 : Fin 1)).trans ?_
  refine (colSum_apply _ _ _ _).trans ?_
  refine Finset.sum_congr rfl fun r _ => ?_
  show Ideal.sqrt _ = Ideal.sqrt _
  refine congrArg Ideal.sqrt ?_
  refine (shapeCast_a_a1_apply _ _ r (0 : Fin 1)).trans ?_
  refine (Cert.LibLastAxis.rowSum_apply _ _ _ _ r).trans ?_
  refine Finset.sum_congr rfl fun d _ => ?_
  refine (sqdiff_entry _ _ r d).trans ?_
  exact congrArg (fun q : EReal => (x2 (ix2 r d) - q + wEps) * (x2 (ix2 r d) - q + wEps)) (proto_apply x1 x3 r d)

/-- The value stored to the first accumulator's entry is the new entry. -/
theorem pay1_apply (v33 : FVec Ideal S1x1 .f32) :
    k1_pay1 (F := Ideal) v33 (ix3 (0 : Fin 1) (0 : Fin 1) (0 : Fin 1)) = v33 (ix2 (0 : Fin 1) (0 : Fin 1)) := by
  unfold k1_pay1
  exact shapeCast_11_111_apply v33 _

/-- The value stored to the second accumulator's entry: its previous entry plus the tile's sum of distances. -/
theorem pay2_apply (v30 : FVec Ideal S1x1 .f32) (v37 : Vec Ideal S1x1x1 .f32) :
    k1_pay2 (F := Ideal) v30 v37 (ix3 (0 : Fin 1) (0 : Fin 1) (0 : Fin 1))
      = v37 (ix3 (0 : Fin 1) (0 : Fin 1) (0 : Fin 1)) + v30 (ix2 (0 : Fin 1) (0 : Fin 1)) := by
  unfold k1_pay2
  refine (shapeCast_11_111_apply _ _).trans ?_
  refine (addf_apply _ _ _).trans ?_
  exact congrArg (· + v30 (ix2 (0 : Fin 1) (0 : Fin 1))) (shapeCast_111_11_apply v37 _)

/-- The zero blocks the first point of a run stores read `+0.0` everywhere. -/
theorem pay3_apply (y : S1x8x128.Idx) : k1_pay3 (F := Ideal) y = w0 := rfl
theorem pay4_apply (y : S1x8x128.Idx) : k1_pay4 (F := Ideal) y = w0 := rfl

end Cert.KernelIdeal.Body1

end
-- ==== Proof.Pieces1.lean ====
/-
  What one grid point of kernel region 1 leaves at entry `(0, 0, 0)` of each accumulator block, at the exact values.

  At the first point of a core's run the body stores a block of zeros and then, at entry `(0, 0, 0)`, the zero it has
  just stored plus the tile sum; at every other point it stores there the entry the point before left plus the tile
  sum. The last store to the entry decides what is read back; the loads of the whole staging buffers read the tile.
-/
import proofs.«151147_j84610855731482_2_alg».proof.Proof.Body1
import Idealize.ShloMosaic.Lib.Writes
import Idealize.ShloMosaic.Lib.Pipeline.FrameBody

set_option maxRecDepth 16384

noncomputable section

open scoped BigOperators

namespace Cert.KernelIdeal.Pieces1

open Cert.KernelIdeal Cert.KernelIdeal.Gen Cert.LossSpec Cert.KernelIdeal.Body1
open Idealize.ShloMosaic Idealize.ShloMosaic.TcCoe Idealize.ShloMosaic.Tactic Idealize.SL.Sem Idealize.ShloMosaic.ValueIdx

theorem hz2 : (![0, 0] : Fin 2 → Nat) = fun _ => 0 := funext fun a => by fin_cases a <;> rfl
theorem hz3 : (![0, 0, 0] : Fin 3 → Nat) = fun _ => 0 := funext fun a => by fin_cases a <;> rfl

/-- The one entry of the `[1, 1, 1]` rectangle at the origin of a `[1, 8, 128]` block is the block's entry `(0, 0, 0)`. -/
theorem emb111 (x : (⟨3, ![1, 1, 1]⟩ : Shape).Idx) :
    (Rect.unit (s := S1x8x128) ![0, 0, 0] ![1, 1, 1] inb_S1x8x128_S1x1x1_0_0_0).emb x
      = ix3 (0 : Fin 1) (0 : Fin 8) (0 : Fin 128) := by
  funext a
  apply Fin.ext
  rw [Rect.emb_apply]
  match a with
  | ⟨0, _⟩ => show 0 + 1 * (x 0 : Nat) = 0; have h : (x 0 : Nat) < 1 := (x 0).isLt; omega
  | ⟨1, _⟩ => show 0 + 1 * (x 1 : Nat) = 0; have h : (x 1 : Nat) < 1 := (x 1).isLt; omega
  | ⟨2, _⟩ => show 0 + 1 * (x 2 : Nat) = 0; have h : (x 2 : Nat) < 1 := (x 2).isLt; omega

variable (c : Dev nD) (i : grid1.Coords)
  (a2 : Memref sig .tc .vmem S2048x27 .f32) (h2 : a2.IsWhole) (a3 : Memref sig .tc .vmem S2048x27 .f32) (h3 : a3.IsWhole)
  (a4 : Memref sig .tc .vmem S2048x512 .f32) (h4 : a4.IsWhole) (a5 : Memref sig .tc .vmem S27x512 .f32) (h5 : a5.IsWhole)
  (a6 : Memref sig .tc .vmem S1x8x128 .f32) (h6 : a6.IsWhole) (a7 : Memref sig .tc .vmem S1x8x128 .f32) (h7 : a7.IsWhole)
  (x0 x1 : Vec Ideal S2048x27 .f32) (x2 : Vec Ideal S2048x512 .f32) (x3 : Vec Ideal S27x512 .f32)

/-- A point that is not the first of its run: the first accumulator's entry becomes the entry before plus the tile's focal sum. -/
theorem out_B_4 (hc : ¬cond1_0 i) (xo4 xo5 : Vec Ideal S1x8x128 .f32) :
    out1_B_4 (F := Ideal) c i a2 h2 a3 h3 a4 h4 a5 h5 a6 h6 a7 h7 hc x0 x1 x2 x3 xo4 xo5 (ix3 (0 : Fin 1) (0 : Fin 8) (0 : Fin 128))
      = xo4 (ix3 (0 : Fin 1) (0 : Fin 8) (0 : Fin 128)) + tileFocal x0 x1 := by
  unfold out1_B_4
  unfold kernelRun1_B
  dsimp only
  sl_unfold_words
  refine (congrArg (View.read (Elt Ideal) a6.view _) (emb111 (ix3 (0 : Fin 1) (0 : Fin 1) (0 : Fin 1))).symm).trans ?_
  refine (View.read_writes_cons_emb _ _ (Rect.unit (s := S1x8x128) ![0, 0, 0] ![1, 1, 1] inb_S1x8x128_S1x1x1_0_0_0) _ _
    (ix3 (0 : Fin 1) (0 : Fin 1) (0 : Fin 1))).trans ?_
  refine (pay1_apply _).trans ((pay6_apply _ _ _).trans ?_)
  refine congrArg₂ (· + ·) ?_ ?_
  · rw [View.readAt_eq_ld, h6.read_unread]
    exact congrArg xo4 (emb111 _)
  · simp only [View.readAt_eq_ld, h2.read_unread, h3.read_unread, View.ld_unit_zero (S := S2048x27) hz2]

/-- A point that is not the first of its run: the second accumulator's entry becomes the entry before plus the tile's sum of distances. -/
theorem out_B_5 (hc : ¬cond1_0 i) (xo4 xo5 : Vec Ideal S1x8x128 .f32) :
    out1_B_5 (F := Ideal) c i a2 h2 a3 h3 a4 h4 a5 h5 a6 h6 a7 h7 hc x0 x1 x2 x3 xo4 xo5 (ix3 (0 : Fin 1) (0 : Fin 8) (0 : Fin 128))
      = xo5 (ix3 (0 : Fin 1) (0 : Fin 8) (0 : Fin 128)) + tileDist x1 x2 x3 := by
  unfold out1_B_5
  unfold kernelRun1_B
  dsimp only
  sl_unfold_words
  refine (congrArg (View.read (Elt Ideal) a7.view _) (emb111 (ix3 (0 : Fin 1) (0 : Fin 1) (0 : Fin 1))).symm).trans ?_
  refine (View.read_writes_cons_emb _ _ (Rect.unit (s := S1x8x128) ![0, 0, 0] ![1, 1, 1] inb_S1x8x128_S1x1x1_0_0_0) _ _
    (ix3 (0 : Fin 1) (0 : Fin 1) (0 : Fin 1))).trans ?_
  refine (pay2_apply _ _).trans ?_
  refine congrArg₂ (· + ·) ?_ ((pay5_apply _ _ _).trans ?_)
  · rw [View.readAt_eq_ld, h7.read_unread]
    exact congrArg xo5 (emb111 _)
  · simp only [View.readAt_eq_ld, h3.read_unread, h4.read_unread, h5.read_unread, View.ld_unit_zero (S := S2048x27) hz2,
      View.ld_unit_zero (S := S2048x512) hz2, View.ld_unit_zero (S := S27x512) hz2]

/-- The first point of a run: the first accumulator's entry becomes `+0.0` plus the tile's focal sum. -/
theorem out_A_4 (hc : cond1_0 i) :
    out1_A_4 (F := Ideal) c i a2 h2 a3 h3 a4 h4 a5 h5 a6 h6 a7 h7 hc x0 x1 x2 x3 (ix3 (0 : Fin 1) (0 : Fin 8) (0 : Fin 128))
      = w0 + tileFocal x0 x1 := by
  unfold out1_A_4
  unfold kernelRun1_A
  dsimp only
  sl_unfold_words
  refine (congrArg (View.read (Elt Ideal) VO1_4 _) (emb111 (ix3 (0 : Fin 1) (0 : Fin 1) (0 : Fin 1))).symm).trans ?_
  refine (View.read_writes_cons_emb _ _ (Rect.unit (s := S1x8x128) ![0, 0, 0] ![1, 1, 1] inb_S1x8x128_S1x1x1_0_0_0) _ _
    (ix3 (0 : Fin 1) (0 : Fin 1) (0 : Fin 1))).trans ?_
  refine (pay1_apply _).trans ((pay6_apply _ _ _).trans ?_)
  refine congrArg₂ (· + ·) ?_ ?_
  · refine (congrFun (View.readCov_eq_canon_ld a6.view
        [(⟨Rect.unit ![0, 0, 0] S1x8x128.size inb_S1x8x128_S1x8x128_0_0_0, k1_pay3 (F := Ideal)⟩ : View.Piece (Elt Ideal) S1x8x128 .f32)]
        (Rect.unit ![0, 0, 0] S1x1x1.size inb_S1x8x128_S1x1x1_0_0_0)
        (fun y => ⟨_, List.mem_singleton_self _, View.mem_set_unit_zero hz3 inb_S1x8x128_S1x8x128_0_0_0 y⟩)) _).trans ?_
    rw [View.canon_unit_zero hz3]
    rfl
  · simp only [View.readAt_eq_ld, h2.read_unread, h3.read_unread, View.ld_unit_zero (S := S2048x27) hz2]

/-- The first point of a run: the second accumulator's entry becomes `+0.0` plus the tile's sum of distances. -/
theorem out_A_5 (hc : cond1_0 i) :
    out1_A_5 (F := Ideal) c i a2 h2 a3 h3 a4 h4 a5 h5 a6 h6 a7 h7 hc x0 x1 x2 x3 (ix3 (0 : Fin 1) (0 : Fin 8) (0 : Fin 128))
      = w0 + tileDist x1 x2 x3 := by
  unfold out1_A_5
  unfold kernelRun1_A
  dsimp only
  sl_unfold_words
  refine (congrArg (View.read (Elt Ideal) VO1_5 _) (emb111 (ix3 (0 : Fin 1) (0 : Fin 1) (0 : Fin 1))).symm).trans ?_
  refine (View.read_writes_cons_emb _ _ (Rect.unit (s := S1x8x128) ![0, 0, 0] ![1, 1, 1] inb_S1x8x128_S1x1x1_0_0_0) _ _
    (ix3 (0 : Fin 1) (0 : Fin 1) (0 : Fin 1))).trans ?_
  refine (pay2_apply _ _).trans ?_
  refine congrArg₂ (· + ·) ?_ ((pay5_apply _ _ _).trans ?_)
  · refine (congrFun (View.readCov_eq_canon_ld a7.view
        [(⟨Rect.unit ![0, 0, 0] S1x8x128.size inb_S1x8x128_S1x8x128_0_0_0, k1_pay4 (F := Ideal)⟩ : View.Piece (Elt Ideal) S1x8x128 .f32)]
        (Rect.unit ![0, 0, 0] S1x1x1.size inb_S1x8x128_S1x1x1_0_0_0)
        (fun y => ⟨_, List.mem_singleton_self _, View.mem_set_unit_zero hz3 inb_S1x8x128_S1x8x128_0_0_0 y⟩)) _).trans ?_
    rw [View.canon_unit_zero hz3]
    rfl
  · simp only [View.readAt_eq_ld, h3.read_unread, h4.read_unread, h5.read_unread, View.ld_unit_zero (S := S2048x27) hz2,
      View.ld_unit_zero (S := S2048x512) hz2, View.ld_unit_zero (S := S27x512) hz2]

end Cert.KernelIdeal.Pieces1

end
-- ==== Proof.Region1.lean ====
/-
  Kernel region 1 as a whole: what its two accumulator arrays hold at entry `(q, 0, 0)` when the region is left.

  The grid is two runs of 64 points, one run per core; point `64·q + j` reads row tile `64·q + j`. At entry `(0, 0, 0)` of
  an accumulator block the first point of a run leaves `+0.0` plus its tile sum and every later point adds its own, so
  after the run's last point the entry is `+0.0` plus the 64 tile sums of the run. The block is written back to slab `q`
  of the `[2, 8, 128]` array after the last point of run `q` only, so the array's entry `(q, 0, 0)` ends at that total.
-/
import proofs.«151147_j84610855731482_2_alg».proof.Proof.Pieces1
import proofs.«151147_j84610855731482_2_alg».proof.Proof.LibTiles
import Idealize.ShloMosaic.Lib.Pipeline.Value

set_option maxRecDepth 16384

noncomputable section

open scoped BigOperators

namespace Cert.KernelIdeal.Region1

open Cert.KernelIdeal Cert.KernelIdeal.Gen Cert.LossSpec Cert.KernelIdeal.Body1 Cert.KernelIdeal.Pieces1
open Idealize.ShloMosaic Idealize.ShloMosaic.TcCoe Idealize.ShloMosaic.Tactic Idealize.SL.Sem Idealize.ShloMosaic.ValueIdx
open Idealize.ShloMosaic.Pipeline (Dat)

variable (V : (c : Dev nD) → (b : Ref sig .tc) → Buf (Elt Ideal) ((c : Thread nD τ).loc b))

/-- The one live entry of an accumulator block. -/
abbrev e000 : S1x8x128.Idx := ix3 (0 : Fin 1) (0 : Fin 8) (0 : Fin 128)

/-- Row tile `n`'s sum of focal terms, read off the region's entry contents (`0` past the grid: never used). -/
def tF (c : Dev nD) (n : ℕ) : EReal :=
  if h : n < cfg1.N then tileFocal (iblk1 V c 0 ⟨n, h⟩) (iblk1 V c 1 ⟨n, h⟩) else 0

/-- Row tile `n`'s sum of distances, read off the region's entry contents (`0` past the grid: never used). -/
def tD (c : Dev nD) (n : ℕ) : EReal :=
  if h : n < cfg1.N then tileDist (iblk1 V c 1 ⟨n, h⟩) (iblk1 V c 2 ⟨n, h⟩) (iblk1 V c 3 ⟨n, h⟩) else 0

theorem tF_lt (c : Dev nD) (n : ℕ) (h : n < cfg1.N) :
    tF V c n = tileFocal (iblk1 V c 0 ⟨n, h⟩) (iblk1 V c 1 ⟨n, h⟩) := by
  unfold tF; exact dif_pos h

theorem tD_lt (c : Dev nD) (n : ℕ) (h : n < cfg1.N) :
    tD V c n = tileDist (iblk1 V c 1 ⟨n, h⟩) (iblk1 V c 2 ⟨n, h⟩) (iblk1 V c 3 ⟨n, h⟩) := by
  unfold tD; exact dif_pos h

/-! ## The first accumulator: focal terms -/

/-- At the first point of a run the entry is `+0.0` plus the point's tile sum. -/
theorem reset4 (c : Dev nD) (n : ℕ) (h : n < cfg1.N) (hn : n % 64 = 0) :
    (outsAt1 V c n h).1 e000 = w0 + tF V c n := by
  refine (congrArg (fun p : Vec Ideal S1x8x128 .f32 × Vec Ideal S1x8x128 .f32 => p.1 e000) (outsAt1_A V c ⟨n, h⟩ hn)).trans ?_
  refine (out_A_4 c (grid1.coords ⟨n, h⟩) (ms1_0 ⟨n, h⟩) (hs1_0 ⟨n, h⟩) (ms1_1 ⟨n, h⟩) (hs1_1 ⟨n, h⟩) (ms1_2 ⟨n, h⟩) (hs1_2 ⟨n, h⟩) (ms1_3 ⟨n, h⟩) (hs1_3 ⟨n, h⟩) (ms1_4 ⟨n, h⟩) (hs1_4 ⟨n, h⟩) (ms1_5 ⟨n, h⟩) (hs1_5 ⟨n, h⟩) (iblk1 V c 0 ⟨n, h⟩) (iblk1 V c 1 ⟨n, h⟩) (iblk1 V c 2 ⟨n, h⟩) (iblk1 V c 3 ⟨n, h⟩) ((hcond1_0 ⟨n, h⟩).mpr hn)).trans ?_
  exact congrArg (w0 + ·) (tF_lt V c _ h).symm

/-- At every other point the entry is what the point before left plus the point's tile sum. -/
theorem step4 (c : Dev nD) (n : ℕ) (h : n + 1 < cfg1.N) (hn : ¬(n + 1) % 64 = 0) :
    (outsAt1 V c (n + 1) h).1 e000 = (outsAt1 V c n (Nat.lt_of_succ_lt h)).1 e000 + tF V c (n + 1) := by
  refine (congrArg (fun p : Vec Ideal S1x8x128 .f32 × Vec Ideal S1x8x128 .f32 => p.1 e000) (outsAt1_B V c ⟨n + 1, h⟩ hn)).trans ?_
  refine (out_B_4 c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (iblk1 V c 0 ⟨n + 1, h⟩) (iblk1 V c 1 ⟨n + 1, h⟩) (iblk1 V c 2 ⟨n + 1, h⟩) (iblk1 V c 3 ⟨n + 1, h⟩) (fun hh => hn ((hcond1_0 ⟨n + 1, h⟩).mp hh))
    (outsAt1 V c n (Nat.lt_of_succ_lt h)).1 (outsAt1 V c n (Nat.lt_of_succ_lt h)).2).trans ?_
  exact congrArg ((outsAt1 V c n (Nat.lt_of_succ_lt h)).1 e000 + ·) (tF_lt V c _ h).symm

/-- So at point `64·q + j` of run `q` the entry is `+0.0` plus the tile sums of the run's points up to it. -/
theorem closed4 (c : Dev nD) (q j : ℕ) (hj : j < 64) (h : 64 * q + j < cfg1.N) :
    (outsAt1 V c (64 * q + j) h).1 e000 = w0 + ∑ s ∈ Finset.range (j + 1), tF V c (64 * q + s) :=
  Cert.LibTiles.acc_closed (fun n h => (outsAt1 V c n h).1 e000) 64 w0 (tF V c) (reset4 V c) (step4 V c) q j hj h

/-- Output window 4's block at a point: block `t / 64` along the core axis, the whole `[8, 128]` slab. -/
theorem idx4 : ∀ t : Fin cfg1.N, win1_4.index t 0 = t.val / 64 ∧ win1_4.index t 1 = 0 ∧ win1_4.index t 2 = 0 :=
  (by decide +kernel : ∀ t : Fin grid1.N, win1_4.index t 0 = t.val / 64 ∧ win1_4.index t 1 = 0 ∧ win1_4.index t 2 = 0)

/-- THE ARRAY AFTER THE REGION, at entry `(q, 0, 0)`: core `q`'s whole run, `+0.0` plus its 64 tile sums. -/
theorem final4 (c : Dev nD) (q : Fin 2) :
    (dat1 V c).arrAt 4 cfg1.N (ix3 q (0 : Fin 8) (0 : Fin 128)) = w0 + ∑ s ∈ Finset.range 64, tF V c (64 * q.val + s) := by
  have hN : cfg1.N = 128 := N_1
  have hlt : 64 * q.val + 63 < cfg1.N := by have := q.isLt; omega
  refine (dat1 V c).arrAt_forall_of_flushed 4
    (fun i v => ∀ q' : Fin 2, i = ix3 q' (0 : Fin 8) (0 : Fin 128) → v = w0 + ∑ s ∈ Finset.range 64, tF V c (64 * q'.val + s))
    ?hP cfg1.N ⟨64 * q.val + 63, hlt⟩ (ix3 q (0 : Fin 8) (0 : Fin 128)) hlt ?hf ?hi q rfl
  case hf => exact (flush1_4 _).mpr (by show (64 * q.val + 63) % 64 = 63; omega)
  case hi =>
    show ix3 q (0 : Fin 8) (0 : Fin 128) ∈ ((View.whole main_v9_0).slice (win1_4.rect ⟨64 * q.val + 63, hlt⟩)).set
    rw [View.set_slice_whole, Rect.mem_set_unit]
    obtain ⟨i0, i1, i2⟩ := idx4 ⟨64 * q.val + 63, hlt⟩
    have hq : (64 * q.val + 63) / 64 = q.val := by omega
    intro a
    match a with
    | ⟨0, _⟩ => show win1_4.index ⟨64 * q.val + 63, hlt⟩ 0 * 1 ≤ q.val ∧ q.val < win1_4.index ⟨64 * q.val + 63, hlt⟩ 0 * 1 + 1
                rw [i0, hq]; omega
    | ⟨1, _⟩ => show win1_4.index ⟨64 * q.val + 63, hlt⟩ 1 * 8 ≤ 0 ∧ 0 < win1_4.index ⟨64 * q.val + 63, hlt⟩ 1 * 8 + 8
                rw [i1]; omega
    | ⟨2, _⟩ => show win1_4.index ⟨64 * q.val + 63, hlt⟩ 2 * 128 ≤ 0 ∧ 0 < win1_4.index ⟨64 * q.val + 63, hlt⟩ 2 * 128 + 128
                rw [i2]; omega
  case hP =>
    intro t hf y q' hq'
    have ht : t.val % 64 = 63 := (flush1_4 t).mp hf
    obtain ⟨i0, i1, i2⟩ := idx4 t
    have e0 : win1_4.index t 0 * 1 + 1 * (y 0).val = q'.val := congrArg (fun i : S2x8x128.Idx => (i 0).val) hq'
    have e1 : win1_4.index t 1 * 8 + 1 * (y 1).val = 0 := congrArg (fun i : S2x8x128.Idx => (i 1).val) hq'
    have e2 : win1_4.index t 2 * 128 + 1 * (y 2).val = 0 := congrArg (fun i : S2x8x128.Idx => (i 2).val) hq'
    have y0 : (y 0).val < 1 := (y 0).isLt
    have hy : y = e000 := by
      funext a
      apply Fin.ext
      match a with
      | ⟨0, _⟩ => show (y 0).val = 0; omega
      | ⟨1, _⟩ => show (y 1).val = 0; omega
      | ⟨2, _⟩ => show (y 2).val = 0; omega
    have htv : t.val = 64 * q'.val + 63 := by rw [i0] at e0; omega
    subst hy
    show (dat1 V c).after 4 t e000 = _
    rw [after1_4]
    have same : ∀ (u : ℕ) (hu : u < cfg1.N), u = t.val → (outsAt1 V c u hu).1 e000 = (outsAt1 V c t.val t.isLt).1 e000 :=
      fun u hu e => by subst e; rfl
    rw [← same (64 * q'.val + 63) (by rw [← htv]; exact t.isLt) htv.symm]
    exact closed4 V c q'.val 63 (by omega) _

/-! ## The second accumulator: distances -/

/-- At the first point of a run the entry is `+0.0` plus the point's tile sum. -/
theorem reset5 (c : Dev nD) (n : ℕ) (h : n < cfg1.N) (hn : n % 64 = 0) :
    (outsAt1 V c n h).2 e000 = w0 + tD V c n := by
  refine (congrArg (fun p : Vec Ideal S1x8x128 .f32 × Vec Ideal S1x8x128 .f32 => p.2 e000) (outsAt1_A V c ⟨n, h⟩ hn)).trans ?_
  refine (out_A_5 c (grid1.coords ⟨n, h⟩) (ms1_0 ⟨n, h⟩) (hs1_0 ⟨n, h⟩) (ms1_1 ⟨n, h⟩) (hs1_1 ⟨n, h⟩) (ms1_2 ⟨n, h⟩) (hs1_2 ⟨n, h⟩) (ms1_3 ⟨n, h⟩) (hs1_3 ⟨n, h⟩) (ms1_4 ⟨n, h⟩) (hs1_4 ⟨n, h⟩) (ms1_5 ⟨n, h⟩) (hs1_5 ⟨n, h⟩) (iblk1 V c 0 ⟨n, h⟩) (iblk1 V c 1 ⟨n, h⟩) (iblk1 V c 2 ⟨n, h⟩) (iblk1 V c 3 ⟨n, h⟩) ((hcond1_0 ⟨n, h⟩).mpr hn)).trans ?_
  exact congrArg (w0 + ·) (tD_lt V c _ h).symm

/-- At every other point the entry is what the point before left plus the point's tile sum. -/
theorem step5 (c : Dev nD) (n : ℕ) (h : n + 1 < cfg1.N) (hn : ¬(n + 1) % 64 = 0) :
    (outsAt1 V c (n + 1) h).2 e000 = (outsAt1 V c n (Nat.lt_of_succ_lt h)).2 e000 + tD V c (n + 1) := by
  refine (congrArg (fun p : Vec Ideal S1x8x128 .f32 × Vec Ideal S1x8x128 .f32 => p.2 e000) (outsAt1_B V c ⟨n + 1, h⟩ hn)).trans ?_
  refine (out_B_5 c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (iblk1 V c 0 ⟨n + 1, h⟩) (iblk1 V c 1 ⟨n + 1, h⟩) (iblk1 V c 2 ⟨n + 1, h⟩) (iblk1 V c 3 ⟨n + 1, h⟩) (fun hh => hn ((hcond1_0 ⟨n + 1, h⟩).mp hh))
    (outsAt1 V c n (Nat.lt_of_succ_lt h)).1 (outsAt1 V c n (Nat.lt_of_succ_lt h)).2).trans ?_
  exact congrArg ((outsAt1 V c n (Nat.lt_of_succ_lt h)).2 e000 + ·) (tD_lt V c _ h).symm

/-- So at point `64·q + j` of run `q` the entry is `+0.0` plus the tile sums of the run's points up to it. -/
theorem closed5 (c : Dev nD) (q j : ℕ) (hj : j < 64) (h : 64 * q + j < cfg1.N) :
    (outsAt1 V c (64 * q + j) h).2 e000 = w0 + ∑ s ∈ Finset.range (j + 1), tD V c (64 * q + s) :=
  Cert.LibTiles.acc_closed (fun n h => (outsAt1 V c n h).2 e000) 64 w0 (tD V c) (reset5 V c) (step5 V c) q j hj h

/-- Output window 5's block at a point: block `t / 64` along the core axis, the whole `[8, 128]` slab. -/
theorem idx5 : ∀ t : Fin cfg1.N, win1_5.index t 0 = t.val / 64 ∧ win1_5.index t 1 = 0 ∧ win1_5.index t 2 = 0 :=
  (by decide +kernel : ∀ t : Fin grid1.N, win1_5.index t 0 = t.val / 64 ∧ win1_5.index t 1 = 0 ∧ win1_5.index t 2 = 0)

/-- THE ARRAY AFTER THE REGION, at entry `(q, 0, 0)`: core `q`'s whole run, `+0.0` plus its 64 tile sums. -/
theorem final5 (c : Dev nD) (q : Fin 2) :
    (dat1 V c).arrAt 5 cfg1.N (ix3 q (0 : Fin 8) (0 : Fin 128)) = w0 + ∑ s ∈ Finset.range 64, tD V c (64 * q.val + s) := by
  have hN : cfg1.N = 128 := N_1
  have hlt : 64 * q.val + 63 < cfg1.N := by have := q.isLt; omega
  refine (dat1 V c).arrAt_forall_of_flushed 5
    (fun i v => ∀ q' : Fin 2, i = ix3 q' (0 : Fin 8) (0 : Fin 128) → v = w0 + ∑ s ∈ Finset.range 64, tD V c (64 * q'.val + s))
    ?hP cfg1.N ⟨64 * q.val + 63, hlt⟩ (ix3 q (0 : Fin 8) (0 : Fin 128)) hlt ?hf ?hi q rfl
  case hf => exact (flush1_5 _).mpr (by show (64 * q.val + 63) % 64 = 63; omega)
  case hi =>
    show ix3 q (0 : Fin 8) (0 : Fin 128) ∈ ((View.whole main_v9_1).slice (win1_5.rect ⟨64 * q.val + 63, hlt⟩)).set
    rw [View.set_slice_whole, Rect.mem_set_unit]
    obtain ⟨i0, i1, i2⟩ := idx5 ⟨64 * q.val + 63, hlt⟩
    have hq : (64 * q.val + 63) / 64 = q.val := by omega
    intro a
    match a with
    | ⟨0, _⟩ => show win1_5.index ⟨64 * q.val + 63, hlt⟩ 0 * 1 ≤ q.val ∧ q.val < win1_5.index ⟨64 * q.val + 63, hlt⟩ 0 * 1 + 1
                rw [i0, hq]; omega
    | ⟨1, _⟩ => show win1_5.index ⟨64 * q.val + 63, hlt⟩ 1 * 8 ≤ 0 ∧ 0 < win1_5.index ⟨64 * q.val + 63, hlt⟩ 1 * 8 + 8
                rw [i1]; omega
    | ⟨2, _⟩ => show win1_5.index ⟨64 * q.val + 63, hlt⟩ 2 * 128 ≤ 0 ∧ 0 < win1_5.index ⟨64 * q.val + 63, hlt⟩ 2 * 128 + 128
                rw [i2]; omega
  case hP =>
    intro t hf y q' hq'
    have ht : t.val % 64 = 63 := (flush1_5 t).mp hf
    obtain ⟨i0, i1, i2⟩ := idx5 t
    have e0 : win1_5.index t 0 * 1 + 1 * (y 0).val = q'.val := congrArg (fun i : S2x8x128.Idx => (i 0).val) hq'
    have e1 : win1_5.index t 1 * 8 + 1 * (y 1).val = 0 := congrArg (fun i : S2x8x128.Idx => (i 1).val) hq'
    have e2 : win1_5.index t 2 * 128 + 1 * (y 2).val = 0 := congrArg (fun i : S2x8x128.Idx => (i 2).val) hq'
    have y0 : (y 0).val < 1 := (y 0).isLt
    have hy : y = e000 := by
      funext a
      apply Fin.ext
      match a with
      | ⟨0, _⟩ => show (y 0).val = 0; omega
      | ⟨1, _⟩ => show (y 1).val = 0; omega
      | ⟨2, _⟩ => show (y 2).val = 0; omega
    have htv : t.val = 64 * q'.val + 63 := by rw [i0] at e0; omega
    subst hy
    show (dat1 V c).after 5 t e000 = _
    rw [after1_5]
    have same : ∀ (u : ℕ) (hu : u < cfg1.N), u = t.val → (outsAt1 V c u hu).2 e000 = (outsAt1 V c t.val t.isLt).2 e000 :=
      fun u hu e => by subst e; rfl
    rw [← same (64 * q'.val + 63) (by rw [← htv]; exact t.isLt) htv.symm]
    exact closed5 V c q'.val 63 (by omega) _

end Cert.KernelIdeal.Region1

end
-- ==== Proof.Bridge1.lean ====
/-
  Kernel region 1's two accumulators against the stream's sums over all 262144 rows.

  Row tile `t` holds rows `2048·t, …, 2048·t + 2047` of the stream, and run `q` of the grid takes the tiles
  `64·q, …, 64·q + 63`. Entry `(q, 0, 0)` of an accumulator array ends at the run's 64 tile sums, each a sum over the
  tile's 2048 rows, so the two entries together are the sum over all 262144 = 2·64·2048 rows, in another grouping:
  addition of extended reals is commutative and associative, infinite terms included. The `+0.0` each run starts from
  is the additive zero.
-/
import proofs.«151147_j84610855731482_2_alg».proof.Proof.Region1
import proofs.«151147_j84610855731482_2_alg».proof.Proof.LibTiles
import proofs.«151147_j84610855731482_2_alg».proof.Proof.Tail

set_option maxRecDepth 16384

noncomputable section

open scoped BigOperators

namespace Cert.KernelIdeal.Bridge1

open Cert.KernelIdeal Cert.KernelIdeal.Gen Cert.LossSpec Cert.KernelIdeal.Body1 Cert.KernelIdeal.Region1
open Idealize.ShloMosaic Idealize.ShloMosaic.TcCoe Idealize.SL.Sem Idealize.ShloMosaic.ValueIdx
open Idealize.ShloMosaic.Pipeline (Dat)

/-- Row `h` of a `[262144, w]` array, as a function of every natural `h` (`0` past the last row: never used). -/
def rowN {w : ℕ} (X : (⟨2, ![262144, w]⟩ : Shape).Idx → EReal) (h : ℕ) (k : Fin w) : EReal :=
  if hh : h < 262144 then X (ix2 ⟨h, hh⟩ k) else 0

theorem rowN_lt {w : ℕ} (X : (⟨2, ![262144, w]⟩ : Shape).Idx → EReal) (h : Fin 262144) (k : Fin w) :
    rowN X h.val k = X (ix2 h k) := by
  unfold rowN; rw [dif_pos h.isLt]

variable (V : (c : Dev nD) → (b : Ref sig .tc) → Buf (Elt Ideal) ((c : Thread nD τ).loc b)) (c : Dev nD)
  (X0 X1 : (⟨2, ![262144, 27]⟩ : Shape).Idx → EReal) (X2 : (⟨2, ![262144, 512]⟩ : Shape).Idx → EReal)
  (X3 : (⟨2, ![27, 512]⟩ : Shape).Idx → EReal)

/-- THE FOCAL SUM: the first accumulator's two entries add up to the sum of the focal terms over all rows, when the
    windows' blocks are the row tiles of the probabilities `X0` and the labels `X1`. -/
theorem focal_total
    (hb0 : ∀ (t : Fin cfg1.N) (r : Fin 2048) (k : Fin 27), iblk1 V c 0 t (ix2 r k) = rowN X0 (2048 * t.val + r.val) k)
    (hb1 : ∀ (t : Fin cfg1.N) (r : Fin 2048) (k : Fin 27), iblk1 V c 1 t (ix2 r k) = rowN X1 (2048 * t.val + r.val) k) :
    Cert.KernelIdeal.Tail.accSum ((dat1 V c).arrAt 4 cfg1.N)
      = focalSum (fun (r : Fin 262144) (k : Fin 27) => X0 (ix2 r k)) (fun (r : Fin 262144) (k : Fin 27) => X1 (ix2 r k)) := by
  have hN : cfg1.N = 128 := N_1
  have hT : ∀ (n : ℕ) (hn : n < cfg1.N),
      tF V c n = ∑ r : Fin 2048, focal (classProb (rowN X0 (2048 * n + r.val)) (rowN X1 (2048 * n + r.val))) := fun n hn => by
    rw [tF_lt V c n hn]
    unfold tileFocal
    refine Finset.sum_congr rfl fun r _ => congrArg focal ?_
    unfold classProb
    exact Finset.sum_congr rfl fun k _ => congrArg₂ (· * ·) (hb0 ⟨n, hn⟩ r k) (hb1 ⟨n, hn⟩ r k)
  calc Cert.KernelIdeal.Tail.accSum ((dat1 V c).arrAt 4 cfg1.N)
      = ∑ q : Fin 2, ∑ s ∈ Finset.range 64, ∑ r : Fin 2048,
          focal (classProb (rowN X0 (2048 * (64 * q.val + s) + r.val)) (rowN X1 (2048 * (64 * q.val + s) + r.val))) := by
        unfold Cert.KernelIdeal.Tail.accSum
        refine Finset.sum_congr rfl fun q _ => ?_
        rw [final4 V c q, w0_eq, zero_add]
        exact Finset.sum_congr rfl fun s hs =>
          hT _ (by have h1 := Finset.mem_range.mp hs; have h2 := q.isLt; omega)
    _ = ∑ h : Fin 262144, focal (classProb (rowN X0 h.val) (rowN X1 h.val)) :=
        Cert.LibTiles.sum_runs_tiles_rows (A := 2) (J := 64) (B := 2048) (N := 262144) (by norm_num)
          (fun h => focal (classProb (rowN X0 h) (rowN X1 h)))
    _ = _ := by
        unfold focalSum
        refine Finset.sum_congr rfl fun h _ => congrArg focal ?_
        unfold classProb
        exact Finset.sum_congr rfl fun k _ => congrArg₂ (· * ·) (rowN_lt X0 h k) (rowN_lt X1 h k)

/-- THE DISTANCE SUM: the second accumulator's two entries add up to the sum of the distances over all rows, when the
    windows' blocks are the row tiles of the labels `X1` and the codes `X2`, and the whole prototype table `X3`. -/
theorem dist_total
    (hb1 : ∀ (t : Fin cfg1.N) (r : Fin 2048) (k : Fin 27), iblk1 V c 1 t (ix2 r k) = rowN X1 (2048 * t.val + r.val) k)
    (hb2 : ∀ (t : Fin cfg1.N) (r : Fin 2048) (d : Fin 512), iblk1 V c 2 t (ix2 r d) = rowN X2 (2048 * t.val + r.val) d)
    (hb3 : ∀ (t : Fin cfg1.N) (k : Fin 27) (d : Fin 512), iblk1 V c 3 t (ix2 k d) = X3 (ix2 k d)) :
    Cert.KernelIdeal.Tail.accSum ((dat1 V c).arrAt 5 cfg1.N)
      = distSum (fun (r : Fin 262144) (d : Fin 512) => X2 (ix2 r d)) (fun (r : Fin 262144) (k : Fin 27) => X1 (ix2 r k))
          (fun (k : Fin 27) (d : Fin 512) => X3 (ix2 k d)) := by
  have hN : cfg1.N = 128 := N_1
  have hT : ∀ (n : ℕ) (hn : n < cfg1.N),
      tD V c n = ∑ r : Fin 2048, Cert.LossSpec.dist (rowN X2 (2048 * n + r.val)) (rowN X1 (2048 * n + r.val))
        (fun (k : Fin 27) (d : Fin 512) => X3 (ix2 k d)) := fun n hn => by
    rw [tD_lt V c n hn]
    unfold tileDist
    refine Finset.sum_congr rfl fun r _ => ?_
    exact congr (congr (congrArg Cert.LossSpec.dist (funext fun d => hb2 ⟨n, hn⟩ r d)) (funext fun k => hb1 ⟨n, hn⟩ r k))
      (funext fun k => funext fun d => hb3 ⟨n, hn⟩ k d)
  calc Cert.KernelIdeal.Tail.accSum ((dat1 V c).arrAt 5 cfg1.N)
      = ∑ q : Fin 2, ∑ s ∈ Finset.range 64, ∑ r : Fin 2048,
          Cert.LossSpec.dist (rowN X2 (2048 * (64 * q.val + s) + r.val)) (rowN X1 (2048 * (64 * q.val + s) + r.val))
            (fun (k : Fin 27) (d : Fin 512) => X3 (ix2 k d)) := by
        unfold Cert.KernelIdeal.Tail.accSum
        refine Finset.sum_congr rfl fun q _ => ?_
        rw [final5 V c q, w0_eq, zero_add]
        exact Finset.sum_congr rfl fun s hs =>
          hT _ (by have h1 := Finset.mem_range.mp hs; have h2 := q.isLt; omega)
    _ = ∑ h : Fin 262144, Cert.LossSpec.dist (rowN X2 h.val) (rowN X1 h.val) (fun (k : Fin 27) (d : Fin 512) => X3 (ix2 k d)) :=
        Cert.LibTiles.sum_runs_tiles_rows (A := 2) (J := 64) (B := 2048) (N := 262144) (by norm_num)
          (fun h => Cert.LossSpec.dist (rowN X2 h) (rowN X1 h) (fun (k : Fin 27) (d : Fin 512) => X3 (ix2 k d)))
    _ = _ := by
        unfold distSum
        refine Finset.sum_congr rfl fun h _ => ?_
        exact congr (congr (congrArg Cert.LossSpec.dist (funext fun d => rowN_lt X2 h d)) (funext fun k => rowN_lt X1 h k)) rfl

end Cert.KernelIdeal.Bridge1

end
-- ==== Proof.Entry.lean ====
/-
  What the two kernel regions read.

  Each region stages four arrays through its input windows, in the order probabilities, labels, codes, prototype
  table. At a region's entry each of these arrays still holds the launch memory: no host operation writes an argument
  and no region writes an array it only reads. A row window's block at grid point t is rows 2048 t … 2048 t + 2047 of
  its array, all columns (the index map sends the point (c, i) to block (16 c + i, 0), or (64 c + i, 0), which is block
  (t, 0) at the point's linear position t); the table's window is the whole table at every point.
-/
import proofs.«151147_j84610855731482_2_alg».proof.Proof.Gen.KernelIdeal.Frame
import Idealize.ShloMosaic.Lib.StableHlo.Run
import Idealize.ShloMosaic.Lib.ValueIdx
import Idealize.ShloMosaic.Lib.Pipeline.Value
import Idealize.ShloMosaic.Lib.Decide

set_option maxRecDepth 16384

noncomputable section

namespace Cert.KernelIdeal.Entry

open Cert.KernelIdeal Cert.KernelIdeal.Gen
open Idealize.ShloMosaic Idealize.ShloMosaic.TcCoe Idealize.ShloMosaic.StableHlo Idealize.ShloMosaic.ValueIdx Idealize.SL.Sem

variable {F : FTy → Type} [FloatOps F]
variable (m : (ℓ : Loc nD τ sig) → Buf (Elt F) ℓ) (ρ : Dev nD → PrngReg)

/-! ## The arrays at each region's entry -/

/-- At region 0's entry its four input arrays are the launch memory's arguments: probabilities, labels, codes, table. -/
theorem entry0_0 (c : Dev nD) : V0 m ρ c (Pipeline.arrRef spec0 0) = m ((c : Thread nD τ).loc main_arg0) := rfl
theorem entry0_1 (c : Dev nD) : V0 m ρ c (Pipeline.arrRef spec0 1) = m ((c : Thread nD τ).loc main_arg6) := rfl
theorem entry0_2 (c : Dev nD) : V0 m ρ c (Pipeline.arrRef spec0 2) = m ((c : Thread nD τ).loc main_arg2) := rfl
theorem entry0_3 (c : Dev nD) : V0 m ρ c (Pipeline.arrRef spec0 3) = m ((c : Thread nD τ).loc main_arg4) := rfl

/-- At region 1's entry its four input arrays are still the launch memory's arguments: the host operations between the
    regions write only their own results, and region 0 writes only its two accumulator arrays. -/
theorem entry1_0 (c : Dev nD) : V2 m ρ c (Pipeline.arrRef spec1 0) = m ((c : Thread nD τ).loc main_arg1) :=
  calc W2 m ρ c (Proc.devRef .tc main_arg1)
    _ = W1 m ρ c (Proc.devRef .tc main_arg1) := StableHlo.after_of_forall_not_mem (b := Proc.devRef .tc main_arg1) _ _ (List.forall_iff_forall_mem.mp (by
      simp only [hostOps1, List.Forall, StableHlo.nullary_writes, StableHlo.unary_writes, StableHlo.binary_writes,
        StableHlo.reshape_writes, Finset.mem_singleton]
      repeat' apply And.intro
      all_goals exact StableHlo.devRef_ne_of_ne (by decide)))
    _ = W0 m ρ c (Proc.devRef .tc main_arg1) := W1_of_ne m ρ c main_arg1 (by decide)
    _ = m ((c : Thread nD τ).loc main_arg1) := rfl

theorem entry1_1 (c : Dev nD) : V2 m ρ c (Pipeline.arrRef spec1 1) = m ((c : Thread nD τ).loc main_arg7) :=
  calc W2 m ρ c (Proc.devRef .tc main_arg7)
    _ = W1 m ρ c (Proc.devRef .tc main_arg7) := StableHlo.after_of_forall_not_mem (b := Proc.devRef .tc main_arg7) _ _ (List.forall_iff_forall_mem.mp (by
      simp only [hostOps1, List.Forall, StableHlo.nullary_writes, StableHlo.unary_writes, StableHlo.binary_writes,
        StableHlo.reshape_writes, Finset.mem_singleton]
      repeat' apply And.intro
      all_goals exact StableHlo.devRef_ne_of_ne (by decide)))
    _ = W0 m ρ c (Proc.devRef .tc main_arg7) := W1_of_ne m ρ c main_arg7 (by decide)
    _ = m ((c : Thread nD τ).loc main_arg7) := rfl

theorem entry1_2 (c : Dev nD) : V2 m ρ c (Pipeline.arrRef spec1 2) = m ((c : Thread nD τ).loc main_arg3) :=
  calc W2 m ρ c (Proc.devRef .tc main_arg3)
    _ = W1 m ρ c (Proc.devRef .tc main_arg3) := StableHlo.after_of_forall_not_mem (b := Proc.devRef .tc main_arg3) _ _ (List.forall_iff_forall_mem.mp (by
      simp only [hostOps1, List.Forall, StableHlo.nullary_writes, StableHlo.unary_writes, StableHlo.binary_writes,
        StableHlo.reshape_writes, Finset.mem_singleton]
      repeat' apply And.intro
      all_goals exact StableHlo.devRef_ne_of_ne (by decide)))
    _ = W0 m ρ c (Proc.devRef .tc main_arg3) := W1_of_ne m ρ c main_arg3 (by decide)
    _ = m ((c : Thread nD τ).loc main_arg3) := rfl

theorem entry1_3 (c : Dev nD) : V2 m ρ c (Pipeline.arrRef spec1 3) = m ((c : Thread nD τ).loc main_arg5) :=
  calc W2 m ρ c (Proc.devRef .tc main_arg5)
    _ = W1 m ρ c (Proc.devRef .tc main_arg5) := StableHlo.after_of_forall_not_mem (b := Proc.devRef .tc main_arg5) _ _ (List.forall_iff_forall_mem.mp (by
      simp only [hostOps1, List.Forall, StableHlo.nullary_writes, StableHlo.unary_writes, StableHlo.binary_writes,
        StableHlo.reshape_writes, Finset.mem_singleton]
      repeat' apply And.intro
      all_goals exact StableHlo.devRef_ne_of_ne (by decide)))
    _ = W0 m ρ c (Proc.devRef .tc main_arg5) := W1_of_ne m ρ c main_arg5 (by decide)
    _ = m ((c : Thread nD τ).loc main_arg5) := rfl

/-! ## The windows' blocks read at an index -/

section Blocks
variable (V : (c : Dev nD) → (b : Ref sig .tc) → Buf (Elt F) ((c : Thread nD τ).loc b))

/-- Row r of the block at point t of region 0 is a row of a 65536-row array: the grid has 32 points. -/
theorem row_lt0 (t : Fin cfg0.N) (r : Fin 2048) : 2048 * t.val + r.val < 65536 := by
  have h : t.val < 32 := lt_of_lt_of_eq t.isLt N_0
  have := r.isLt
  omega

/-- Row r of the block at point t of region 1 is a row of a 262144-row array: the grid has 128 points. -/
theorem row_lt1 (t : Fin cfg1.N) (r : Fin 2048) : 2048 * t.val + r.val < 262144 := by
  have h : t.val < 128 := lt_of_lt_of_eq t.isLt N_1
  have := r.isLt
  omega

/-- Region 0's window 0 fetches block (t, 0) at the point of linear position t. -/
theorem idx0_0 : ∀ t : Fin grid0.N, win0_0.index t 0 = t.val ∧ win0_0.index t 1 = 0 := by decide +kernel

/-- Region 0, window 0: entry (r, k) of the block at point t is entry (2048 t + r, k) of the array. -/
theorem iblk0_0_apply (c : Dev nD) (t : Fin cfg0.N) (r : Fin 2048) (k : Fin 160) :
    iblk0 V c 0 t (ix2 r k) = V c (Pipeline.arrRef spec0 0) (ix2 ⟨2048 * t.val + r.val, row_lt0 t r⟩ k) := by
  have hi := idx0_0 t
  unfold iblk0
  rw [View.read_apply]
  show V c (Pipeline.arrRef spec0 0) _ = V c (Pipeline.arrRef spec0 0) _
  refine congrArg (V c (Pipeline.arrRef spec0 0)) (funext fun a => Fin.ext ?_)
  match a with
  | ⟨0, _⟩ => show win0_0.index t 0 * 2048 + 1 * r.val = 2048 * t.val + r.val; rw [hi.1]; omega
  | ⟨1, _⟩ => show win0_0.index t 1 * 160 + 1 * k.val = k.val; rw [hi.2]; omega

/-- Region 0's window 1 fetches block (t, 0) at the point of linear position t. -/
theorem idx0_1 : ∀ t : Fin grid0.N, win0_1.index t 0 = t.val ∧ win0_1.index t 1 = 0 := by decide +kernel

/-- Region 0, window 1: entry (r, k) of the block at point t is entry (2048 t + r, k) of the array. -/
theorem iblk0_1_apply (c : Dev nD) (t : Fin cfg0.N) (r : Fin 2048) (k : Fin 160) :
    iblk0 V c 1 t (ix2 r k) = V c (Pipeline.arrRef spec0 1) (ix2 ⟨2048 * t.val + r.val, row_lt0 t r⟩ k) := by
  have hi := idx0_1 t
  unfold iblk0
  rw [View.read_apply]
  show V c (Pipeline.arrRef spec0 1) _ = V c (Pipeline.arrRef spec0 1) _
  refine congrArg (V c (Pipeline.arrRef spec0 1)) (funext fun a => Fin.ext ?_)
  match a with
  | ⟨0, _⟩ => show win0_1.index t 0 * 2048 + 1 * r.val = 2048 * t.val + r.val; rw [hi.1]; omega
  | ⟨1, _⟩ => show win0_1.index t 1 * 160 + 1 * k.val = k.val; rw [hi.2]; omega

/-- Region 0's window 2 fetches block (t, 0) at the point of linear position t. -/
theorem idx0_2 : ∀ t : Fin grid0.N, win0_2.index t 0 = t.val ∧ win0_2.index t 1 = 0 := by decide +kernel

/-- Region 0, window 2: entry (r, k) of the block at point t is entry (2048 t + r, k) of the array. -/
theorem iblk0_2_apply (c : Dev nD) (t : Fin cfg0.N) (r : Fin 2048) (k : Fin 512) :
    iblk0 V c 2 t (ix2 r k) = V c (Pipeline.arrRef spec0 2) (ix2 ⟨2048 * t.val + r.val, row_lt0 t r⟩ k) := by
  have hi := idx0_2 t
  unfold iblk0
  rw [View.read_apply]
  show V c (Pipeline.arrRef spec0 2) _ = V c (Pipeline.arrRef spec0 2) _
  refine congrArg (V c (Pipeline.arrRef spec0 2)) (funext fun a => Fin.ext ?_)
  match a with
  | ⟨0, _⟩ => show win0_2.index t 0 * 2048 + 1 * r.val = 2048 * t.val + r.val; rw [hi.1]; omega
  | ⟨1, _⟩ => show win0_2.index t 1 * 512 + 1 * k.val = k.val; rw [hi.2]; omega

/-- Region 0's table window fetches block (0, 0) at every point. -/
theorem idx0_3 (t : Fin grid0.N) : win0_3.index t 0 = 0 ∧ win0_3.index t 1 = 0 := ⟨rfl, rfl⟩

/-- Region 0, window 3: the block at every point is the whole prototype table. -/
theorem iblk0_3_eq (c : Dev nD) (t : Fin cfg0.N) : iblk0 V c 3 t = V c (Pipeline.arrRef spec0 3) := by
  funext j
  unfold iblk0
  rw [View.read_apply]
  show V c (Pipeline.arrRef spec0 3) _ = V c (Pipeline.arrRef spec0 3) j
  refine congrArg (V c (Pipeline.arrRef spec0 3)) (funext fun a => Fin.ext ?_)
  match a with
  | ⟨0, _⟩ => show win0_3.index t 0 * 160 + 1 * (j 0).val = (j 0).val; rw [(idx0_3 t).1]; omega
  | ⟨1, _⟩ => show win0_3.index t 1 * 512 + 1 * (j 1).val = (j 1).val; rw [(idx0_3 t).2]; omega

/-- Region 1's window 0 fetches block (t, 0) at the point of linear position t. -/
theorem idx1_0 : ∀ t : Fin grid1.N, win1_0.index t 0 = t.val ∧ win1_0.index t 1 = 0 := by decide +kernel

/-- Region 1, window 0: entry (r, k) of the block at point t is entry (2048 t + r, k) of the array. -/
theorem iblk1_0_apply (c : Dev nD) (t : Fin cfg1.N) (r : Fin 2048) (k : Fin 27) :
    iblk1 V c 0 t (ix2 r k) = V c (Pipeline.arrRef spec1 0) (ix2 ⟨2048 * t.val + r.val, row_lt1 t r⟩ k) := by
  have hi := idx1_0 t
  unfold iblk1
  rw [View.read_apply]
  show V c (Pipeline.arrRef spec1 0) _ = V c (Pipeline.arrRef spec1 0) _
  refine congrArg (V c (Pipeline.arrRef spec1 0)) (funext fun a => Fin.ext ?_)
  match a with
  | ⟨0, _⟩ => show win1_0.index t 0 * 2048 + 1 * r.val = 2048 * t.val + r.val; rw [hi.1]; omega
  | ⟨1, _⟩ => show win1_0.index t 1 * 27 + 1 * k.val = k.val; rw [hi.2]; omega

/-- Region 1's window 1 fetches block (t, 0) at the point of linear position t. -/
theorem idx1_1 : ∀ t : Fin grid1.N, win1_1.index t 0 = t.val ∧ win1_1.index t 1 = 0 := by decide +kernel

/-- Region 1, window 1: entry (r, k) of the block at point t is entry (2048 t + r, k) of the array. -/
theorem iblk1_1_apply (c : Dev nD) (t : Fin cfg1.N) (r : Fin 2048) (k : Fin 27) :
    iblk1 V c 1 t (ix2 r k) = V c (Pipeline.arrRef spec1 1) (ix2 ⟨2048 * t.val + r.val, row_lt1 t r⟩ k) := by
  have hi := idx1_1 t
  unfold iblk1
  rw [View.read_apply]
  show V c (Pipeline.arrRef spec1 1) _ = V c (Pipeline.arrRef spec1 1) _
  refine congrArg (V c (Pipeline.arrRef spec1 1)) (funext fun a => Fin.ext ?_)
  match a with
  | ⟨0, _⟩ => show win1_1.index t 0 * 2048 + 1 * r.val = 2048 * t.val + r.val; rw [hi.1]; omega
  | ⟨1, _⟩ => show win1_1.index t 1 * 27 + 1 * k.val = k.val; rw [hi.2]; omega

/-- Region 1's window 2 fetches block (t, 0) at the point of linear position t. -/
theorem idx1_2 : ∀ t : Fin grid1.N, win1_2.index t 0 = t.val ∧ win1_2.index t 1 = 0 := by decide +kernel

/-- Region 1, window 2: entry (r, k) of the block at point t is entry (2048 t + r, k) of the array. -/
theorem iblk1_2_apply (c : Dev nD) (t : Fin cfg1.N) (r : Fin 2048) (k : Fin 512) :
    iblk1 V c 2 t (ix2 r k) = V c (Pipeline.arrRef spec1 2) (ix2 ⟨2048 * t.val + r.val, row_lt1 t r⟩ k) := by
  have hi := idx1_2 t
  unfold iblk1
  rw [View.read_apply]
  show V c (Pipeline.arrRef spec1 2) _ = V c (Pipeline.arrRef spec1 2) _
  refine congrArg (V c (Pipeline.arrRef spec1 2)) (funext fun a => Fin.ext ?_)
  match a with
  | ⟨0, _⟩ => show win1_2.index t 0 * 2048 + 1 * r.val = 2048 * t.val + r.val; rw [hi.1]; omega
  | ⟨1, _⟩ => show win1_2.index t 1 * 512 + 1 * k.val = k.val; rw [hi.2]; omega

/-- Region 1's table window fetches block (0, 0) at every point. -/
theorem idx1_3 (t : Fin grid1.N) : win1_3.index t 0 = 0 ∧ win1_3.index t 1 = 0 := ⟨rfl, rfl⟩

/-- Region 1, window 3: the block at every point is the whole prototype table. -/
theorem iblk1_3_eq (c : Dev nD) (t : Fin cfg1.N) : iblk1 V c 3 t = V c (Pipeline.arrRef spec1 3) := by
  funext j
  unfold iblk1
  rw [View.read_apply]
  show V c (Pipeline.arrRef spec1 3) _ = V c (Pipeline.arrRef spec1 3) j
  refine congrArg (V c (Pipeline.arrRef spec1 3)) (funext fun a => Fin.ext ?_)
  match a with
  | ⟨0, _⟩ => show win1_3.index t 0 * 27 + 1 * (j 0).val = (j 0).val; rw [(idx1_3 t).1]; omega
  | ⟨1, _⟩ => show win1_3.index t 1 * 512 + 1 * (j 1).val = (j 1).val; rw [(idx1_3 t).2]; omega

end Blocks

end Cert.KernelIdeal.Entry

end
-- ==== Proof.KValue.lean ====
/-
  The idealized kernel's result as one function of its eight argument arrays.

  The result buffer is the host tail's value of the four accumulator arrays (two regions, two accumulators each); each
  accumulator's two live entries add up to a sum over all rows of its stream; the blocks each window stages are the row
  tiles of the argument arrays, read off the memory the program was launched with (the second region is entered after
  host operations and a region that write none of its arrays). So the result is the loss of the launch memory's
  arguments.
-/
import proofs.«151147_j84610855731482_2_alg».proof.Proof.Bridge0
import proofs.«151147_j84610855731482_2_alg».proof.Proof.Bridge1
import proofs.«151147_j84610855731482_2_alg».proof.Proof.Tail
import proofs.«151147_j84610855731482_2_alg».proof.Proof.Entry

set_option maxRecDepth 16384

noncomputable section

open scoped BigOperators

namespace Cert.KernelIdeal.KValue

open Cert.KernelIdeal Cert.KernelIdeal.Gen Cert.LossSpec
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- The eight argument arrays of the launch memory on core `c`, as arrays of extended reals. -/
abbrev a0 : (⟨2, ![65536, 160]⟩ : Shape).Idx → EReal := m ((c : Thread nD τ).loc main_arg0)
abbrev a1 : (⟨2, ![262144, 27]⟩ : Shape).Idx → EReal := m ((c : Thread nD τ).loc main_arg1)
abbrev a2 : (⟨2, ![65536, 512]⟩ : Shape).Idx → EReal := m ((c : Thread nD τ).loc main_arg2)
abbrev a3 : (⟨2, ![262144, 512]⟩ : Shape).Idx → EReal := m ((c : Thread nD τ).loc main_arg3)
abbrev a4 : (⟨2, ![160, 512]⟩ : Shape).Idx → EReal := m ((c : Thread nD τ).loc main_arg4)
abbrev a5 : (⟨2, ![27, 512]⟩ : Shape).Idx → EReal := m ((c : Thread nD τ).loc main_arg5)
abbrev a6 : (⟨2, ![65536, 160]⟩ : Shape).Idx → EReal := m ((c : Thread nD τ).loc main_arg6)
abbrev a7 : (⟨2, ![262144, 27]⟩ : Shape).Idx → EReal := m ((c : Thread nD τ).loc main_arg7)

/-- The loss of the launch memory's arguments: the node stream's and the edge stream's focal and distance sums, combined. -/
def lossOf : EReal :=
  total
    (focalSum (fun (r : Fin 65536) (k : Fin 160) => a0 m c (ix2 r k)) (fun (r : Fin 65536) (k : Fin 160) => a6 m c (ix2 r k)))
    (distSum (fun (r : Fin 65536) (d : Fin 512) => a2 m c (ix2 r d)) (fun (r : Fin 65536) (k : Fin 160) => a6 m c (ix2 r k))
      (fun (k : Fin 160) (d : Fin 512) => a4 m c (ix2 k d)))
    (focalSum (fun (r : Fin 262144) (k : Fin 27) => a1 m c (ix2 r k)) (fun (r : Fin 262144) (k : Fin 27) => a7 m c (ix2 r k)))
    (distSum (fun (r : Fin 262144) (d : Fin 512) => a3 m c (ix2 r d)) (fun (r : Fin 262144) (k : Fin 27) => a7 m c (ix2 r k))
      (fun (k : Fin 27) (d : Fin 512) => a5 m c (ix2 k d)))

/-! ## The blocks the windows stage are the row tiles of the arguments -/

theorem blk0_0 (t : Fin cfg0.N) (r : Fin 2048) (k : Fin 160) :
    iblk0 (V0 m ρ) c 0 t (ix2 r k) = Bridge0.rowN (a0 m c) (2048 * t.val + r.val) k :=
  (Entry.iblk0_0_apply (V0 m ρ) c t r k).trans ((congrFun (Entry.entry0_0 m ρ c) _).trans
    (by unfold Bridge0.rowN; rw [dif_pos (Entry.row_lt0 t r)]))
theorem blk0_1 (t : Fin cfg0.N) (r : Fin 2048) (k : Fin 160) :
    iblk0 (V0 m ρ) c 1 t (ix2 r k) = Bridge0.rowN (a6 m c) (2048 * t.val + r.val) k :=
  (Entry.iblk0_1_apply (V0 m ρ) c t r k).trans ((congrFun (Entry.entry0_1 m ρ c) _).trans
    (by unfold Bridge0.rowN; rw [dif_pos (Entry.row_lt0 t r)]))
theorem blk0_2 (t : Fin cfg0.N) (r : Fin 2048) (d : Fin 512) :
    iblk0 (V0 m ρ) c 2 t (ix2 r d) = Bridge0.rowN (a2 m c) (2048 * t.val + r.val) d :=
  (Entry.iblk0_2_apply (V0 m ρ) c t r d).trans ((congrFun (Entry.entry0_2 m ρ c) _).trans
    (by unfold Bridge0.rowN; rw [dif_pos (Entry.row_lt0 t r)]))
theorem blk0_3 (t : Fin cfg0.N) (k : Fin 160) (d : Fin 512) :
    iblk0 (V0 m ρ) c 3 t (ix2 k d) = a4 m c (ix2 k d) :=
  (congrFun (Entry.iblk0_3_eq (V0 m ρ) c t) _).trans (congrFun (Entry.entry0_3 m ρ c) _)

theorem blk1_0 (t : Fin cfg1.N) (r : Fin 2048) (k : Fin 27) :
    iblk1 (V2 m ρ) c 0 t (ix2 r k) = Bridge1.rowN (a1 m c) (2048 * t.val + r.val) k :=
  (Entry.iblk1_0_apply (V2 m ρ) c t r k).trans ((congrFun (Entry.entry1_0 m ρ c) _).trans
    (by unfold Bridge1.rowN; rw [dif_pos (Entry.row_lt1 t r)]))
theorem blk1_1 (t : Fin cfg1.N) (r : Fin 2048) (k : Fin 27) :
    iblk1 (V2 m ρ) c 1 t (ix2 r k) = Bridge1.rowN (a7 m c) (2048 * t.val + r.val) k :=
  (Entry.iblk1_1_apply (V2 m ρ) c t r k).trans ((congrFun (Entry.entry1_1 m ρ c) _).trans
    (by unfold Bridge1.rowN; rw [dif_pos (Entry.row_lt1 t r)]))
theorem blk1_2 (t : Fin cfg1.N) (r : Fin 2048) (d : Fin 512) :
    iblk1 (V2 m ρ) c 2 t (ix2 r d) = Bridge1.rowN (a3 m c) (2048 * t.val + r.val) d :=
  (Entry.iblk1_2_apply (V2 m ρ) c t r d).trans ((congrFun (Entry.entry1_2 m ρ c) _).trans
    (by unfold Bridge1.rowN; rw [dif_pos (Entry.row_lt1 t r)]))
theorem blk1_3 (t : Fin cfg1.N) (k : Fin 27) (d : Fin 512) :
    iblk1 (V2 m ρ) c 3 t (ix2 k d) = a5 m c (ix2 k d) :=
  (congrFun (Entry.iblk1_3_eq (V2 m ρ) c t) _).trans (congrFun (Entry.entry1_3 m ρ c) _)

/-- THE KERNEL'S RESULT: the result buffer at the last boundary holds the loss of the launch memory's arguments. -/
theorem result_value : W4 (F := Ideal) m ρ c (Proc.devRef .tc main_v22) = fun _ => lossOf m c := by
  refine (Tail.result_eq m ρ c).trans (funext fun _ => ?_)
  unfold lossOf
  exact congr (congr (congr (congrArg total
    (Bridge0.focal_total (V0 m ρ) c (a0 m c) (a6 m c) (blk0_0 m ρ c) (blk0_1 m ρ c)))
    (Bridge0.dist_total (V0 m ρ) c (a6 m c) (a2 m c) (a4 m c) (blk0_1 m ρ c) (blk0_2 m ρ c) (blk0_3 m ρ c)))
    (Bridge1.focal_total (V2 m ρ) c (a1 m c) (a7 m c) (blk1_0 m ρ c) (blk1_1 m ρ c)))
    (Bridge1.dist_total (V2 m ρ) c (a7 m c) (a3 m c) (a5 m c) (blk1_1 m ρ c) (blk1_2 m ρ c) (blk1_3 m ρ c))

end Cert.KernelIdeal.KValue

end
-- ==== Proof.lean ====
/-
  The certificate: a kernel computing a focal-loss and prototype-distance objective over a node stream and an edge
  stream, against its array-language reference.

  For each stream the kernel reads row tiles of 2048 rows, two cores each taking half of the tiles, and accumulates per
  core the tile sums of the focal terms `-(1 - s)² · log s` (`s` the probability of the labelled class) and of the
  distances `sqrt (∑ (x - prototype + ε)²)` to the label-selected prototype; the host adds the two cores' totals, divides
  by the number of rows, and adds the four means. The reference takes each sum over all rows at once and writes the
  square as the power with exponent `2.0`.

  At the exact values (floats as extended reals) the two programs compute the same number: regrouping a finite sum by
  tiles and cores changes nothing, since addition is commutative and associative also at the infinities; the kernel's
  product of the label rows with the prototype table, its operands narrowed to bf16, is the reference's product; and
  the power `(1 - s) ^ 2` is the product `(1 - s) · (1 - s)` for every REAL `s`, which is where the precondition is used:
  with finite probabilities and labels every `s` is a real number (at `1 - s = -∞` the two spellings would differ).

  The kernel's idealization rewrote no operation, so it is the kernel's own text read at the exact values; the three
  programs run to completion without a fault and leave their arguments unchanged.
-/
import proofs.«151147_j84610855731482_2_alg».proof.Defs
import proofs.«151147_j84610855731482_2_alg».proof.Proof.Gen.Kernel
import proofs.«151147_j84610855731482_2_alg».proof.Proof.Gen.Kernel.Skeleton
import proofs.«151147_j84610855731482_2_alg».proof.Proof.Gen.Kernel.Launch
import proofs.«151147_j84610855731482_2_alg».proof.Proof.Gen.Kernel.Points
import proofs.«151147_j84610855731482_2_alg».proof.Proof.Gen.Kernel.Frame
import proofs.«151147_j84610855731482_2_alg».proof.Proof.Gen.KernelIdeal
import proofs.«151147_j84610855731482_2_alg».proof.Proof.Gen.KernelIdeal.Skeleton
import proofs.«151147_j84610855731482_2_alg».proof.Proof.Gen.KernelIdeal.Launch
import proofs.«151147_j84610855731482_2_alg».proof.Proof.Gen.KernelIdeal.Points
import proofs.«151147_j84610855731482_2_alg».proof.Proof.Gen.KernelIdeal.Frame
import proofs.«151147_j84610855731482_2_alg».proof.Proof.Gen.ReferenceIdeal
import proofs.«151147_j84610855731482_2_alg».proof.Proof.Gen.Pre_finite_inputs
import proofs.«151147_j84610855731482_2_alg».proof.Proof.RefRun
import proofs.«151147_j84610855731482_2_alg».proof.Proof.RefValue
import proofs.«151147_j84610855731482_2_alg».proof.Proof.Finite
import proofs.«151147_j84610855731482_2_alg».proof.Proof.KRun
import proofs.«151147_j84610855731482_2_alg».proof.Proof.KValue
import Idealize.ShloMosaic.Adequacy
import Idealize.ShloMosaic.Init

noncomputable section

namespace Cert.Proof

open Idealize.ShloMosaic Idealize.SL.Sem

/-- The kernel as printed runs to completion, nothing faulting, its arguments unchanged. -/
theorem frame_kernel : Cert.frame_Kernel := fun m ρ _ => Cert.Kernel.Gen.frame m ρ

/-- So does the kernel read at the exact values. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments, both idealized programs end with the loss of those arguments in their
    result: the kernel's by its two regions' accumulators and the host tail, the reference's by its composed host
    operations, the power read as a product because every true-class probability is real. -/
theorem algebraic : Cert.algebraic_KernelIdeal_ReferenceIdeal := by
  intro m ρ m' ρ' hpre hagree
  refine ⟨fun c => fun _ => Cert.KernelIdeal.KValue.lossOf m c, ?_, ?_⟩
  · refine (θ_run Cert.KernelIdeal.defs _ _).mono (fun r h c => ⟨?_, ?_, ?_, ?_, ?_, ?_, ?_, ?_, ?_⟩)
      (Cert.KernelIdeal.KRun.run_buffers m ρ)
    · exact (Cert.KernelIdeal.KRun.run_at m ρ Cert.KernelIdeal.main_v22 (by decide) r h c).trans
        (Cert.KernelIdeal.KValue.result_value m ρ c)
    · exact (Cert.KernelIdeal.KRun.run_at m ρ Cert.KernelIdeal.main_arg0 (by decide) r h c).trans (Cert.KernelIdeal.Gen.W4_main_arg0 m ρ c)
    · exact (Cert.KernelIdeal.KRun.run_at m ρ Cert.KernelIdeal.main_arg1 (by decide) r h c).trans (Cert.KernelIdeal.Gen.W4_main_arg1 m ρ c)
    · exact (Cert.KernelIdeal.KRun.run_at m ρ Cert.KernelIdeal.main_arg2 (by decide) r h c).trans (Cert.KernelIdeal.Gen.W4_main_arg2 m ρ c)
    · exact (Cert.KernelIdeal.KRun.run_at m ρ Cert.KernelIdeal.main_arg3 (by decide) r h c).trans (Cert.KernelIdeal.Gen.W4_main_arg3 m ρ c)
    · exact (Cert.KernelIdeal.KRun.run_at m ρ Cert.KernelIdeal.main_arg4 (by decide) r h c).trans (Cert.KernelIdeal.Gen.W4_main_arg4 m ρ c)
    · exact (Cert.KernelIdeal.KRun.run_at m ρ Cert.KernelIdeal.main_arg5 (by decide) r h c).trans (Cert.KernelIdeal.Gen.W4_main_arg5 m ρ c)
    · exact (Cert.KernelIdeal.KRun.run_at m ρ Cert.KernelIdeal.main_arg6 (by decide) r h c).trans (Cert.KernelIdeal.Gen.W4_main_arg6 m ρ c)
    · exact (Cert.KernelIdeal.KRun.run_at m ρ Cert.KernelIdeal.main_arg7 (by decide) r h c).trans (Cert.KernelIdeal.Gen.W4_main_arg7 m ρ c)
  · refine (θ_run Cert.ReferenceIdeal.defs _ _).mono (fun r h c => ⟨(h c).1.trans ?_, (h c).2⟩)
      (Cert.ReferenceIdeal.Value.run (F := Ideal) m' ρ')
    obtain ⟨h0, h1, h6, h7⟩ := Cert.FiniteInputs.real_of_pre _ _ _ _ _ _ _ _ (hpre c)
    rw [(hagree c).1, (hagree c).2.1, (hagree c).2.2.1, (hagree c).2.2.2.1, (hagree c).2.2.2.2.1,
      (hagree c).2.2.2.2.2.1, (hagree c).2.2.2.2.2.2.1, (hagree c).2.2.2.2.2.2.2]
    rw [Cert.ReferenceIdeal.Read.val_main_v44_eq, Cert.ReferenceIdeal.RefValue.ref_loss _ _ _ _ _ _ _ _ h0 h6 h1 h7]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
